-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_arg16 : FVec F S128 .f32) (main_arg17 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg13 : FVec F S128x128 .f32) (main_arg14 : FVec F S128x128 .f32) (main_arg15 : FVec F S128x128 .f32) (main_arg16 : FVec F S128 .f32) (main_arg17 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_v63 main_v67

def fn_part2 {F : FTy → Type} [FloatOps F] (main_arg9 : FVec F S128x128 .f32) (main_arg10 : FVec F S128x128 .f32) (main_arg11 : FVec F S128 .f32) (main_arg12 : FVec F S128 .f32) (main_arg13 : FVec F S128x128 .f32) (main_arg14 : FVec F S128x128 .f32) (main_arg15 : FVec F S128x128 .f32) (main_arg16 : FVec F S128 .f32) (main_arg17 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_v48 main_v49 main_v50

def fn_part1 {F : FTy → Type} [FloatOps F] (main_arg6 : FVec F S128 .f32) (main_arg7 : FVec F S128 .f32) (main_arg8 : FVec F S128x128 .f32) (main_arg9 : FVec F S128x128 .f32) (main_arg10 : FVec F S128x128 .f32) (main_arg11 : FVec F S128 .f32) (main_arg12 : FVec F S128 .f32) (main_arg13 : FVec F S128x128 .f32) (main_arg14 : FVec F S128x128 .f32) (main_arg15 : FVec F S128x128 .f32) (main_arg16 : FVec F S128 .f32) (main_arg17 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S100000x64 .f32) (main_arg1 : IVec S2x1600000 32) (main_arg2 : IVec S100000 32) (main_arg3 : FVec F S64x128 .f32) (main_arg4 : FVec F S64x128 .f32) (main_arg5 : FVec F S64x128 .f32) (main_arg6 : FVec F S128 .f32) (main_arg7 : FVec F S128 .f32) (main_arg8 : FVec F S128x128 .f32) (main_arg9 : FVec F S128x128 .f32) (main_arg10 : FVec F S128x128 .f32) (main_arg11 : FVec F S128 .f32) (main_arg12 : FVec F S128 .f32) (main_arg13 : FVec F S128x128 .f32) (main_arg14 : FVec F S128x128 .f32) (main_arg15 : FVec F S128x128 .f32) (main_arg16 : FVec F S128 .f32) (main_arg17 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x128 : Shape := ⟨2, ![100000, 128]⟩
abbrev S1x128 : Shape := ⟨2, ![1, 128]⟩
abbrev S5000x64 : Shape := ⟨2, ![5000, 64]⟩
abbrev S5000x128 : Shape := ⟨2, ![5000, 128]⟩
abbrev S1600000x128 : Shape := ⟨2, ![1600000, 128]⟩
abbrev S100000x1 : Shape := ⟨2, ![100000, 1]⟩
abbrev S64 : Shape := ⟨1, ![64]⟩
abbrev S64x1 : Shape := ⟨2, ![64, 1]⟩

abbrev nBuf : Space → Nat
  | .hbm => 170
  | .vmem => 63
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x128, .f32⟩
  | 4 => ⟨S64x128, .f32⟩
  | 5 => ⟨S64x128, .f32⟩
  | 6 => ⟨S128, .f32⟩
  | 7 => ⟨S128, .f32⟩
  | 8 => ⟨S128x128, .f32⟩
  | 9 => ⟨S128x128, .f32⟩
  | 10 => ⟨S128x128, .f32⟩
  | 11 => ⟨S128, .f32⟩
  | 12 => ⟨S128, .f32⟩
  | 13 => ⟨S128x128, .f32⟩
  | 14 => ⟨S128x128, .f32⟩
  | 15 => ⟨S128x128, .f32⟩
  | 16 => ⟨S128, .f32⟩
  | 17 => ⟨S128, .f32⟩
  | 18 => ⟨S1x1600000, .i32⟩
  | 19 => ⟨S1600000, .i32⟩
  | 20 => ⟨S1x1600000, .i32⟩
  | 21 => ⟨S1600000, .i32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x64, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x64, .f32⟩
  | 40 => ⟨S_, .f32⟩
  | 41 => ⟨S100000x64, .f32⟩
  | 42 => ⟨S1600000x1, .i32⟩
  | 43 => ⟨S100000x64, .f32⟩
  | 44 => ⟨S_, .f32⟩
  | 45 => ⟨S100000x64, .f32⟩
  | 46 => ⟨S1600000x1, .i32⟩
  | 47 => ⟨S100000x64, .f32⟩
  | 48 => ⟨S100000x128, .f32⟩
  | 49 => ⟨S1x128, .f32⟩
  | 50 => ⟨S1x128, .f32⟩
  | 51 => ⟨S_, .f32⟩
  | 52 => ⟨S1x128, .f32⟩
  | 53 => ⟨S1x128, .f32⟩
  | 54 => ⟨S_, .f32⟩
  | 55 => ⟨S1x128, .f32⟩
  | 56 => ⟨S1x128, .f32⟩
  | 57 => ⟨S1x128, .f32⟩
  | 58 => ⟨S1x128, .f32⟩
  | 59 => ⟨S_, .f32⟩
  | 60 => ⟨S1x128, .f32⟩
  | 61 => ⟨S1x128, .f32⟩
  | 62 => ⟨S1x128, .f32⟩
  | 63 => ⟨S1x128, .f32⟩
  | 64 => ⟨S1x128, .f32⟩
  | 65 => ⟨S100000x128, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x128, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x128, .f32⟩
  | 84 => ⟨S_, .f32⟩
  | 85 => ⟨S100000x128, .f32⟩
  | 86 => ⟨S1600000x1, .i32⟩
  | 87 => ⟨S100000x128, .f32⟩
  | 88 => ⟨S_, .f32⟩
  | 89 => ⟨S100000x128, .f32⟩
  | 90 => ⟨S1600000x1, .i32⟩
  | 91 => ⟨S100000x128, .f32⟩
  | 92 => ⟨S100000x128, .f32⟩
  | 93 => ⟨S1x128, .f32⟩
  | 94 => ⟨S1x128, .f32⟩
  | 95 => ⟨S_, .f32⟩
  | 96 => ⟨S1x128, .f32⟩
  | 97 => ⟨S1x128, .f32⟩
  | 98 => ⟨S_, .f32⟩
  | 99 => ⟨S1x128, .f32⟩
  | 100 => ⟨S1x128, .f32⟩
  | 101 => ⟨S1x128, .f32⟩
  | 102 => ⟨S1x128, .f32⟩
  | 103 => ⟨S_, .f32⟩
  | 104 => ⟨S1x128, .f32⟩
  | 105 => ⟨S1x128, .f32⟩
  | 106 => ⟨S1x128, .f32⟩
  | 107 => ⟨S1x128, .f32⟩
  | 108 => ⟨S1x128, .f32⟩
  | 109 => ⟨S100000x128, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x128, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x128, .f32⟩
  | _ => ⟨S100000x64, .f32⟩

abbrev hbmTy0_1 (i : Nat) : BufTy := match i % 128 with
  | 0 => ⟨S_, .f32⟩
  | 1 => ⟨S100000x128, .f32⟩
  | 2 => ⟨S1600000x1, .i32⟩
  | 3 => ⟨S100000x128, .f32⟩
  | 4 => ⟨S_, .f32⟩
  | 5 => ⟨S100000x128, .f32⟩
  | 6 => ⟨S1600000x1, .i32⟩
  | 7 => ⟨S100000x128, .f32⟩
  | 8 => ⟨S100000x128, .f32⟩
  | 9 => ⟨S1x128, .f32⟩
  | 10 => ⟨S1x128, .f32⟩
  | 11 => ⟨S_, .f32⟩
  | 12 => ⟨S1x128, .f32⟩
  | 13 => ⟨S1x128, .f32⟩
  | 14 => ⟨S_, .f32⟩
  | 15 => ⟨S1x128, .f32⟩
  | 16 => ⟨S1x128, .f32⟩
  | 17 => ⟨S1x128, .f32⟩
  | 18 => ⟨S1x128, .f32⟩
  | 19 => ⟨S_, .f32⟩
  | 20 => ⟨S1x128, .f32⟩
  | 21 => ⟨S1x128, .f32⟩
  | 22 => ⟨S1x128, .f32⟩
  | 23 => ⟨S1x128, .f32⟩
  | 24 => ⟨S1x128, .f32⟩
  | 25 => ⟨S100000x128, .f32⟩
  | 26 => ⟨S_, .f32⟩
  | 27 => ⟨S64x128, .f32⟩
  | 28 => ⟨S100000x1, .i32⟩
  | 29 => ⟨S64x128, .f32⟩
  | 30 => ⟨S_, .f32⟩
  | 31 => ⟨S100000, .f32⟩
  | 32 => ⟨S_, .f32⟩
  | 33 => ⟨S64, .f32⟩
  | 34 => ⟨S100000x1, .i32⟩
  | 35 => ⟨S64, .f32⟩
  | 36 => ⟨S_, .f32⟩
  | 37 => ⟨S64, .f32⟩
  | 38 => ⟨S64, .f32⟩
  | 39 => ⟨S64x1, .f32⟩
  | 40 => ⟨S64x128, .f32⟩
  | 41 => ⟨S64x128, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S128x128, .f32⟩
  | .local _ .vmem, ⟨28, _⟩ => ⟨S128x128, .f32⟩
  | .local _ .vmem, ⟨29, _⟩ => ⟨S128x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S128x128, .f32⟩
  | .local _ .vmem, ⟨49, _⟩ => ⟨S128x128, .f32⟩
  | .local _ .vmem, ⟨50, _⟩ => ⟨S128x128, .f32⟩
  | .local _ .vmem, ⟨51, _⟩ => ⟨S5000x128, .f32⟩
  | .local _ .vmem, ⟨52, _⟩ => ⟨S5000x128, .f32⟩
  | .local _ .vmem, ⟨53, _⟩ => ⟨S1x128, .f32⟩
  | .local _ .vmem, ⟨54, _⟩ => ⟨S1x128, .f32⟩
  | .local _ .vmem, ⟨55, _⟩ => ⟨S5000x128, .f32⟩
  | .local _ .vmem, ⟨56, _⟩ => ⟨S5000x128, .f32⟩
  | .local _ .vmem, ⟨57, _⟩ => ⟨S1x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S5000x128, .f32⟩
  | .local _ .vmem, ⟨62, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24_0 : Ref sig .tc := ⟨.hbm, 48, rfl⟩
abbrev main_v24_1 : Ref sig .tc := ⟨.hbm, 49, rfl⟩
abbrev main_v24_2 : Ref sig .tc := ⟨.hbm, 50, rfl⟩
abbrev main_cst_4 : Ref sig .tc := ⟨.hbm, 51, rfl⟩
abbrev main_v25 : Ref sig .tc := ⟨.hbm, 52, rfl⟩
abbrev main_v26 : Ref sig .tc := ⟨.hbm, 53, rfl⟩
abbrev main_cst_5 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_6 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c_7 : Ref sig .tc := ⟨.hbm, 66, rfl⟩
abbrev main_v37 : Ref sig .tc := ⟨.hbm, 67, rfl⟩
abbrev main_v38 : Ref sig .tc := ⟨.hbm, 68, rfl⟩
abbrev main_c_8 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_c_9 : Ref sig .tc := ⟨.hbm, 75, rfl⟩
abbrev main_v44 : Ref sig .tc := ⟨.hbm, 76, rfl⟩
abbrev main_v45 : Ref sig .tc := ⟨.hbm, 77, rfl⟩
abbrev main_c_10 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_11 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_12 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57_0 : Ref sig .tc := ⟨.hbm, 92, rfl⟩
abbrev main_v57_1 : Ref sig .tc := ⟨.hbm, 93, rfl⟩
abbrev main_v57_2 : Ref sig .tc := ⟨.hbm, 94, rfl⟩
abbrev main_cst_13 : Ref sig .tc := ⟨.hbm, 95, rfl⟩
abbrev main_v58 : Ref sig .tc := ⟨.hbm, 96, rfl⟩
abbrev main_v59 : Ref sig .tc := ⟨.hbm, 97, rfl⟩
abbrev main_cst_14 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_15 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_c_16 : Ref sig .tc := ⟨.hbm, 110, rfl⟩
abbrev main_v70 : Ref sig .tc := ⟨.hbm, 111, rfl⟩
abbrev main_v71 : Ref sig .tc := ⟨.hbm, 112, rfl⟩
abbrev main_c_17 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_c_18 : Ref sig .tc := ⟨.hbm, 119, rfl⟩
abbrev main_v77 : Ref sig .tc := ⟨.hbm, 120, rfl⟩
abbrev main_v78 : Ref sig .tc := ⟨.hbm, 121, rfl⟩
abbrev main_c_19 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_cst_20 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_cst_21 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90_0 : Ref sig .tc := ⟨.hbm, 136, rfl⟩
abbrev main_v90_1 : Ref sig .tc := ⟨.hbm, 137, rfl⟩
abbrev main_v90_2 : Ref sig .tc := ⟨.hbm, 138, rfl⟩
abbrev main_cst_22 : Ref sig .tc := ⟨.hbm, 139, rfl⟩
abbrev main_v91 : Ref sig .tc := ⟨.hbm, 140, rfl⟩
abbrev main_v92 : Ref sig .tc := ⟨.hbm, 141, rfl⟩
abbrev main_cst_23 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_cst_24 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_cst_25 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_cst_26 : Ref sig .tc := ⟨.hbm, 158, rfl⟩
abbrev main_v106 : Ref sig .tc := ⟨.hbm, 159, rfl⟩
abbrev main_cst_27 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_cst_28 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg8_0 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg6_0 : Ref sig .tc := ⟨.vmem, 51, rfl⟩
abbrev cc4_stg6_1 : Ref sig .tc := ⟨.vmem, 52, rfl⟩
abbrev cc4_stg7_0 : Ref sig .tc := ⟨.vmem, 53, rfl⟩
abbrev cc4_stg8_0 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg2_0 : Ref sig .tc := ⟨.vmem, 58, rfl⟩
abbrev cc5_stg3_0 : Ref sig .tc := ⟨.vmem, 59, rfl⟩
abbrev cc5_stg4_0 : Ref sig .tc := ⟨.vmem, 60, rfl⟩
abbrev cc5_stg5_0 : Ref sig .tc := ⟨.vmem, 61, rfl⟩
abbrev cc5_stg5_1 : Ref sig .tc := ⟨.vmem, 62, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31
abbrev cc2_sem7_0 : DmaSem sig := 32
abbrev cc2_sem8_0 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem5_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem4_0 : DmaSem sig := 49
abbrev cc4_sem5_0 : DmaSem sig := 50
abbrev cc4_sem6_0 : DmaSem sig := 51
abbrev cc4_sem6_1 : DmaSem sig := 52
abbrev cc4_sem7_0 : DmaSem sig := 53
abbrev cc4_sem8_0 : DmaSem sig := 54
abbrev cc5_sem0_0 : DmaSem sig := 55
abbrev cc5_sem0_1 : DmaSem sig := 56
abbrev cc5_sem1_0 : DmaSem sig := 57
abbrev cc5_sem2_0 : DmaSem sig := 58
abbrev cc5_sem3_0 : DmaSem sig := 59
abbrev cc5_sem4_0 : DmaSem sig := 60
abbrev cc5_sem5_0 : DmaSem sig := 61
abbrev cc5_sem5_1 : DmaSem sig := 62

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  inb_S1x128_S1x128_0_0 : ∀ a, (![0, 0] : Fin 2 → Nat) a + S1x128.size a ≤ S1x128.size a
  h_S1x128 : 0 < S1x128.numel
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  shapeCasts_S1x128_S1x128 : S1x128.ShapeCasts S1x128
  reduces_S5000x128_S128 : S5000x128.Reduces [0] S128
  shapeCasts_S128_S1x128 : S128.ShapeCasts S1x128
  bcast_S_S1x128 : S_.BroadcastsInDim S1x128 (![] : Fin 0 → Fin S1x128.rank)
  shapeCasts_S5000x128_S5000x128 : S5000x128.ShapeCasts S5000x128
  broadcasts_S1x128_S5000x128 : S1x128.Broadcasts S5000x128
  bcast_S_S100000x128 : S_.BroadcastsInDim S100000x128 (![] : Fin 0 → Fin S100000x128.rank)
  inb_S128x128_S128x128_0_0 : ∀ a, (![0, 0] : Fin 2 → Nat) a + S128x128.size a ≤ S128x128.size a
  h_S128x128 : 0 < S128x128.numel
  bcast_S_S64x128 : S_.BroadcastsInDim S64x128 (![] : Fin 0 → Fin S64x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S100000x128.size a
  hwx4_6 : ∀ i : grid4.Coords, EltTy.bits .f32 = 32 ∨ (Rect.block (s := S100000x128) S5000x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v24_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v24_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v56) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v57_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v57_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v57_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v57_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v69) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v69) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v86) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v89) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg13) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg14) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg15) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v90_0) S5000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v90_1) S1x128.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v90_2) S1x128.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v90_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v92) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v99) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v100) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v101) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v102) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x128 : Shape := ⟨2, ![100000, 128]⟩
abbrev S1x128 : Shape := ⟨2, ![1, 128]⟩
abbrev S1600000x128 : Shape := ⟨2, ![1600000, 128]⟩
abbrev S100000x1 : Shape := ⟨2, ![100000, 1]⟩
abbrev S64 : Shape := ⟨1, ![64]⟩
abbrev S64x1 : Shape := ⟨2, ![64, 1]⟩

abbrev nBuf : Space → Nat
  | .hbm => 230
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x128, .f32⟩
  | 4 => ⟨S64x128, .f32⟩
  | 5 => ⟨S64x128, .f32⟩
  | 6 => ⟨S128, .f32⟩
  | 7 => ⟨S128, .f32⟩
  | 8 => ⟨S128x128, .f32⟩
  | 9 => ⟨S128x128, .f32⟩
  | 10 => ⟨S128x128, .f32⟩
  | 11 => ⟨S128, .f32⟩
  | 12 => ⟨S128, .f32⟩
  | 13 => ⟨S128x128, .f32⟩
  | 14 => ⟨S128x128, .f32⟩
  | 15 => ⟨S128x128, .f32⟩
  | 16 => ⟨S128, .f32⟩
  | 17 => ⟨S128, .f32⟩
  | 18 => ⟨S1x1600000, .i32⟩
  | 19 => ⟨S1600000, .i32⟩
  | 20 => ⟨S1x1600000, .i32⟩
  | 21 => ⟨S1600000, .i32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x64, .f32⟩
  | 31 => ⟨S_, .f32⟩
  | 32 => ⟨S100000x64, .f32⟩
  | 33 => ⟨S1600000x1, .i32⟩
  | 34 => ⟨S100000x64, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x64, .f32⟩
  | 44 => ⟨S_, .f32⟩
  | 45 => ⟨S100000x64, .f32⟩
  | 46 => ⟨S1600000x1, .i32⟩
  | 47 => ⟨S100000x64, .f32⟩
  | 48 => ⟨S100000x128, .f32⟩
  | 49 => ⟨S100000x128, .f32⟩
  | 50 => ⟨S100000x128, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S_, .f32⟩
  | 57 => ⟨S128, .f32⟩
  | 58 => ⟨S_, .f32⟩
  | 59 => ⟨S128, .f32⟩
  | 60 => ⟨S128, .f32⟩
  | 61 => ⟨S1x128, .f32⟩
  | 62 => ⟨S100000x128, .f32⟩
  | 63 => ⟨S100000x128, .f32⟩
  | 64 => ⟨S100000x128, .f32⟩
  | 65 => ⟨S_, .f32⟩
  | 66 => ⟨S128, .f32⟩
  | 67 => ⟨S_, .f32⟩
  | 68 => ⟨S128, .f32⟩
  | 69 => ⟨S128, .f32⟩
  | 70 => ⟨S1x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S128, .f32⟩
  | 78 => ⟨S128, .f32⟩
  | 79 => ⟨S128, .f32⟩
  | 80 => ⟨S1x128, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000x128, .f32⟩
  | 95 => ⟨S_, .f32⟩
  | 96 => ⟨S100000x128, .f32⟩
  | 97 => ⟨S1600000x1, .i32⟩
  | 98 => ⟨S100000x128, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S_, .f32⟩
  | 109 => ⟨S100000x128, .f32⟩
  | 110 => ⟨S1600000x1, .i32⟩
  | 111 => ⟨S100000x128, .f32⟩
  | 112 => ⟨S100000x128, .f32⟩
  | 113 => ⟨S100000x128, .f32⟩
  | 114 => ⟨S100000x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S_, .f32⟩
  | 121 => ⟨S128, .f32⟩
  | 122 => ⟨S_, .f32⟩
  | 123 => ⟨S128, .f32⟩
  | 124 => ⟨S128, .f32⟩
  | 125 => ⟨S1x128, .f32⟩
  | 126 => ⟨S100000x128, .f32⟩
  | 127 => ⟨S100000x128, .f32⟩
  | _ => ⟨S100000x64, .f32⟩

abbrev hbmTy0_1 (i : Nat) : BufTy := match i % 128 with
  | 0 => ⟨S100000x128, .f32⟩
  | 1 => ⟨S_, .f32⟩
  | 2 => ⟨S128, .f32⟩
  | 3 => ⟨S_, .f32⟩
  | 4 => ⟨S128, .f32⟩
  | 5 => ⟨S128, .f32⟩
  | 6 => ⟨S1x128, .f32⟩
  | 7 => ⟨S100000x128, .f32⟩
  | 8 => ⟨S100000x128, .f32⟩
  | 9 => ⟨S1x128, .f32⟩
  | 10 => ⟨S100000x128, .f32⟩
  | 11 => ⟨S100000x128, .f32⟩
  | 12 => ⟨S_, .f32⟩
  | 13 => ⟨S128, .f32⟩
  | 14 => ⟨S128, .f32⟩
  | 15 => ⟨S128, .f32⟩
  | 16 => ⟨S1x128, .f32⟩
  | 17 => ⟨S100000x128, .f32⟩
  | 18 => ⟨S100000x128, .f32⟩
  | 19 => ⟨S1x128, .f32⟩
  | 20 => ⟨S100000x128, .f32⟩
  | 21 => ⟨S100000x128, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x128, .f32⟩
  | 44 => ⟨S_, .f32⟩
  | 45 => ⟨S100000x128, .f32⟩
  | 46 => ⟨S1600000x1, .i32⟩
  | 47 => ⟨S100000x128, .f32⟩
  | 48 => ⟨S100000x128, .f32⟩
  | 49 => ⟨S100000x128, .f32⟩
  | 50 => ⟨S100000x128, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S_, .f32⟩
  | 57 => ⟨S128, .f32⟩
  | 58 => ⟨S_, .f32⟩
  | 59 => ⟨S128, .f32⟩
  | 60 => ⟨S128, .f32⟩
  | 61 => ⟨S1x128, .f32⟩
  | 62 => ⟨S100000x128, .f32⟩
  | 63 => ⟨S100000x128, .f32⟩
  | 64 => ⟨S100000x128, .f32⟩
  | 65 => ⟨S_, .f32⟩
  | 66 => ⟨S128, .f32⟩
  | 67 => ⟨S_, .f32⟩
  | 68 => ⟨S128, .f32⟩
  | 69 => ⟨S128, .f32⟩
  | 70 => ⟨S1x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S128, .f32⟩
  | 78 => ⟨S128, .f32⟩
  | 79 => ⟨S128, .f32⟩
  | 80 => ⟨S1x128, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S_, .f32⟩
  | 87 => ⟨S64x128, .f32⟩
  | 88 => ⟨S100000x1, .i32⟩
  | 89 => ⟨S64x128, .f32⟩
  | 90 => ⟨S_, .f32⟩
  | 91 => ⟨S100000, .f32⟩
  | 92 => ⟨S_, .f32⟩
  | 93 => ⟨S64, .f32⟩
  | 94 => ⟨S100000x1, .i32⟩
  | 95 => ⟨S64, .f32⟩
  | 96 => ⟨S_, .f32⟩
  | 97 => ⟨S64, .f32⟩
  | 98 => ⟨S64, .f32⟩
  | 99 => ⟨S64x1, .f32⟩
  | 100 => ⟨S64x128, .f32⟩
  | 101 => ⟨S64x128, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_1 : Ref sig .tc := ⟨.hbm, 35, rfl⟩
abbrev main_v14 : Ref sig .tc := ⟨.hbm, 36, rfl⟩
abbrev main_v15 : Ref sig .tc := ⟨.hbm, 37, rfl⟩
abbrev main_c_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call0_cst : Ref sig .tc := ⟨.hbm, 53, rfl⟩
abbrev main_call0_v0 : Ref sig .tc := ⟨.hbm, 54, rfl⟩
abbrev main_v29 : Ref sig .tc := ⟨.hbm, 55, rfl⟩
abbrev main_cst_4 : Ref sig .tc := ⟨.hbm, 56, rfl⟩
abbrev main_v30 : Ref sig .tc := ⟨.hbm, 57, rfl⟩
abbrev main_cst_5 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_6 : Ref sig .tc := ⟨.hbm, 65, rfl⟩
abbrev main_v37 : Ref sig .tc := ⟨.hbm, 66, rfl⟩
abbrev main_cst_7 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_8 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_c_9 : Ref sig .tc := ⟨.hbm, 86, rfl⟩
abbrev main_v55 : Ref sig .tc := ⟨.hbm, 87, rfl⟩
abbrev main_v56 : Ref sig .tc := ⟨.hbm, 88, rfl⟩
abbrev main_c_10 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_11 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_c_12 : Ref sig .tc := ⟨.hbm, 99, rfl⟩
abbrev main_v65 : Ref sig .tc := ⟨.hbm, 100, rfl⟩
abbrev main_v66 : Ref sig .tc := ⟨.hbm, 101, rfl⟩
abbrev main_c_13 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_14 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_call1_cst : Ref sig .tc := ⟨.hbm, 117, rfl⟩
abbrev main_call1_v0 : Ref sig .tc := ⟨.hbm, 118, rfl⟩
abbrev main_v80 : Ref sig .tc := ⟨.hbm, 119, rfl⟩
abbrev main_cst_15 : Ref sig .tc := ⟨.hbm, 120, rfl⟩
abbrev main_v81 : Ref sig .tc := ⟨.hbm, 121, rfl⟩
abbrev main_cst_16 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_17 : Ref sig .tc := ⟨.hbm, 129, rfl⟩
abbrev main_v88 : Ref sig .tc := ⟨.hbm, 130, rfl⟩
abbrev main_cst_18 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_19 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_c_20 : Ref sig .tc := ⟨.hbm, 150, rfl⟩
abbrev main_v106 : Ref sig .tc := ⟨.hbm, 151, rfl⟩
abbrev main_v107 : Ref sig .tc := ⟨.hbm, 152, rfl⟩
abbrev main_c_21 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_cst_22 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_c_23 : Ref sig .tc := ⟨.hbm, 163, rfl⟩
abbrev main_v116 : Ref sig .tc := ⟨.hbm, 164, rfl⟩
abbrev main_v117 : Ref sig .tc := ⟨.hbm, 165, rfl⟩
abbrev main_c_24 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_25 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_call2_cst : Ref sig .tc := ⟨.hbm, 181, rfl⟩
abbrev main_call2_v0 : Ref sig .tc := ⟨.hbm, 182, rfl⟩
abbrev main_v131 : Ref sig .tc := ⟨.hbm, 183, rfl⟩
abbrev main_cst_26 : Ref sig .tc := ⟨.hbm, 184, rfl⟩
abbrev main_v132 : Ref sig .tc := ⟨.hbm, 185, rfl⟩
abbrev main_cst_27 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_cst_28 : Ref sig .tc := ⟨.hbm, 193, rfl⟩
abbrev main_v139 : Ref sig .tc := ⟨.hbm, 194, rfl⟩
abbrev main_cst_29 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_cst_30 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_cst_31 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_cst_32 : Ref sig .tc := ⟨.hbm, 218, rfl⟩
abbrev main_v160 : Ref sig .tc := ⟨.hbm, 219, rfl⟩
abbrev main_cst_33 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_cst_34 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000x128 : S_.BroadcastsInDim S100000x128 (![] : Fin 0 → Fin S100000x128.rank)
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.PreFinite.lean ====
/-
  The precondition read back. `Cert.Pre_finite_inputs.fn` computes, for each of the sixteen float arguments x, the word
  jnp.all(|x| < +∞): the reduction by `and`, from 1, over all axes, of the comparison of |x| = max x (-x) with the
  constant +∞ (the pattern 0x7F800000) broadcast to x's shape; and it is the `and` of these sixteen words. When that
  word is 1 every one of the sixteen is 1 (`IntOp.andi_eq_one`), so every element of every comparison is 1
  (`Host.reduce_andi_all`), so every element x i has max (x i) (-(x i)) < ⊤ in the extended reals, which says that x i
  is neither ⊥ nor ⊤: it is a real number.
-/
import proofs.«136260_j12601434046916_1_alg».proof.Pre_finite_inputs
import Idealize.ShloMosaic.PureOps.Ideal
import Idealize.ShloMosaic.Lib.ValueIdx
import Idealize.ShloMosaic.Lib.ReduceAll

noncomputable section

namespace Cert.PreFinite

open Idealize.ShloMosaic Cert.Pre_finite_inputs

/-- The scalar shape has one index. -/
instance : Subsingleton S_.Idx := ⟨fun a b => funext fun d => d.elim0⟩

/-- An extended real whose absolute value max x (-x) is below +∞ is a real number: ⊥ and ⊤ both have absolute value ⊤. -/
theorem real_of_abs_lt_top (x : EReal) (h : max x (-x) < ⊤) : ∃ v : ℝ, x = (v : EReal) := by
  induction x using EReal.rec with
  | bot => simp at h
  | coe r => exact ⟨r, rfl⟩
  | top => simp at h

/-- The pattern 0x7F800000 denotes +∞. -/
theorem inf_bits : Ideal.ofBits .f32 0x7F800000#32 = (⊤ : EReal) := by simp [Ideal.ofBits, Ideal.ieee]

/-- One jnp.all(|x| < +∞), for an array x of any shape s: if the reduction by `and` over all axes of the comparison
    of |x| with the broadcast +∞ is 1, every element of x is a real number. -/
theorem finite_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant S_ .f32 0x7F800000#32)))
          (constantI S_ 1 1#1) hr hu j = 1#1) :
    ∀ i, ∃ v : ℝ, x i = (v : EReal) := by
  intro i
  have h1 := Host.reduce_andi_all _ _ hr hu j e i
  have h2 : BitVec.ofBool (decide (max (x i) (-(x i)) < Ideal.ofBits .f32 0x7F800000#32)) = 1#1 := h1
  rw [inf_bits] at h2
  have h3 : max (x i) (-(x i)) < (⊤ : EReal) := by
    by_contra hn
    rw [decide_eq_false hn] at h2
    exact absurd h2 (by decide)
  exact real_of_abs_lt_top _ h3

/-- THE PRECONDITION DECODED: when the and of the sixteen words jnp.all(|x| < +∞) is 1, every element of every one of the
    sixteen float arguments is a real number. (The word is the left-nested and
    ((…(w0 ∧ w3) ∧ w4) ∧ …) ∧ w17 of the arguments' words in argument order; the two integer arguments a1, a2 are not read.) -/
theorem finite_of_pre [Facts]
    (a0 : FVec Ideal S100000x64 .f32) (a1 : IVec S2x1600000 32) (a2 : IVec S100000 32)
    (a3 a4 a5 : FVec Ideal S64x128 .f32) (a6 a7 : FVec Ideal S128 .f32) (a8 a9 a10 : FVec Ideal S128x128 .f32)
    (a11 a12 : FVec Ideal S128 .f32) (a13 a14 a15 : FVec Ideal S128x128 .f32) (a16 a17 : FVec Ideal S128 .f32)
    (h : fn (F := Ideal) a0 a1 a2 a3 a4 a5 a6 a7 a8 a9 a10 a11 a12 a13 a14 a15 a16 a17 = fun _ => 1#1) :
    (∀ i, ∃ v : ℝ, a0 i = (v : EReal)) ∧ (∀ i, ∃ v : ℝ, a3 i = (v : EReal)) ∧ (∀ i, ∃ v : ℝ, a4 i = (v : EReal))
    ∧ (∀ i, ∃ v : ℝ, a5 i = (v : EReal)) ∧ (∀ i, ∃ v : ℝ, a6 i = (v : EReal)) ∧ (∀ i, ∃ v : ℝ, a7 i = (v : EReal))
    ∧ (∀ i, ∃ v : ℝ, a8 i = (v : EReal)) ∧ (∀ i, ∃ v : ℝ, a9 i = (v : EReal)) ∧ (∀ i, ∃ v : ℝ, a10 i = (v : EReal))
    ∧ (∀ i, ∃ v : ℝ, a11 i = (v : EReal)) ∧ (∀ i, ∃ v : ℝ, a12 i = (v : EReal)) ∧ (∀ i, ∃ v : ℝ, a13 i = (v : EReal))
    ∧ (∀ i, ∃ v : ℝ, a14 i = (v : EReal)) ∧ (∀ i, ∃ v : ℝ, a15 i = (v : EReal)) ∧ (∀ i, ∃ v : ℝ, a16 i = (v : EReal))
    ∧ (∀ i, ∃ v : ℝ, a17 i = (v : EReal)) := by
  have e := congrFun h ValueIdx.ix0
  dsimp only [fn, fn_part1, fn_part2, fn_part3, fn_part4, andi] at e
  simp only [IntOp.andi_eq_one] at e
  obtain ⟨⟨⟨⟨⟨⟨⟨⟨⟨⟨⟨⟨⟨⟨⟨e0, e3⟩, e4⟩, e5⟩, e6⟩, e7⟩, e8⟩, e9⟩, e10⟩, e11⟩, e12⟩, e13⟩, e14⟩, e15⟩, e16⟩, e17⟩ := e
  exact ⟨finite_of_all a0 _ _ _ _ e0, finite_of_all a3 _ _ _ _ e3, finite_of_all a4 _ _ _ _ e4, finite_of_all a5 _ _ _ _ e5,
    finite_of_all a6 _ _ _ _ e6, finite_of_all a7 _ _ _ _ e7, finite_of_all a8 _ _ _ _ e8, finite_of_all a9 _ _ _ _ e9,
    finite_of_all a10 _ _ _ _ e10, finite_of_all a11 _ _ _ _ e11, finite_of_all a12 _ _ _ _ e12, finite_of_all a13 _ _ _ _ e13,
    finite_of_all a14 _ _ _ _ e14, finite_of_all a15 _ _ _ _ e15, finite_of_all a16 _ _ _ _ e16, finite_of_all a17 _ _ _ _ e17⟩

end Cert.PreFinite

end
-- ==== Proof.KernelRun.lean ====
/-
  The idealized kernel's run with its RESULT named. The program is thirteen segments — seven stretches of host
  operations around six kernel regions — and the contents of every buffer at each segment boundary are a fold from
  the launch memory (`Gen.W0` … `Gen.W13`). Every weakly fair execution terminates without a fault in a state whose
  unscoped buffers hold the last boundary's contents; read at the result buffer that gives the result as the fold's
  value there, and read at each argument it gives the argument as launched. Later modules open the fold.
-/
import proofs.«136260_j12601434046916_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument as launched. -/
theorem run : θ_run defs (onTc (τ := τ) (main (F := F))) ⟨m, fun _ => 0, ρ⟩ (fun r => ∀ c : Dev nD,
      r.2.mem ((c.tc : Thread nD τ).loc main_v114) = W13 m ρ c (Proc.devRef .tc main_v114)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v114 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c),
       (h c _ (mem_uc main_arg16 (by decide))).trans (W13_main_arg16 m ρ c),
       (h c _ (mem_uc main_arg17 (by decide))).trans (W13_main_arg17 m ρ c)⟩)

end Cert.KernelIdeal.Run

end
-- ==== Proof.KKeep.lean ====
/-
  Buffers that later stretches of the program read again — the two edge-endpoint rows, the later layers' weights,
  gains and offsets, the graph ids — are written by no host operation and by no kernel region in between: each is
  followed back through the boundary contents to where it was produced (or to the launch memory).
-/
import proofs.«136260_j12601434046916_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- Nothing between boundary 0 and boundary 12 writes `main_arg2`. -/
theorem keep_main_arg2_12_0 : W12 m ρ c (Proc.devRef .tc main_arg2) = W0 m ρ c (Proc.devRef .tc main_arg2) :=
  calc W12 m ρ c (Proc.devRef .tc main_arg2)
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 1 and boundary 4 writes `main_v1`. -/
theorem keep_main_v1_4_1 : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

/-- Nothing between boundary 1 and boundary 4 writes `main_v3`. -/
theorem keep_main_v3_4_1 : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

/-- Nothing between boundary 1 and boundary 8 writes `main_v1`. -/
theorem keep_main_v1_8_1 : W8 m ρ c (Proc.devRef .tc main_v1) = W1 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

/-- Nothing between boundary 1 and boundary 8 writes `main_v3`. -/
theorem keep_main_v3_8_1 : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

/-- Nothing between boundary 0 and boundary 4 writes `main_arg8`. -/
theorem keep_main_arg8_4_0 : W4 m ρ c (Proc.devRef .tc main_arg8) = W0 m ρ c (Proc.devRef .tc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 4 writes `main_arg9`. -/
theorem keep_main_arg9_4_0 : W4 m ρ c (Proc.devRef .tc main_arg9) = W0 m ρ c (Proc.devRef .tc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 4 writes `main_arg10`. -/
theorem keep_main_arg10_4_0 : W4 m ρ c (Proc.devRef .tc main_arg10) = W0 m ρ c (Proc.devRef .tc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 8 writes `main_arg13`. -/
theorem keep_main_arg13_8_0 : W8 m ρ c (Proc.devRef .tc main_arg13) = W0 m ρ c (Proc.devRef .tc main_arg13) :=
  calc W8 m ρ c (Proc.devRef .tc main_arg13)
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 8 writes `main_arg14`. -/
theorem keep_main_arg14_8_0 : W8 m ρ c (Proc.devRef .tc main_arg14) = W0 m ρ c (Proc.devRef .tc main_arg14) :=
  calc W8 m ρ c (Proc.devRef .tc main_arg14)
    _ = W7 m ρ c (Proc.devRef .tc main_arg14) := W8_of_ne m ρ c main_arg14 (by decide)
    _ = W6 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 8 writes `main_arg15`. -/
theorem keep_main_arg15_8_0 : W8 m ρ c (Proc.devRef .tc main_arg15) = W0 m ρ c (Proc.devRef .tc main_arg15) :=
  calc W8 m ρ c (Proc.devRef .tc main_arg15)
    _ = W7 m ρ c (Proc.devRef .tc main_arg15) := W8_of_ne m ρ c main_arg15 (by decide)
    _ = W6 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 2 writes `main_arg6`. -/
theorem keep_main_arg6_2_0 : W2 m ρ c (Proc.devRef .tc main_arg6) = W0 m ρ c (Proc.devRef .tc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 2 writes `main_arg7`. -/
theorem keep_main_arg7_2_0 : W2 m ρ c (Proc.devRef .tc main_arg7) = W0 m ρ c (Proc.devRef .tc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 6 writes `main_arg11`. -/
theorem keep_main_arg11_6_0 : W6 m ρ c (Proc.devRef .tc main_arg11) = W0 m ρ c (Proc.devRef .tc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 6 writes `main_arg12`. -/
theorem keep_main_arg12_6_0 : W6 m ρ c (Proc.devRef .tc main_arg12) = W0 m ρ c (Proc.devRef .tc main_arg12) :=
  calc W6 m ρ c (Proc.devRef .tc main_arg12)
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 10 writes `main_arg16`. -/
theorem keep_main_arg16_10_0 : W10 m ρ c (Proc.devRef .tc main_arg16) = W0 m ρ c (Proc.devRef .tc main_arg16) :=
  calc W10 m ρ c (Proc.devRef .tc main_arg16)
    _ = W9 m ρ c (Proc.devRef .tc main_arg16) := W10_of_ne m ρ c main_arg16 (by decide)
    _ = W8 m ρ c (Proc.devRef .tc main_arg16) := StableHlo.after_of_forall_not_mem (b := Proc.devRef .tc main_arg16) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg16) := W8_of_ne m ρ c main_arg16 (by decide)
    _ = W6 m ρ c (Proc.devRef .tc main_arg16) := StableHlo.after_of_forall_not_mem (b := Proc.devRef .tc main_arg16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Nothing between boundary 0 and boundary 10 writes `main_arg17`. -/
theorem keep_main_arg17_10_0 : W10 m ρ c (Proc.devRef .tc main_arg17) = W0 m ρ c (Proc.devRef .tc main_arg17) :=
  calc W10 m ρ c (Proc.devRef .tc main_arg17)
    _ = W9 m ρ c (Proc.devRef .tc main_arg17) := W10_of_ne m ρ c main_arg17 (by decide)
    _ = W8 m ρ c (Proc.devRef .tc main_arg17) := StableHlo.after_of_forall_not_mem (b := Proc.devRef .tc main_arg17) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg17) := W8_of_ne m ρ c main_arg17 (by decide)
    _ = W6 m ρ c (Proc.devRef .tc main_arg17) := StableHlo.after_of_forall_not_mem (b := Proc.devRef .tc main_arg17) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Keep

end
-- ==== Proof.LayerSpec.lean ====
/-
  One message-passing layer, index by index over the extended reals.

  A layer takes the node table `h` (100000 rows), the two aggregated tables `ai`, `ao` and three weight matrices, and
  forms `act = max (h·Ws + ai·Wi + ao·Wo) 0`, the three products added in that order, each entry of a product the sum
  over the shared axis. The batch normalisation needs, per column, the sum of `act` and the sum of its squares over all
  rows (`colSum`, `colSumSq`, kept as a 1 × 128 row), and then rescales every entry with a per-column mean, inverse
  deviation, gain and offset (`bn`).
-/
import Idealize.ShloMosaic.PureOps.Ideal
import Idealize.ShloMosaic.Lib.ValueIdx

noncomputable section

open scoped BigOperators

namespace Cert.LayerSpec

open Idealize.ShloMosaic Idealize.ShloMosaic.ValueIdx

/-- An `r × c` table of extended reals, indexed as the programs index a rank-2 array. -/
abbrev Mat (r c : Nat) : Type := (⟨2, ![r, c]⟩ : Shape).Idx → EReal

/-- `max (h·Ws + ai·Wi + ao·Wo) 0`: entry `(n, j)` is the maximum of zero and the three row-by-column sums over the
    shared axis, added left to right. -/
def act {D : Nat} (h ai ao : Mat 100000 D) (Ws Wi Wo : Mat D 128) : Mat 100000 128 := fun i =>
  max (((∑ k : Fin D, h (ix2 (i 0) k) * Ws (ix2 k (i 1))) + ∑ k : Fin D, ai (ix2 (i 0) k) * Wi (ix2 k (i 1)))
        + ∑ k : Fin D, ao (ix2 (i 0) k) * Wo (ix2 k (i 1))) (Ideal.ofBits .f32 0x00000000#32)

/-- The sum of each column over all 100000 rows, as a 1 × 128 row. -/
def colSum (o : Mat 100000 128) : Mat 1 128 := fun j => ∑ n : Fin 100000, o (ix2 n (j 1))

/-- The sum of the squares of each column over all 100000 rows, as a 1 × 128 row. -/
def colSumSq (o : Mat 100000 128) : Mat 1 128 := fun j => ∑ n : Fin 100000, o (ix2 n (j 1)) * o (ix2 n (j 1))

/-- The normalisation: entry `(n, j)` is `g j · (pre (n, j) − mu j) · inv j + b j`, the four per-column rows 1 × 128. -/
def bn (pre : Mat 100000 128) (mu inv g b : Mat 1 128) : Mat 100000 128 := fun i =>
  g (ix2 0 (i 1)) * (pre i - mu (ix2 0 (i 1))) * inv (ix2 0 (i 1)) + b (ix2 0 (i 1))

end Cert.LayerSpec

end
-- ==== Proof.Stage1Value0.lean ====
/-
  The value of one stage-1 region (region 0 of the idealized kernel's program), read at the extended reals.

  The region runs its body at 20 points. Point `t` sees rows `5000 t … 5000 t + 4999` of the node table and of the two
  aggregated tables, the three whole `64 × 128` weight matrices, and leaves (a) its `5000 × 128` block of
  `max (h·Ws + ai·Wi + ao·Wo) 0`, which depends on those rows only, and (b) two `1 × 128` accumulator rows — zeroed at the
  first point, then increased at every point by the block's column sums and column sums of squares — written back once,
  after the last point. So the first result array is the layer's activation table, and the two rows are the sums, over
  all 100000 rows, of its columns and of their squares: addition of extended reals is associative and commutative, so
  the sum taken block by block is the sum over all rows.
-/
import proofs.«136260_j12601434046916_1_alg».proof.Proof.Gen.KernelIdeal.Frame
import proofs.«136260_j12601434046916_1_alg».proof.Proof.LayerSpec
import Idealize.ShloMosaic.Lib.Pipeline.Value
import Idealize.ShloMosaic.Lib.ValueLayout
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open scoped BigOperators

namespace Cert.KernelIdeal.Stage1Value0

open Cert.KernelIdeal Cert.KernelIdeal.Gen Idealize.ShloMosaic.ValueIdx

/-! ## What each case of the body leaves in the three output blocks -/

section Pieces

variable {F : FTy → Type} [FloatOps F]

/-- Every whole-buffer access is through the rectangle at offsets `(0, 0)`. -/
theorem hz : (![0, 0] : Fin 2 → Nat) = fun _ => 0 := funext fun a => by fin_cases a <;> rfl

/-- At the first point the activation block is the one store's payload of the six input blocks. -/
theorem out_A_6 (c : Dev nD) (i : grid0.Coords) (a1 : Memref sig .tc .vmem S5000x64 .f32) (h1 : a1.IsWhole) (a2 : Memref sig .tc .vmem S5000x64 .f32) (h2 : a2.IsWhole) (a3 : Memref sig .tc .vmem S5000x64 .f32) (h3 : a3.IsWhole) (a4 : Memref sig .tc .vmem S64x128 .f32) (h4 : a4.IsWhole) (a5 : Memref sig .tc .vmem S64x128 .f32) (h5 : a5.IsWhole) (a6 : Memref sig .tc .vmem S64x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond0_0 i) (x0 x1 x2 : Vec F S5000x64 .f32) (x3 x4 x5 : Vec F S64x128 .f32) :
    out0_A_6 c i a1 h1 a2 h2 a3 h3 a4 h4 a5 h5 a6 h6 a7 h7 a8 h8 a9 h9 hc x0 x1 x2 x3 x4 x5 = k0_pay4 x0 x1 x2 x3 x4 x5 := by
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S5000x64) hz, View.ld_unit_zero (S := S64x128) hz, View.ld_unit_zero (S := S5000x128) hz, View.ld_unit_zero (S := S1x128) hz]

/-- At every later point likewise: the activation block does not depend on the accumulators. -/
theorem out_B_6 (c : Dev nD) (i : grid0.Coords) (a1 : Memref sig .tc .vmem S5000x64 .f32) (h1 : a1.IsWhole) (a2 : Memref sig .tc .vmem S5000x64 .f32) (h2 : a2.IsWhole) (a3 : Memref sig .tc .vmem S5000x64 .f32) (h3 : a3.IsWhole) (a4 : Memref sig .tc .vmem S64x128 .f32) (h4 : a4.IsWhole) (a5 : Memref sig .tc .vmem S64x128 .f32) (h5 : a5.IsWhole) (a6 : Memref sig .tc .vmem S64x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond0_0 i) (x0 x1 x2 : Vec F S5000x64 .f32) (x3 x4 x5 : Vec F S64x128 .f32) (xo7 xo8 : Vec F S1x128 .f32) :
    out0_B_6 c i a1 h1 a2 h2 a3 h3 a4 h4 a5 h5 a6 h6 a7 h7 a8 h8 a9 h9 hc x0 x1 x2 x3 x4 x5 xo7 xo8 = k0_pay4 x0 x1 x2 x3 x4 x5 := by
  unfold out0_B_6
  rw [View.read_writes_eq_canon _ _ _ (cover0_B_6 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S5000x64) hz, View.ld_unit_zero (S := S64x128) hz, View.ld_unit_zero (S := S5000x128) hz, View.ld_unit_zero (S := S1x128) hz]

/-- At the first point the column sums are stored as zero, read back, and the block's column sums added. -/
theorem out_A_7 (c : Dev nD) (i : grid0.Coords) (a1 : Memref sig .tc .vmem S5000x64 .f32) (h1 : a1.IsWhole) (a2 : Memref sig .tc .vmem S5000x64 .f32) (h2 : a2.IsWhole) (a3 : Memref sig .tc .vmem S5000x64 .f32) (h3 : a3.IsWhole) (a4 : Memref sig .tc .vmem S64x128 .f32) (h4 : a4.IsWhole) (a5 : Memref sig .tc .vmem S64x128 .f32) (h5 : a5.IsWhole) (a6 : Memref sig .tc .vmem S64x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond0_0 i) (x0 x1 x2 : Vec F S5000x64 .f32) (x3 x4 x5 : Vec F S64x128 .f32) :
    out0_A_7 c i a1 h1 a2 h2 a3 h3 a4 h4 a5 h5 a6 h6 a7 h7 a8 h8 a9 h9 hc x0 x1 x2 x3 x4 x5 = k0_pay5 x0 x1 x2 x3 x4 x5 k0_pay2 := by
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, h9.read_unread, View.ld_unit_zero (S := S5000x64) hz, View.ld_unit_zero (S := S64x128) hz, View.ld_unit_zero (S := S5000x128) hz, View.ld_unit_zero (S := S1x128) hz]

/-- At a later point the block's column sums are added to what the accumulator held. -/
theorem out_B_7 (c : Dev nD) (i : grid0.Coords) (a1 : Memref sig .tc .vmem S5000x64 .f32) (h1 : a1.IsWhole) (a2 : Memref sig .tc .vmem S5000x64 .f32) (h2 : a2.IsWhole) (a3 : Memref sig .tc .vmem S5000x64 .f32) (h3 : a3.IsWhole) (a4 : Memref sig .tc .vmem S64x128 .f32) (h4 : a4.IsWhole) (a5 : Memref sig .tc .vmem S64x128 .f32) (h5 : a5.IsWhole) (a6 : Memref sig .tc .vmem S64x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond0_0 i) (x0 x1 x2 : Vec F S5000x64 .f32) (x3 x4 x5 : Vec F S64x128 .f32) (xo7 xo8 : Vec F S1x128 .f32) :
    out0_B_7 c i a1 h1 a2 h2 a3 h3 a4 h4 a5 h5 a6 h6 a7 h7 a8 h8 a9 h9 hc x0 x1 x2 x3 x4 x5 xo7 xo8 = k0_pay5 x0 x1 x2 x3 x4 x5 xo7 := by
  unfold out0_B_7
  rw [View.read_writes_eq_canon _ _ _ (cover0_B_7 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S5000x64) hz, View.ld_unit_zero (S := S64x128) hz, View.ld_unit_zero (S := S5000x128) hz, View.ld_unit_zero (S := S1x128) hz]

/-- At the first point the sums of squares are stored as zero, read back, and the block's added. -/
theorem out_A_8 (c : Dev nD) (i : grid0.Coords) (a1 : Memref sig .tc .vmem S5000x64 .f32) (h1 : a1.IsWhole) (a2 : Memref sig .tc .vmem S5000x64 .f32) (h2 : a2.IsWhole) (a3 : Memref sig .tc .vmem S5000x64 .f32) (h3 : a3.IsWhole) (a4 : Memref sig .tc .vmem S64x128 .f32) (h4 : a4.IsWhole) (a5 : Memref sig .tc .vmem S64x128 .f32) (h5 : a5.IsWhole) (a6 : Memref sig .tc .vmem S64x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond0_0 i) (x0 x1 x2 : Vec F S5000x64 .f32) (x3 x4 x5 : Vec F S64x128 .f32) :
    out0_A_8 c i a1 h1 a2 h2 a3 h3 a4 h4 a5 h5 a6 h6 a7 h7 a8 h8 a9 h9 hc x0 x1 x2 x3 x4 x5 = k0_pay1 (k0_pay4 x0 x1 x2 x3 x4 x5) k0_pay3 := by
  unfold out0_A_8
  rw [View.read_writes_eq_canon _ _ _ (cover0_A_8 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, h9.read_unread, View.ld_unit_zero (S := S5000x64) hz, View.ld_unit_zero (S := S64x128) hz, View.ld_unit_zero (S := S5000x128) hz, View.ld_unit_zero (S := S1x128) hz]

/-- At a later point the block's column sums of squares are added to what the accumulator held. -/
theorem out_B_8 (c : Dev nD) (i : grid0.Coords) (a1 : Memref sig .tc .vmem S5000x64 .f32) (h1 : a1.IsWhole) (a2 : Memref sig .tc .vmem S5000x64 .f32) (h2 : a2.IsWhole) (a3 : Memref sig .tc .vmem S5000x64 .f32) (h3 : a3.IsWhole) (a4 : Memref sig .tc .vmem S64x128 .f32) (h4 : a4.IsWhole) (a5 : Memref sig .tc .vmem S64x128 .f32) (h5 : a5.IsWhole) (a6 : Memref sig .tc .vmem S64x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond0_0 i) (x0 x1 x2 : Vec F S5000x64 .f32) (x3 x4 x5 : Vec F S64x128 .f32) (xo7 xo8 : Vec F S1x128 .f32) :
    out0_B_8 c i a1 h1 a2 h2 a3 h3 a4 h4 a5 h5 a6 h6 a7 h7 a8 h8 a9 h9 hc x0 x1 x2 x3 x4 x5 xo7 xo8 = k0_pay1 (k0_pay4 x0 x1 x2 x3 x4 x5) xo8 := by
  unfold out0_B_8
  rw [View.read_writes_eq_canon _ _ _ (cover0_B_8 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S5000x64) hz, View.ld_unit_zero (S := S64x128) hz, View.ld_unit_zero (S := S5000x128) hz, View.ld_unit_zero (S := S1x128) hz]

end Pieces

/-! ## The body's arithmetic at an index, over the extended reals -/

/-- The dimension numbers of the three products: a `5000 × 64` block times a `64 × 128` matrix, one contracted axis. -/
abbrev dims : DotDims S5000x64 S64x128 S5000x128 := dot_S5000x64_S64x128_S5000x128_1_0_0_1_n_n

theorem lhs_row (i : S5000x128.Idx) (q : dims.contr.Idx) : (dims.lhsIdx i q 0).val = (i 0).val := by
  unfold DotDims.lhsIdx
  rw [dif_neg (show ¬(0 : Fin S5000x64.rank) ∈ dims.lhsBatch by decide), dif_pos (show (0 : Fin S5000x64.rank) ∈ dims.lhsNonContracting by decide)]
  rfl
theorem lhs_col (i : S5000x128.Idx) (q : dims.contr.Idx) : (dims.lhsIdx i q 1).val = (q ⟨0, by decide⟩).val :=
  dims.lhsIdx_val_of_single rfl i q
theorem rhs_row (i : S5000x128.Idx) (q : dims.contr.Idx) : (dims.rhsIdx i q 0).val = (q ⟨0, by decide⟩).val :=
  dims.rhsIdx_val_of_single rfl i q
theorem rhs_col (i : S5000x128.Idx) (q : dims.contr.Idx) : (dims.rhsIdx i q 1).val = (i 1).val := by
  unfold DotDims.rhsIdx
  rw [dif_neg (show ¬(1 : Fin S64x128.rank) ∈ dims.rhsBatch by decide), dif_pos (show (1 : Fin S64x128.rank) ∈ dims.rhsNonContracting by decide)]
  rfl

/-- A product into the zero accumulator, at row `p` and column `j`: the sum over the shared axis of the row's entries
    times the column's. -/
theorem matmul_at {φ₁ φ₂ : FTy} (l : FVec Ideal S5000x64 φ₁) (r : FVec Ideal S64x128 φ₂) (p : Fin 5000) (j : Fin 128) :
    matmul dims none l r (constant (F := Ideal) S5000x128 .f32 0x00000000#32) (ix2 p j)
      = ∑ k : Fin 64, l (ix2 p k) * r (ix2 k j) := by
  refine (Ideal.matmul_constant_zero_apply dims none l r (ix2 p j)).trans ?_
  rw [← Equiv.sum_comp (ValueIdx.contrEquiv1 dims 64 rfl rfl).symm]
  refine Finset.sum_congr rfl fun k _ => ?_
  have hk := ValueIdx.contrEquiv1_symm_val dims 64 rfl rfl k
  have el : dims.lhsIdx (ix2 p j) ((ValueIdx.contrEquiv1 dims 64 rfl rfl).symm k) = ix2 p k := funext fun a => Fin.ext (by
    match a with
    | ⟨0, _⟩ => exact lhs_row _ _
    | ⟨1, _⟩ => exact (lhs_col _ _).trans hk)
  have er : dims.rhsIdx (ix2 p j) ((ValueIdx.contrEquiv1 dims 64 rfl rfl).symm k) = ix2 k j := funext fun a => Fin.ext (by
    match a with
    | ⟨0, _⟩ => exact (rhs_row _ _).trans hk
    | ⟨1, _⟩ => exact rhs_col _ _)
  rw [el, er]

/-- The stored activation block at `(p, j)`: the three products added left to right, then the maximum with zero
    (the narrowing of the operands to the product's format is the identity on extended reals). -/
theorem pay4_apply (x0 x1 x2 : Vec Ideal S5000x64 .f32) (x3 x4 x5 : Vec Ideal S64x128 .f32) (p : Fin 5000) (j : Fin 128) :
    k0_pay4 x0 x1 x2 x3 x4 x5 (ix2 p j)
      = max (((∑ k : Fin 64, x0 (ix2 p k) * x3 (ix2 k j)) + ∑ k : Fin 64, x1 (ix2 p k) * x4 (ix2 k j))
          + ∑ k : Fin 64, x2 (ix2 p k) * x5 (ix2 k j)) (Ideal.ofBits .f32 0x00000000#32) := by
  unfold k0_pay4
  simp only [shapeCast_self]
  exact congrArg₂ max (congrArg₂ (· + ·) (congrArg₂ (· + ·) (matmul_at _ _ p j) (matmul_at _ _ p j)) (matmul_at _ _ p j)) rfl

/-- The sum of a `5000 × 128` block along its rows, at column `j`. -/
theorem colsum_at (src : FVec Ideal S5000x128 .f32) (j : Fin 128) :
    multiReduction (F := Ideal) .add [0] S128 src 0x00000000#32 reduces_S5000x128_S128 (.inl rfl) rfl (ix1 j)
      = ∑ r : Fin 5000, src (ix2 r j) := by
  refine (Ideal.multiReduction_add_single src 0x00000000#32 reduces_S5000x128_S128 (.inl rfl) rfl (ix1 j)).trans ?_
  refine Finset.sum_congr rfl fun r _ => congrArg src ?_
  funext a
  match a with
  | ⟨0, _⟩ => rfl
  | ⟨1, _⟩ => rfl

/-- The new column sums at `(u, j)`: what the accumulator held there plus the block's column sum. -/
theorem pay5_apply (x0 x1 x2 : Vec Ideal S5000x64 .f32) (x3 x4 x5 : Vec Ideal S64x128 .f32) (v25 : Vec Ideal S1x128 .f32)
    (u : Fin 1) (j : Fin 128) :
    k0_pay5 x0 x1 x2 x3 x4 x5 v25 (ix2 u j)
      = v25 (ix2 u j) + ∑ r : Fin 5000, k0_pay4 x0 x1 x2 x3 x4 x5 (ix2 r j) := by
  unfold k0_pay5
  simp only [shapeCast_self]
  refine congrArg (v25 (ix2 u j) + ·) ?_
  refine (shapeCast_a_1a_apply _ _ u j).trans ?_
  exact colsum_at _ j

/-- The new column sums of squares at `(u, j)`: what the accumulator held there plus the column sum of the block's
    squares. -/
theorem pay1_apply (v23 : FVec Ideal S5000x128 .f32) (v31 : Vec Ideal S1x128 .f32) (u : Fin 1) (j : Fin 128) :
    k0_pay1 v23 v31 (ix2 u j) = v31 (ix2 u j) + ∑ r : Fin 5000, v23 (ix2 r j) * v23 (ix2 r j) := by
  unfold k0_pay1
  simp only [shapeCast_self]
  refine congrArg (v31 (ix2 u j) + ·) ?_
  refine (shapeCast_a_1a_apply _ _ u j).trans ?_
  exact colsum_at _ j

/-- The two accumulators are reset to the zero row. -/
theorem pay2_apply (i : S1x128.Idx) : k0_pay2 (F := Ideal) i = 0 := Ideal.ofBits_zero_f32
theorem pay3_apply (i : S1x128.Idx) : k0_pay3 (F := Ideal) i = 0 := Ideal.ofBits_zero_f32

/-! ## The blocks of the six input arrays -/

section Value

variable (V : (c : Dev nD) → (b : Ref sig .tc) → Buf (Elt Ideal) ((c : Thread nD τ).loc b))

/-- The printed index maps, decided once over the 20 points: the three row-blocked inputs and the activation output sit at
    block `(t, 0)`; the three weight matrices and the two accumulator rows at block `(0, 0)` at every point. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- Row `p` of block `s` is row `5000 s + p` of a 100000-row table. -/
def row (s : Nat) (hs : s < 20) (p : Fin 5000) : Fin 100000 := ⟨5000 * s + p.val, by omega⟩

theorem lt_twenty (t : Fin cfg0.N) : t.val < 20 := by
  have h := t.isLt
  have hN : cfg0.N = 20 := N_0
  omega

theorem iblk_0 (c : Dev nD) (t : Fin cfg0.N) (hs : t.val < 20) (p : Fin 5000) (k : Fin 64) :
    (iblk0 V c 0 t : Vec Ideal S5000x64 .f32) (ix2 p k) = ((V c (Pipeline.arrRef spec0 0)) : LayerSpec.Mat 100000 64) (ix2 (row t.val hs p) k) := by
  have e0 := (idx_facts t).1.1
  have e1 := (idx_facts t).1.2
  unfold iblk0
  rw [View.read_apply]
  show (V c (Pipeline.arrRef spec0 0)) (((cfg0.win 0).blk t).view.emb (ix2 p k)) = (V c (Pipeline.arrRef spec0 0)) (ix2 (row t.val hs p) k)
  refine congrArg (V c (Pipeline.arrRef spec0 0)) (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 64 + 1 * k.val = k.val; rw [e1]; omega

theorem iblk_1 (c : Dev nD) (t : Fin cfg0.N) (hs : t.val < 20) (p : Fin 5000) (k : Fin 64) :
    (iblk0 V c 1 t : Vec Ideal S5000x64 .f32) (ix2 p k) = ((V c (Pipeline.arrRef spec0 1)) : LayerSpec.Mat 100000 64) (ix2 (row t.val hs p) k) := by
  have e0 := (idx_facts t).2.1.1
  have e1 := (idx_facts t).2.1.2
  unfold iblk0
  rw [View.read_apply]
  show (V c (Pipeline.arrRef spec0 1)) (((cfg0.win 1).blk t).view.emb (ix2 p k)) = (V c (Pipeline.arrRef spec0 1)) (ix2 (row t.val hs p) k)
  refine congrArg (V c (Pipeline.arrRef spec0 1)) (funext fun a => Fin.ext ?_)
  match a with
  | ⟨0, _⟩ => show win0_1.index t (0 : Fin 2) * 5000 + 1 * p.val = 5000 * t.val + p.val; rw [e0]; omega
  | ⟨1, _⟩ => show win0_1.index t (1 : Fin 2) * 64 + 1 * k.val = k.val; rw [e1]; omega

theorem iblk_2 (c : Dev nD) (t : Fin cfg0.N) (hs : t.val < 20) (p : Fin 5000) (k : Fin 64) :
    (iblk0 V c 2 t : Vec Ideal S5000x64 .f32) (ix2 p k) = ((V c (Pipeline.arrRef spec0 2)) : LayerSpec.Mat 100000 64) (ix2 (row t.val hs p) k) := by
  have e0 := (idx_facts t).2.2.1.1
  have e1 := (idx_facts t).2.2.1.2
  unfold iblk0
  rw [View.read_apply]
  show (V c (Pipeline.arrRef spec0 2)) (((cfg0.win 2).blk t).view.emb (ix2 p k)) = (V c (Pipeline.arrRef spec0 2)) (ix2 (row t.val hs p) k)
  refine congrArg (V c (Pipeline.arrRef spec0 2)) (funext fun a => Fin.ext ?_)
  match a with
  | ⟨0, _⟩ => show win0_2.index t (0 : Fin 2) * 5000 + 1 * p.val = 5000 * t.val + p.val; rw [e0]; omega
  | ⟨1, _⟩ => show win0_2.index t (1 : Fin 2) * 64 + 1 * k.val = k.val; rw [e1]; omega

theorem iblk_3 (c : Dev nD) (t : Fin cfg0.N) (k : Fin 64) (j : Fin 128) :
    (iblk0 V c 3 t : Vec Ideal S64x128 .f32) (ix2 k j) = ((V c (Pipeline.arrRef spec0 3)) : LayerSpec.Mat 64 128) (ix2 k j) := by
  have e0 := (idx_facts t).2.2.2.1.1
  have e1 := (idx_facts t).2.2.2.1.2
  unfold iblk0
  rw [View.read_apply]
  show (V c (Pipeline.arrRef spec0 3)) (((cfg0.win 3).blk t).view.emb (ix2 k j)) = (V c (Pipeline.arrRef spec0 3)) (ix2 k j)
  refine congrArg (V c (Pipeline.arrRef spec0 3)) (funext fun a => Fin.ext ?_)
  match a with
  | ⟨0, _⟩ => show win0_3.index t (0 : Fin 2) * 64 + 1 * k.val = k.val; rw [e0]; omega
  | ⟨1, _⟩ => show win0_3.index t (1 : Fin 2) * 128 + 1 * j.val = j.val; rw [e1]; omega

theorem iblk_4 (c : Dev nD) (t : Fin cfg0.N) (k : Fin 64) (j : Fin 128) :
    (iblk0 V c 4 t : Vec Ideal S64x128 .f32) (ix2 k j) = ((V c (Pipeline.arrRef spec0 4)) : LayerSpec.Mat 64 128) (ix2 k j) := by
  have e0 := (idx_facts t).2.2.2.2.1.1
  have e1 := (idx_facts t).2.2.2.2.1.2
  unfold iblk0
  rw [View.read_apply]
  show (V c (Pipeline.arrRef spec0 4)) (((cfg0.win 4).blk t).view.emb (ix2 k j)) = (V c (Pipeline.arrRef spec0 4)) (ix2 k j)
  refine congrArg (V c (Pipeline.arrRef spec0 4)) (funext fun a => Fin.ext ?_)
  match a with
  | ⟨0, _⟩ => show win0_4.index t (0 : Fin 2) * 64 + 1 * k.val = k.val; rw [e0]; omega
  | ⟨1, _⟩ => show win0_4.index t (1 : Fin 2) * 128 + 1 * j.val = j.val; rw [e1]; omega

theorem iblk_5 (c : Dev nD) (t : Fin cfg0.N) (k : Fin 64) (j : Fin 128) :
    (iblk0 V c 5 t : Vec Ideal S64x128 .f32) (ix2 k j) = ((V c (Pipeline.arrRef spec0 5)) : LayerSpec.Mat 64 128) (ix2 k j) := by
  have e0 := (idx_facts t).2.2.2.2.2.1.1
  have e1 := (idx_facts t).2.2.2.2.2.1.2
  unfold iblk0
  rw [View.read_apply]
  show (V c (Pipeline.arrRef spec0 5)) (((cfg0.win 5).blk t).view.emb (ix2 k j)) = (V c (Pipeline.arrRef spec0 5)) (ix2 k j)
  refine congrArg (V c (Pipeline.arrRef spec0 5)) (funext fun a => Fin.ext ?_)
  match a with
  | ⟨0, _⟩ => show win0_5.index t (0 : Fin 2) * 64 + 1 * k.val = k.val; rw [e0]; omega
  | ⟨1, _⟩ => show win0_5.index t (1 : Fin 2) * 128 + 1 * j.val = j.val; rw [e1]; omega

/-! ## The activation block of a point -/

/-- Over blocks that are rows `5000 s + p` of the three tables and the three whole weight matrices, the stored block at
    `(p, j)` is the layer's activation at row `5000 s + p`, column `j`. -/
theorem pay4_block (h ai ao : LayerSpec.Mat 100000 64) (Ws Wi Wo : LayerSpec.Mat 64 128) (s : Nat) (hs : s < 20)
    (x0 x1 x2 : Vec Ideal S5000x64 .f32) (x3 x4 x5 : Vec Ideal S64x128 .f32)
    (e0 : ∀ (p : Fin 5000) (k : Fin 64), x0 (ix2 p k) = h (ix2 (row s hs p) k))
    (e1 : ∀ (p : Fin 5000) (k : Fin 64), x1 (ix2 p k) = ai (ix2 (row s hs p) k))
    (e2 : ∀ (p : Fin 5000) (k : Fin 64), x2 (ix2 p k) = ao (ix2 (row s hs p) k))
    (e3 : ∀ (k : Fin 64) (j : Fin 128), x3 (ix2 k j) = Ws (ix2 k j))
    (e4 : ∀ (k : Fin 64) (j : Fin 128), x4 (ix2 k j) = Wi (ix2 k j))
    (e5 : ∀ (k : Fin 64) (j : Fin 128), x5 (ix2 k j) = Wo (ix2 k j))
    (p : Fin 5000) (j : Fin 128) :
    k0_pay4 x0 x1 x2 x3 x4 x5 (ix2 p j) = LayerSpec.act h ai ao Ws Wi Wo (ix2 (row s hs p) j) := by
  rw [pay4_apply]
  simp only [e0, e1, e2, e3, e4, e5]
  rfl

/-- The layer's activation table of the six arrays the region finds. -/
abbrev actOf (c : Dev nD) : LayerSpec.Mat 100000 128 := (LayerSpec.act (D := 64) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)))

/-- At point `t` the payload of the point's six blocks, at `(p, j)`, is the activation at row `5000 t + p`. -/
theorem pay4_at (c : Dev nD) (t : Fin cfg0.N) (p : Fin 5000) (j : Fin 128) :
    k0_pay4 (iblk0 V c 0 t) (iblk0 V c 1 t) (iblk0 V c 2 t) (iblk0 V c 3 t) (iblk0 V c 4 t) (iblk0 V c 5 t) (ix2 p j) = actOf V c (ix2 (row t.val (lt_twenty t) p) j) :=
  pay4_block (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) t.val (lt_twenty t)
    (iblk0 V c 0 t) (iblk0 V c 1 t) (iblk0 V c 2 t) (iblk0 V c 3 t) (iblk0 V c 4 t) (iblk0 V c 5 t)
    (iblk_0 V c t (lt_twenty t)) (iblk_1 V c t (lt_twenty t)) (iblk_2 V c t (lt_twenty t))
    (iblk_3 V c t) (iblk_4 V c t) (iblk_5 V c t) p j

/-- What the activation output's buffer holds after point `t`: the payload of the point's blocks, in either case. -/
theorem out6_eq (c : Dev nD) (t : Fin cfg0.N) :
    (outsAt0 V c t.val t.isLt).1 = k0_pay4 (iblk0 V c 0 t) (iblk0 V c 1 t) (iblk0 V c 2 t) (iblk0 V c 3 t) (iblk0 V c 4 t) (iblk0 V c 5 t) := by
  by_cases h0 : t.val % 20 = 0
  · rw [outsAt0_A V c t h0]
    dsimp only
    exact out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)
  · rw [outsAt0_B V c t h0]
    dsimp only
    exact out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2

/-! ## The sums over the rows, block by block -/

/-- The sum of `f` over block `s`'s 5000 rows; zero past the last block. -/
def blockSum (f : Fin 100000 → EReal) (s : Nat) : EReal := if hs : s < 20 then ∑ p : Fin 5000, f (row s hs p) else 0

/-- The 20 blocks' sums add up to the sum over all 100000 rows: row `n` is row `n % 5000` of block `n / 5000`. -/
theorem sum_blocks (f : Fin 100000 → EReal) : ∑ s ∈ Finset.range 20, blockSum f s = ∑ n : Fin 100000, f n := by
  rw [Finset.sum_range]
  have e : ∀ s : Fin 20, blockSum f s.val = ∑ p : Fin 5000, f (row s.val s.isLt p) := fun s => dif_pos s.isLt
  rw [Finset.sum_congr rfl fun s _ => e s]
  rw [← Fintype.sum_prod_type' (fun (s : Fin 20) (p : Fin 5000) => f (row s.val s.isLt p))]
  rw [← (finProdFinEquiv (m := 20) (n := 5000)).sum_comp f]
  refine Finset.sum_congr rfl fun q _ => congrArg f (Fin.ext ?_)
  show 5000 * q.1.val + q.2.val = q.2.val + 5000 * q.1.val
  omega

/-- The column sum of point `t`'s activation block is block `t`'s share of the column's sum. -/
theorem block_sum (c : Dev nD) (t : Fin cfg0.N) (j : Fin 128) :
    ∑ r : Fin 5000, k0_pay4 (iblk0 V c 0 t) (iblk0 V c 1 t) (iblk0 V c 2 t) (iblk0 V c 3 t) (iblk0 V c 4 t) (iblk0 V c 5 t) (ix2 r j) = blockSum (fun n => actOf V c (ix2 n j)) t.val := by
  unfold blockSum
  rw [dif_pos (lt_twenty t)]
  exact Finset.sum_congr rfl fun r _ => pay4_at V c t r j

/-- The same for the squares. -/
theorem block_sumsq (c : Dev nD) (t : Fin cfg0.N) (j : Fin 128) :
    ∑ r : Fin 5000, k0_pay4 (iblk0 V c 0 t) (iblk0 V c 1 t) (iblk0 V c 2 t) (iblk0 V c 3 t) (iblk0 V c 4 t) (iblk0 V c 5 t) (ix2 r j) * k0_pay4 (iblk0 V c 0 t) (iblk0 V c 1 t) (iblk0 V c 2 t) (iblk0 V c 3 t) (iblk0 V c 4 t) (iblk0 V c 5 t) (ix2 r j)
      = blockSum (fun n => actOf V c (ix2 n j) * actOf V c (ix2 n j)) t.val := by
  unfold blockSum
  rw [dif_pos (lt_twenty t)]
  exact Finset.sum_congr rfl fun r _ => by rw [pay4_at V c t r j]

/-- THE RUNNING COLUMN SUMS. After point `n` the first accumulator row holds, at column `j`, the sum of the activation over
    the rows of blocks `0 … n`: zero plus block 0's share at the first point, the previous contents plus block `n`'s at
    every later one — by induction on the point. -/
theorem sums_at (c : Dev nD) : ∀ (n : Nat) (hn : n < cfg0.N) (u : Fin 1) (j : Fin 128),
    ((outsAt0 V c n hn).2.1 : Vec Ideal S1x128 .f32) (ix2 u j)
      = ∑ s ∈ Finset.range (n + 1), blockSum (fun m => actOf V c (ix2 m j)) s
  | 0, hn, u, j => by
    rw [outsAt0_A V c ⟨0, hn⟩ rfl]
    dsimp only
    rw [out_A_7 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)]
    rw [pay5_apply, pay2_apply, zero_add, Finset.sum_range_one]
    exact block_sum V c ⟨0, hn⟩ j
  | n + 1, hn, u, j => by
    have hN : cfg0.N = 20 := N_0
    have hB : ¬(⟨n + 1, hn⟩ : Fin cfg0.N).val % 20 = 0 := by dsimp only; omega
    rw [outsAt0_B V c ⟨n + 1, hn⟩ hB]
    dsimp only
    rw [out_B_7 (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (ms0_7 (⟨n + 1, hn⟩ : Fin cfg0.N)) (hs0_7 (⟨n + 1, hn⟩ : Fin cfg0.N)) (ms0_8 (⟨n + 1, hn⟩ : Fin cfg0.N)) (hs0_8 (⟨n + 1, hn⟩ : Fin cfg0.N)) (fun h => hB ((hcond0_0 (⟨n + 1, hn⟩ : Fin cfg0.N)).mp h)) (iblk0 V c 0 (⟨n + 1, hn⟩ : Fin cfg0.N)) (iblk0 V c 1 (⟨n + 1, hn⟩ : Fin cfg0.N)) (iblk0 V c 2 (⟨n + 1, hn⟩ : Fin cfg0.N)) (iblk0 V c 3 (⟨n + 1, hn⟩ : Fin cfg0.N)) (iblk0 V c 4 (⟨n + 1, hn⟩ : Fin cfg0.N)) (iblk0 V c 5 (⟨n + 1, hn⟩ : Fin cfg0.N)) (outsAt0 V c ((⟨n + 1, hn⟩ : Fin cfg0.N).val - 1) (Nat.lt_of_le_of_lt (Nat.sub_le _ _) (⟨n + 1, hn⟩ : Fin cfg0.N).isLt)).2.1 (outsAt0 V c ((⟨n + 1, hn⟩ : Fin cfg0.N).val - 1) (Nat.lt_of_le_of_lt (Nat.sub_le _ _) (⟨n + 1, hn⟩ : Fin cfg0.N).isLt)).2.2]
    rw [pay5_apply, Finset.sum_range_succ _ (n + 1)]
    exact congrArg₂ (· + ·) (sums_at c n (Nat.lt_of_succ_lt hn) u j) (block_sum V c ⟨n + 1, hn⟩ j)

/-- THE RUNNING COLUMN SUMS OF SQUARES, likewise. -/
theorem sumsq_at (c : Dev nD) : ∀ (n : Nat) (hn : n < cfg0.N) (u : Fin 1) (j : Fin 128),
    ((outsAt0 V c n hn).2.2 : Vec Ideal S1x128 .f32) (ix2 u j)
      = ∑ s ∈ Finset.range (n + 1), blockSum (fun m => actOf V c (ix2 m j) * actOf V c (ix2 m j)) s
  | 0, hn, u, j => by
    rw [outsAt0_A V c ⟨0, hn⟩ rfl]
    dsimp only
    rw [out_A_8 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)]
    rw [pay1_apply, pay3_apply, zero_add, Finset.sum_range_one]
    exact block_sumsq V c ⟨0, hn⟩ j
  | n + 1, hn, u, j => by
    have hN : cfg0.N = 20 := N_0
    have hB : ¬(⟨n + 1, hn⟩ : Fin cfg0.N).val % 20 = 0 := by dsimp only; omega
    rw [outsAt0_B V c ⟨n + 1, hn⟩ hB]
    dsimp only
    rw [out_B_8 (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (ms0_7 (⟨n + 1, hn⟩ : Fin cfg0.N)) (hs0_7 (⟨n + 1, hn⟩ : Fin cfg0.N)) (ms0_8 (⟨n + 1, hn⟩ : Fin cfg0.N)) (hs0_8 (⟨n + 1, hn⟩ : Fin cfg0.N)) (fun h => hB ((hcond0_0 (⟨n + 1, hn⟩ : Fin cfg0.N)).mp h)) (iblk0 V c 0 (⟨n + 1, hn⟩ : Fin cfg0.N)) (iblk0 V c 1 (⟨n + 1, hn⟩ : Fin cfg0.N)) (iblk0 V c 2 (⟨n + 1, hn⟩ : Fin cfg0.N)) (iblk0 V c 3 (⟨n + 1, hn⟩ : Fin cfg0.N)) (iblk0 V c 4 (⟨n + 1, hn⟩ : Fin cfg0.N)) (iblk0 V c 5 (⟨n + 1, hn⟩ : Fin cfg0.N)) (outsAt0 V c ((⟨n + 1, hn⟩ : Fin cfg0.N).val - 1) (Nat.lt_of_le_of_lt (Nat.sub_le _ _) (⟨n + 1, hn⟩ : Fin cfg0.N).isLt)).2.1 (outsAt0 V c ((⟨n + 1, hn⟩ : Fin cfg0.N).val - 1) (Nat.lt_of_le_of_lt (Nat.sub_le _ _) (⟨n + 1, hn⟩ : Fin cfg0.N).isLt)).2.2]
    rw [pay1_apply, Finset.sum_range_succ _ (n + 1)]
    exact congrArg₂ (· + ·) (sumsq_at c n (Nat.lt_of_succ_lt hn) u j) (block_sumsq V c ⟨n + 1, hn⟩ j)

/-! ## From the blocks written back to the three result arrays -/

/-- Every point writes back, as its block of the activation output, its block of the layer's activation table: block
    `t` covers rows `5000 t … 5000 t + 4999`, all 128 columns. -/
theorem flushed6_eq (c : Dev nD) (t : Fin cfg0.N) :
    (dat0 V c).flushed 6 t = ((cfg0.win 6).blk t).view.read (Elt Ideal) (actOf V c) := by
  have e0 := (idx_facts t).2.2.2.2.2.2.1.1
  have e1 := (idx_facts t).2.2.2.2.2.2.1.2
  show (cfg0.win 6).cut (grid0.coords t) ((dat0 V c).after 6 t) = _
  rw [after0_6, out6_eq]
  funext y
  obtain ⟨p, j, rfl⟩ : ∃ (p : Fin 5000) (j : Fin 128), y = ix2 p j := ⟨y 0, y 1, eq_ix2 y⟩
  rw [View.read_apply]
  show k0_pay4 (iblk0 V c 0 t) (iblk0 V c 1 t) (iblk0 V c 2 t) (iblk0 V c 3 t) (iblk0 V c 4 t) (iblk0 V c 5 t) (ix2 p j) = actOf V c (((cfg0.win 6).blk t).view.emb (ix2 p j))
  rw [pay4_at V c t p j]
  refine congrArg (actOf V c) (funext fun a => Fin.ext ?_)
  match a with
  | ⟨0, _⟩ => show 5000 * t.val + p.val = win0_6.index t (0 : Fin 2) * 5000 + 1 * p.val; rw [e0]; omega
  | ⟨1, _⟩ => show j.val = win0_6.index t (1 : Fin 2) * 128 + 1 * j.val; rw [e1]; omega

/-- THE ACTIVATION OUTPUT after the region is the layer's activation table of the six input arrays: row `n` was written
    back by point `n / 5000`. -/
theorem act_eq (c : Dev nD) : (dat0 V c).arrAt 6 cfg0.N = (LayerSpec.act (D := 64) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) :=
  (dat0 V c).arrAt_eq_of_cover 6 (actOf V c) (fun t _ => flushed6_eq V c t) fun i => by
    have hi0 : (i 0).val < 100000 := (i 0).isLt
    have hi1 : (i 1).val < 128 := (i 1).isLt
    have hN : cfg0.N = 20 := N_0
    obtain ⟨t, ht⟩ : ∃ t : Fin cfg0.N, t.val = (i 0).val / 5000 := ⟨⟨(i 0).val / 5000, by omega⟩, rfl⟩
    have e0 := (idx_facts t).2.2.2.2.2.2.1.1
    have e1 := (idx_facts t).2.2.2.2.2.2.1.2
    refine ⟨t, flush0_6 t, ?_⟩
    show i ∈ ((View.whole main_v24_0).slice (win0_6.rect t)).set
    rw [View.set_slice_whole, Rect.mem_set_unit]
    intro a
    match a with
    | ⟨0, _⟩ => show win0_6.index t (0 : Fin 2) * 5000 ≤ (i 0).val ∧ (i 0).val < win0_6.index t (0 : Fin 2) * 5000 + 5000; rw [e0]; omega
    | ⟨1, _⟩ => show win0_6.index t (1 : Fin 2) * 128 ≤ (i 1).val ∧ (i 1).val < win0_6.index t (1 : Fin 2) * 128 + 128; rw [e1]; omega

/-- A block of an accumulator row, read at an index of the block, is the row at the index's place in the array (the row is
    kept as a variable: the statement is about the window, not about what the row holds). -/
theorem read7_apply (G : LayerSpec.Mat 1 128) (t : Fin cfg0.N) (y : S1x128.Idx) :
    ((cfg0.win 7).blk t).view.read (Elt Ideal) G y = G (((cfg0.win 7).blk t).view.emb y) := rfl
theorem read8_apply (G : LayerSpec.Mat 1 128) (t : Fin cfg0.N) (y : S1x128.Idx) :
    ((cfg0.win 8).blk t).view.read (Elt Ideal) G y = G (((cfg0.win 8).blk t).view.emb y) := rfl

/-- The one write-back of the column sums, at the last point, writes the whole column sums of the activation table. -/
theorem flushed7_eq (c : Dev nD) (t : Fin cfg0.N) (hf : (cfg0.win 7).flush t = true) :
    (dat0 V c).flushed 7 t = ((cfg0.win 7).blk t).view.read (Elt Ideal) (LayerSpec.colSum (actOf V c)) := by
  have hN : cfg0.N = 20 := N_0
  have h19 : t.val + 1 = 20 := by have := (flush0_7 t).mp hf; have := t.isLt; omega
  have e1 := (idx_facts t).2.2.2.2.2.2.2.1.2
  show (cfg0.win 7).cut (grid0.coords t) ((dat0 V c).after 7 t) = _
  rw [after0_7]
  funext y
  obtain ⟨u, j, rfl⟩ : ∃ (u : Fin 1) (j : Fin 128), y = ix2 u j := ⟨y 0, y 1, eq_ix2 y⟩
  refine Eq.trans ?_ (read7_apply (LayerSpec.colSum (actOf V c)) t (ix2 u j)).symm
  have s1 : ((outsAt0 V c t.val t.isLt).2.1 : Vec Ideal S1x128 .f32) (ix2 u j)
      = ∑ s ∈ Finset.range (t.val + 1), blockSum (fun m => actOf V c (ix2 m j)) s := sums_at V c t.val t.isLt u j
  have s2 : ∑ s ∈ Finset.range (t.val + 1), blockSum (fun m => actOf V c (ix2 m j)) s = ∑ n : Fin 100000, actOf V c (ix2 n j) := by
    rw [h19]
    exact sum_blocks (fun n => actOf V c (ix2 n j))
  have ej : (((cfg0.win 7).blk t).view.emb (ix2 u j)) 1 = j := Fin.ext (by
    show win0_7.index t (1 : Fin 2) * 128 + 1 * j.val = j.val; rw [e1]; omega)
  have s3 : LayerSpec.colSum (actOf V c) (((cfg0.win 7).blk t).view.emb (ix2 u j)) = ∑ n : Fin 100000, actOf V c (ix2 n j) := by
    unfold LayerSpec.colSum
    rw [ej]
  exact (s1.trans s2).trans s3.symm

/-- THE COLUMN SUMS after the region are the sums of the activation table's columns over all 100000 rows. -/
theorem sum_eq (c : Dev nD) : (dat0 V c).arrAt 7 cfg0.N = LayerSpec.colSum (LayerSpec.act (D := 64) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) :=
  (dat0 V c).arrAt_eq_of_cover 7 (LayerSpec.colSum (actOf V c)) (flushed7_eq V c) fun i => by
    have hi0 : (i 0).val < 1 := (i 0).isLt
    have hi1 : (i 1).val < 128 := (i 1).isLt
    have hN : cfg0.N = 20 := N_0
    obtain ⟨t, ht⟩ : ∃ t : Fin cfg0.N, t.val = 19 := ⟨⟨19, by omega⟩, rfl⟩
    have e0 := (idx_facts t).2.2.2.2.2.2.2.1.1
    have e1 := (idx_facts t).2.2.2.2.2.2.2.1.2
    refine ⟨t, (flush0_7 t).mpr (by omega), ?_⟩
    show i ∈ ((View.whole main_v24_1).slice (win0_7.rect t)).set
    rw [View.set_slice_whole, Rect.mem_set_unit]
    intro a
    match a with
    | ⟨0, _⟩ => show win0_7.index t (0 : Fin 2) * 1 ≤ (i 0).val ∧ (i 0).val < win0_7.index t (0 : Fin 2) * 1 + 1; rw [e0]; omega
    | ⟨1, _⟩ => show win0_7.index t (1 : Fin 2) * 128 ≤ (i 1).val ∧ (i 1).val < win0_7.index t (1 : Fin 2) * 128 + 128; rw [e1]; omega

/-- The one write-back of the sums of squares, at the last point, writes the whole column sums of squares. -/
theorem flushed8_eq (c : Dev nD) (t : Fin cfg0.N) (hf : (cfg0.win 8).flush t = true) :
    (dat0 V c).flushed 8 t = ((cfg0.win 8).blk t).view.read (Elt Ideal) (LayerSpec.colSumSq (actOf V c)) := by
  have hN : cfg0.N = 20 := N_0
  have h19 : t.val + 1 = 20 := by have := (flush0_8 t).mp hf; have := t.isLt; omega
  have e1 := (idx_facts t).2.2.2.2.2.2.2.2.2
  show (cfg0.win 8).cut (grid0.coords t) ((dat0 V c).after 8 t) = _
  rw [after0_8]
  funext y
  obtain ⟨u, j, rfl⟩ : ∃ (u : Fin 1) (j : Fin 128), y = ix2 u j := ⟨y 0, y 1, eq_ix2 y⟩
  refine Eq.trans ?_ (read8_apply (LayerSpec.colSumSq (actOf V c)) t (ix2 u j)).symm
  have s1 : ((outsAt0 V c t.val t.isLt).2.2 : Vec Ideal S1x128 .f32) (ix2 u j)
      = ∑ s ∈ Finset.range (t.val + 1), blockSum (fun m => actOf V c (ix2 m j) * actOf V c (ix2 m j)) s := sumsq_at V c t.val t.isLt u j
  have s2 : ∑ s ∈ Finset.range (t.val + 1), blockSum (fun m => actOf V c (ix2 m j) * actOf V c (ix2 m j)) s = ∑ n : Fin 100000, actOf V c (ix2 n j) * actOf V c (ix2 n j) := by
    rw [h19]
    exact sum_blocks (fun n => actOf V c (ix2 n j) * actOf V c (ix2 n j))
  have ej : (((cfg0.win 8).blk t).view.emb (ix2 u j)) 1 = j := Fin.ext (by
    show win0_8.index t (1 : Fin 2) * 128 + 1 * j.val = j.val; rw [e1]; omega)
  have s3 : LayerSpec.colSumSq (actOf V c) (((cfg0.win 8).blk t).view.emb (ix2 u j)) = ∑ n : Fin 100000, actOf V c (ix2 n j) * actOf V c (ix2 n j) := by
    unfold LayerSpec.colSumSq
    rw [ej]
  exact (s1.trans s2).trans s3.symm

/-- THE COLUMN SUMS OF SQUARES after the region are those of the activation table over all 100000 rows. -/
theorem sumsq_eq (c : Dev nD) : (dat0 V c).arrAt 8 cfg0.N = LayerSpec.colSumSq (LayerSpec.act (D := 64) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) :=
  (dat0 V c).arrAt_eq_of_cover 8 (LayerSpec.colSumSq (actOf V c)) (flushed8_eq V c) fun i => by
    have hi0 : (i 0).val < 1 := (i 0).isLt
    have hi1 : (i 1).val < 128 := (i 1).isLt
    have hN : cfg0.N = 20 := N_0
    obtain ⟨t, ht⟩ : ∃ t : Fin cfg0.N, t.val = 19 := ⟨⟨19, by omega⟩, rfl⟩
    have e0 := (idx_facts t).2.2.2.2.2.2.2.2.1
    have e1 := (idx_facts t).2.2.2.2.2.2.2.2.2
    refine ⟨t, (flush0_8 t).mpr (by omega), ?_⟩
    show i ∈ ((View.whole main_v24_2).slice (win0_8.rect t)).set
    rw [View.set_slice_whole, Rect.mem_set_unit]
    intro a
    match a with
    | ⟨0, _⟩ => show win0_8.index t (0 : Fin 2) * 1 ≤ (i 0).val ∧ (i 0).val < win0_8.index t (0 : Fin 2) * 1 + 1; rw [e0]; omega
    | ⟨1, _⟩ => show win0_8.index t (1 : Fin 2) * 128 ≤ (i 1).val ∧ (i 1).val < win0_8.index t (1 : Fin 2) * 128 + 128; rw [e1]; omega

end Value

end Cert.KernelIdeal.Stage1Value0

end
-- ==== Proof.Stage1Value2.lean ====
/-
  The value of one stage-1 region (region 2 of the idealized kernel's program), read at the extended reals.

  The region runs its body at 20 points. Point `t` sees rows `5000 t … 5000 t + 4999` of the node table and of the two
  aggregated tables, the three whole `128 × 128` weight matrices, and leaves (a) its `5000 × 128` block of
  `max (h·Ws + ai·Wi + ao·Wo) 0`, which depends on those rows only, and (b) two `1 × 128` accumulator rows — zeroed at the
  first point, then increased at every point by the block's column sums and column sums of squares — written back once,
  after the last point. So the first result array is the layer's activation table, and the two rows are the sums, over
  all 100000 rows, of its columns and of their squares: addition of extended reals is associative and commutative, so
  the sum taken block by block is the sum over all rows.
-/
import proofs.«136260_j12601434046916_1_alg».proof.Proof.Gen.KernelIdeal.Frame
import proofs.«136260_j12601434046916_1_alg».proof.Proof.LayerSpec
import Idealize.ShloMosaic.Lib.Pipeline.Value
import Idealize.ShloMosaic.Lib.ValueLayout
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open scoped BigOperators

namespace Cert.KernelIdeal.Stage1Value2

open Cert.KernelIdeal Cert.KernelIdeal.Gen Idealize.ShloMosaic.ValueIdx

/-! ## What each case of the body leaves in the three output blocks -/

section Pieces

variable {F : FTy → Type} [FloatOps F]

/-- Every whole-buffer access is through the rectangle at offsets `(0, 0)`. -/
theorem hz : (![0, 0] : Fin 2 → Nat) = fun _ => 0 := funext fun a => by fin_cases a <;> rfl

/-- At the first point the activation block is the one store's payload of the six input blocks. -/
theorem out_A_6 (c : Dev nD) (i : grid2.Coords) (a1 : Memref sig .tc .vmem S5000x128 .f32) (h1 : a1.IsWhole) (a2 : Memref sig .tc .vmem S5000x128 .f32) (h2 : a2.IsWhole) (a3 : Memref sig .tc .vmem S5000x128 .f32) (h3 : a3.IsWhole) (a4 : Memref sig .tc .vmem S128x128 .f32) (h4 : a4.IsWhole) (a5 : Memref sig .tc .vmem S128x128 .f32) (h5 : a5.IsWhole) (a6 : Memref sig .tc .vmem S128x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond2_0 i) (x0 x1 x2 : Vec F S5000x128 .f32) (x3 x4 x5 : Vec F S128x128 .f32) :
    out2_A_6 c i a1 h1 a2 h2 a3 h3 a4 h4 a5 h5 a6 h6 a7 h7 a8 h8 a9 h9 hc x0 x1 x2 x3 x4 x5 = k2_pay4 x0 x1 x2 x3 x4 x5 := by
  unfold out2_A_6
  rw [View.read_writes_eq_canon _ _ _ (cover2_A_6 c i a1 h1 a2 h2 a3 h3 a4 h4 a5 h5 a6 h6 a7 h7 a8 h8 a9 h9 hc x0 x1 x2 x3 x4 x5)]
  unfold kernelRun2_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S5000x128) hz, View.ld_unit_zero (S := S128x128) hz, View.ld_unit_zero (S := S5000x128) hz, View.ld_unit_zero (S := S1x128) hz]

/-- At every later point likewise: the activation block does not depend on the accumulators. -/
theorem out_B_6 (c : Dev nD) (i : grid2.Coords) (a1 : Memref sig .tc .vmem S5000x128 .f32) (h1 : a1.IsWhole) (a2 : Memref sig .tc .vmem S5000x128 .f32) (h2 : a2.IsWhole) (a3 : Memref sig .tc .vmem S5000x128 .f32) (h3 : a3.IsWhole) (a4 : Memref sig .tc .vmem S128x128 .f32) (h4 : a4.IsWhole) (a5 : Memref sig .tc .vmem S128x128 .f32) (h5 : a5.IsWhole) (a6 : Memref sig .tc .vmem S128x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond2_0 i) (x0 x1 x2 : Vec F S5000x128 .f32) (x3 x4 x5 : Vec F S128x128 .f32) (xo7 xo8 : Vec F S1x128 .f32) :
    out2_B_6 c i a1 h1 a2 h2 a3 h3 a4 h4 a5 h5 a6 h6 a7 h7 a8 h8 a9 h9 hc x0 x1 x2 x3 x4 x5 xo7 xo8 = k2_pay4 x0 x1 x2 x3 x4 x5 := by
  unfold out2_B_6
  rw [View.read_writes_eq_canon _ _ _ (cover2_B_6 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S5000x128) hz, View.ld_unit_zero (S := S128x128) hz, View.ld_unit_zero (S := S5000x128) hz, View.ld_unit_zero (S := S1x128) hz]

/-- At the first point the column sums are stored as zero, read back, and the block's column sums added. -/
theorem out_A_7 (c : Dev nD) (i : grid2.Coords) (a1 : Memref sig .tc .vmem S5000x128 .f32) (h1 : a1.IsWhole) (a2 : Memref sig .tc .vmem S5000x128 .f32) (h2 : a2.IsWhole) (a3 : Memref sig .tc .vmem S5000x128 .f32) (h3 : a3.IsWhole) (a4 : Memref sig .tc .vmem S128x128 .f32) (h4 : a4.IsWhole) (a5 : Memref sig .tc .vmem S128x128 .f32) (h5 : a5.IsWhole) (a6 : Memref sig .tc .vmem S128x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond2_0 i) (x0 x1 x2 : Vec F S5000x128 .f32) (x3 x4 x5 : Vec F S128x128 .f32) :
    out2_A_7 c i a1 h1 a2 h2 a3 h3 a4 h4 a5 h5 a6 h6 a7 h7 a8 h8 a9 h9 hc x0 x1 x2 x3 x4 x5 = k2_pay5 x0 x1 x2 x3 x4 x5 k2_pay2 := by
  unfold out2_A_7
  rw [View.read_writes_eq_canon _ _ _ (cover2_A_7 c i a1 h1 a2 h2 a3 h3 a4 h4 a5 h5 a6 h6 a7 h7 a8 h8 a9 h9 hc x0 x1 x2 x3 x4 x5)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, h9.read_unread, View.ld_unit_zero (S := S5000x128) hz, View.ld_unit_zero (S := S128x128) hz, View.ld_unit_zero (S := S5000x128) hz, View.ld_unit_zero (S := S1x128) hz]

/-- At a later point the block's column sums are added to what the accumulator held. -/
theorem out_B_7 (c : Dev nD) (i : grid2.Coords) (a1 : Memref sig .tc .vmem S5000x128 .f32) (h1 : a1.IsWhole) (a2 : Memref sig .tc .vmem S5000x128 .f32) (h2 : a2.IsWhole) (a3 : Memref sig .tc .vmem S5000x128 .f32) (h3 : a3.IsWhole) (a4 : Memref sig .tc .vmem S128x128 .f32) (h4 : a4.IsWhole) (a5 : Memref sig .tc .vmem S128x128 .f32) (h5 : a5.IsWhole) (a6 : Memref sig .tc .vmem S128x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond2_0 i) (x0 x1 x2 : Vec F S5000x128 .f32) (x3 x4 x5 : Vec F S128x128 .f32) (xo7 xo8 : Vec F S1x128 .f32) :
    out2_B_7 c i a1 h1 a2 h2 a3 h3 a4 h4 a5 h5 a6 h6 a7 h7 a8 h8 a9 h9 hc x0 x1 x2 x3 x4 x5 xo7 xo8 = k2_pay5 x0 x1 x2 x3 x4 x5 xo7 := by
  unfold out2_B_7
  rw [View.read_writes_eq_canon _ _ _ (cover2_B_7 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S5000x128) hz, View.ld_unit_zero (S := S128x128) hz, View.ld_unit_zero (S := S5000x128) hz, View.ld_unit_zero (S := S1x128) hz]

/-- At the first point the sums of squares are stored as zero, read back, and the block's added. -/
theorem out_A_8 (c : Dev nD) (i : grid2.Coords) (a1 : Memref sig .tc .vmem S5000x128 .f32) (h1 : a1.IsWhole) (a2 : Memref sig .tc .vmem S5000x128 .f32) (h2 : a2.IsWhole) (a3 : Memref sig .tc .vmem S5000x128 .f32) (h3 : a3.IsWhole) (a4 : Memref sig .tc .vmem S128x128 .f32) (h4 : a4.IsWhole) (a5 : Memref sig .tc .vmem S128x128 .f32) (h5 : a5.IsWhole) (a6 : Memref sig .tc .vmem S128x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond2_0 i) (x0 x1 x2 : Vec F S5000x128 .f32) (x3 x4 x5 : Vec F S128x128 .f32) :
    out2_A_8 c i a1 h1 a2 h2 a3 h3 a4 h4 a5 h5 a6 h6 a7 h7 a8 h8 a9 h9 hc x0 x1 x2 x3 x4 x5 = k2_pay1 (k2_pay4 x0 x1 x2 x3 x4 x5) k2_pay3 := by
  unfold out2_A_8
  rw [View.read_writes_eq_canon _ _ _ (cover2_A_8 c i a1 h1 a2 h2 a3 h3 a4 h4 a5 h5 a6 h6 a7 h7 a8 h8 a9 h9 hc x0 x1 x2 x3 x4 x5)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, h9.read_unread, View.ld_unit_zero (S := S5000x128) hz, View.ld_unit_zero (S := S128x128) hz, View.ld_unit_zero (S := S5000x128) hz, View.ld_unit_zero (S := S1x128) hz]

/-- At a later point the block's column sums of squares are added to what the accumulator held. -/
theorem out_B_8 (c : Dev nD) (i : grid2.Coords) (a1 : Memref sig .tc .vmem S5000x128 .f32) (h1 : a1.IsWhole) (a2 : Memref sig .tc .vmem S5000x128 .f32) (h2 : a2.IsWhole) (a3 : Memref sig .tc .vmem S5000x128 .f32) (h3 : a3.IsWhole) (a4 : Memref sig .tc .vmem S128x128 .f32) (h4 : a4.IsWhole) (a5 : Memref sig .tc .vmem S128x128 .f32) (h5 : a5.IsWhole) (a6 : Memref sig .tc .vmem S128x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond2_0 i) (x0 x1 x2 : Vec F S5000x128 .f32) (x3 x4 x5 : Vec F S128x128 .f32) (xo7 xo8 : Vec F S1x128 .f32) :
    out2_B_8 c i a1 h1 a2 h2 a3 h3 a4 h4 a5 h5 a6 h6 a7 h7 a8 h8 a9 h9 hc x0 x1 x2 x3 x4 x5 xo7 xo8 = k2_pay1 (k2_pay4 x0 x1 x2 x3 x4 x5) xo8 := by
  unfold out2_B_8
  rw [View.read_writes_eq_canon _ _ _ (cover2_B_8 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S5000x128) hz, View.ld_unit_zero (S := S128x128) hz, View.ld_unit_zero (S := S5000x128) hz, View.ld_unit_zero (S := S1x128) hz]

end Pieces

/-! ## The body's arithmetic at an index, over the extended reals -/

/-- The dimension numbers of the three products: a `5000 × 128` block times a `128 × 128` matrix, one contracted axis. -/
abbrev dims : DotDims S5000x128 S128x128 S5000x128 := dot_S5000x128_S128x128_S5000x128_1_0_0_1_n_n

theorem lhs_row (i : S5000x128.Idx) (q : dims.contr.Idx) : (dims.lhsIdx i q 0).val = (i 0).val := by
  unfold DotDims.lhsIdx
  rw [dif_neg (show ¬(0 : Fin S5000x128.rank) ∈ dims.lhsBatch by decide), dif_pos (show (0 : Fin S5000x128.rank) ∈ dims.lhsNonContracting by decide)]
  rfl
theorem lhs_col (i : S5000x128.Idx) (q : dims.contr.Idx) : (dims.lhsIdx i q 1).val = (q ⟨0, by decide⟩).val :=
  dims.lhsIdx_val_of_single rfl i q
theorem rhs_row (i : S5000x128.Idx) (q : dims.contr.Idx) : (dims.rhsIdx i q 0).val = (q ⟨0, by decide⟩).val :=
  dims.rhsIdx_val_of_single rfl i q
theorem rhs_col (i : S5000x128.Idx) (q : dims.contr.Idx) : (dims.rhsIdx i q 1).val = (i 1).val := by
  unfold DotDims.rhsIdx
  rw [dif_neg (show ¬(1 : Fin S128x128.rank) ∈ dims.rhsBatch by decide), dif_pos (show (1 : Fin S128x128.rank) ∈ dims.rhsNonContracting by decide)]
  rfl

/-- A product into the zero accumulator, at row `p` and column `j`: the sum over the shared axis of the row's entries
    times the column's. -/
theorem matmul_at {φ₁ φ₂ : FTy} (l : FVec Ideal S5000x128 φ₁) (r : FVec Ideal S128x128 φ₂) (p : Fin 5000) (j : Fin 128) :
    matmul dims none l r (constant (F := Ideal) S5000x128 .f32 0x00000000#32) (ix2 p j)
      = ∑ k : Fin 128, l (ix2 p k) * r (ix2 k j) := by
  refine (Ideal.matmul_constant_zero_apply dims none l r (ix2 p j)).trans ?_
  rw [← Equiv.sum_comp (ValueIdx.contrEquiv1 dims 128 rfl rfl).symm]
  refine Finset.sum_congr rfl fun k _ => ?_
  have hk := ValueIdx.contrEquiv1_symm_val dims 128 rfl rfl k
  have el : dims.lhsIdx (ix2 p j) ((ValueIdx.contrEquiv1 dims 128 rfl rfl).symm k) = ix2 p k := funext fun a => Fin.ext (by
    match a with
    | ⟨0, _⟩ => exact lhs_row _ _
    | ⟨1, _⟩ => exact (lhs_col _ _).trans hk)
  have er : dims.rhsIdx (ix2 p j) ((ValueIdx.contrEquiv1 dims 128 rfl rfl).symm k) = ix2 k j := funext fun a => Fin.ext (by
    match a with
    | ⟨0, _⟩ => exact (rhs_row _ _).trans hk
    | ⟨1, _⟩ => exact rhs_col _ _)
  rw [el, er]

/-- The stored activation block at `(p, j)`: the three products added left to right, then the maximum with zero
    (the narrowing of the operands to the product's format is the identity on extended reals). -/
theorem pay4_apply (x0 x1 x2 : Vec Ideal S5000x128 .f32) (x3 x4 x5 : Vec Ideal S128x128 .f32) (p : Fin 5000) (j : Fin 128) :
    k2_pay4 x0 x1 x2 x3 x4 x5 (ix2 p j)
      = max (((∑ k : Fin 128, x0 (ix2 p k) * x3 (ix2 k j)) + ∑ k : Fin 128, x1 (ix2 p k) * x4 (ix2 k j))
          + ∑ k : Fin 128, x2 (ix2 p k) * x5 (ix2 k j)) (Ideal.ofBits .f32 0x00000000#32) := by
  unfold k2_pay4
  simp only [shapeCast_self]
  exact congrArg₂ max (congrArg₂ (· + ·) (congrArg₂ (· + ·) (matmul_at _ _ p j) (matmul_at _ _ p j)) (matmul_at _ _ p j)) rfl

/-- The sum of a `5000 × 128` block along its rows, at column `j`. -/
theorem colsum_at (src : FVec Ideal S5000x128 .f32) (j : Fin 128) :
    multiReduction (F := Ideal) .add [0] S128 src 0x00000000#32 reduces_S5000x128_S128 (.inl rfl) rfl (ix1 j)
      = ∑ r : Fin 5000, src (ix2 r j) := by
  refine (Ideal.multiReduction_add_single src 0x00000000#32 reduces_S5000x128_S128 (.inl rfl) rfl (ix1 j)).trans ?_
  refine Finset.sum_congr rfl fun r _ => congrArg src ?_
  funext a
  match a with
  | ⟨0, _⟩ => rfl
  | ⟨1, _⟩ => rfl

/-- The new column sums at `(u, j)`: what the accumulator held there plus the block's column sum. -/
theorem pay5_apply (x0 x1 x2 : Vec Ideal S5000x128 .f32) (x3 x4 x5 : Vec Ideal S128x128 .f32) (v25 : Vec Ideal S1x128 .f32)
    (u : Fin 1) (j : Fin 128) :
    k2_pay5 x0 x1 x2 x3 x4 x5 v25 (ix2 u j)
      = v25 (ix2 u j) + ∑ r : Fin 5000, k2_pay4 x0 x1 x2 x3 x4 x5 (ix2 r j) := by
  unfold k2_pay5
  simp only [shapeCast_self]
  refine congrArg (v25 (ix2 u j) + ·) ?_
  refine (shapeCast_a_1a_apply _ _ u j).trans ?_
  exact colsum_at _ j

/-- The new column sums of squares at `(u, j)`: what the accumulator held there plus the column sum of the block's
    squares. -/
theorem pay1_apply (v23 : FVec Ideal S5000x128 .f32) (v31 : Vec Ideal S1x128 .f32) (u : Fin 1) (j : Fin 128) :
    k2_pay1 v23 v31 (ix2 u j) = v31 (ix2 u j) + ∑ r : Fin 5000, v23 (ix2 r j) * v23 (ix2 r j) := by
  unfold k2_pay1
  simp only [shapeCast_self]
  refine congrArg (v31 (ix2 u j) + ·) ?_
  refine (shapeCast_a_1a_apply _ _ u j).trans ?_
  exact colsum_at _ j

/-- The two accumulators are reset to the zero row. -/
theorem pay2_apply (i : S1x128.Idx) : k2_pay2 (F := Ideal) i = 0 := Ideal.ofBits_zero_f32
theorem pay3_apply (i : S1x128.Idx) : k2_pay3 (F := Ideal) i = 0 := Ideal.ofBits_zero_f32

/-! ## The blocks of the six input arrays -/

section Value

variable (V : (c : Dev nD) → (b : Ref sig .tc) → Buf (Elt Ideal) ((c : Thread nD τ).loc b))

/-- The printed index maps, decided once over the 20 points: the three row-blocked inputs and the activation output sit at
    block `(t, 0)`; the three weight matrices and the two accumulator rows at block `(0, 0)` at every point. -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0) :=
  (by decide +kernel : ∀ t : Fin grid2.N, _)

/-- Row `p` of block `s` is row `5000 s + p` of a 100000-row table. -/
def row (s : Nat) (hs : s < 20) (p : Fin 5000) : Fin 100000 := ⟨5000 * s + p.val, by omega⟩

theorem lt_twenty (t : Fin cfg2.N) : t.val < 20 := by
  have h := t.isLt
  have hN : cfg2.N = 20 := N_2
  omega

theorem iblk_0 (c : Dev nD) (t : Fin cfg2.N) (hs : t.val < 20) (p : Fin 5000) (k : Fin 128) :
    (iblk2 V c 0 t : Vec Ideal S5000x128 .f32) (ix2 p k) = ((V c (Pipeline.arrRef spec2 0)) : LayerSpec.Mat 100000 128) (ix2 (row t.val hs p) k) := by
  have e0 := (idx_facts t).1.1
  have e1 := (idx_facts t).1.2
  unfold iblk2
  rw [View.read_apply]
  show (V c (Pipeline.arrRef spec2 0)) (((cfg2.win 0).blk t).view.emb (ix2 p k)) = (V c (Pipeline.arrRef spec2 0)) (ix2 (row t.val hs p) k)
  refine congrArg (V c (Pipeline.arrRef spec2 0)) (funext fun a => Fin.ext ?_)
  match a with
  | ⟨0, _⟩ => show win2_0.index t (0 : Fin 2) * 5000 + 1 * p.val = 5000 * t.val + p.val; rw [e0]; omega
  | ⟨1, _⟩ => show win2_0.index t (1 : Fin 2) * 128 + 1 * k.val = k.val; rw [e1]; omega

theorem iblk_1 (c : Dev nD) (t : Fin cfg2.N) (hs : t.val < 20) (p : Fin 5000) (k : Fin 128) :
    (iblk2 V c 1 t : Vec Ideal S5000x128 .f32) (ix2 p k) = ((V c (Pipeline.arrRef spec2 1)) : LayerSpec.Mat 100000 128) (ix2 (row t.val hs p) k) := by
  have e0 := (idx_facts t).2.1.1
  have e1 := (idx_facts t).2.1.2
  unfold iblk2
  rw [View.read_apply]
  show (V c (Pipeline.arrRef spec2 1)) (((cfg2.win 1).blk t).view.emb (ix2 p k)) = (V c (Pipeline.arrRef spec2 1)) (ix2 (row t.val hs p) k)
  refine congrArg (V c (Pipeline.arrRef spec2 1)) (funext fun a => Fin.ext ?_)
  match a with
  | ⟨0, _⟩ => show win2_1.index t (0 : Fin 2) * 5000 + 1 * p.val = 5000 * t.val + p.val; rw [e0]; omega
  | ⟨1, _⟩ => show win2_1.index t (1 : Fin 2) * 128 + 1 * k.val = k.val; rw [e1]; omega

theorem iblk_2 (c : Dev nD) (t : Fin cfg2.N) (hs : t.val < 20) (p : Fin 5000) (k : Fin 128) :
    (iblk2 V c 2 t : Vec Ideal S5000x128 .f32) (ix2 p k) = ((V c (Pipeline.arrRef spec2 2)) : LayerSpec.Mat 100000 128) (ix2 (row t.val hs p) k) := by
  have e0 := (idx_facts t).2.2.1.1
  have e1 := (idx_facts t).2.2.1.2
  unfold iblk2
  rw [View.read_apply]
  show (V c (Pipeline.arrRef spec2 2)) (((cfg2.win 2).blk t).view.emb (ix2 p k)) = (V c (Pipeline.arrRef spec2 2)) (ix2 (row t.val hs p) k)
  refine congrArg (V c (Pipeline.arrRef spec2 2)) (funext fun a => Fin.ext ?_)
  match a with
  | ⟨0, _⟩ => show win2_2.index t (0 : Fin 2) * 5000 + 1 * p.val = 5000 * t.val + p.val; rw [e0]; omega
  | ⟨1, _⟩ => show win2_2.index t (1 : Fin 2) * 128 + 1 * k.val = k.val; rw [e1]; omega

theorem iblk_3 (c : Dev nD) (t : Fin cfg2.N) (k : Fin 128) (j : Fin 128) :
    (iblk2 V c 3 t : Vec Ideal S128x128 .f32) (ix2 k j) = ((V c (Pipeline.arrRef spec2 3)) : LayerSpec.Mat 128 128) (ix2 k j) := by
  have e0 := (idx_facts t).2.2.2.1.1
  have e1 := (idx_facts t).2.2.2.1.2
  unfold iblk2
  rw [View.read_apply]
  show (V c (Pipeline.arrRef spec2 3)) (((cfg2.win 3).blk t).view.emb (ix2 k j)) = (V c (Pipeline.arrRef spec2 3)) (ix2 k j)
  refine congrArg (V c (Pipeline.arrRef spec2 3)) (funext fun a => Fin.ext ?_)
  match a with
  | ⟨0, _⟩ => show win2_3.index t (0 : Fin 2) * 128 + 1 * k.val = k.val; rw [e0]; omega
  | ⟨1, _⟩ => show win2_3.index t (1 : Fin 2) * 128 + 1 * j.val = j.val; rw [e1]; omega

theorem iblk_4 (c : Dev nD) (t : Fin cfg2.N) (k : Fin 128) (j : Fin 128) :
    (iblk2 V c 4 t : Vec Ideal S128x128 .f32) (ix2 k j) = ((V c (Pipeline.arrRef spec2 4)) : LayerSpec.Mat 128 128) (ix2 k j) := by
  have e0 := (idx_facts t).2.2.2.2.1.1
  have e1 := (idx_facts t).2.2.2.2.1.2
  unfold iblk2
  rw [View.read_apply]
  show (V c (Pipeline.arrRef spec2 4)) (((cfg2.win 4).blk t).view.emb (ix2 k j)) = (V c (Pipeline.arrRef spec2 4)) (ix2 k j)
  refine congrArg (V c (Pipeline.arrRef spec2 4)) (funext fun a => Fin.ext ?_)
  match a with
  | ⟨0, _⟩ => show win2_4.index t (0 : Fin 2) * 128 + 1 * k.val = k.val; rw [e0]; omega
  | ⟨1, _⟩ => show win2_4.index t (1 : Fin 2) * 128 + 1 * j.val = j.val; rw [e1]; omega

theorem iblk_5 (c : Dev nD) (t : Fin cfg2.N) (k : Fin 128) (j : Fin 128) :
    (iblk2 V c 5 t : Vec Ideal S128x128 .f32) (ix2 k j) = ((V c (Pipeline.arrRef spec2 5)) : LayerSpec.Mat 128 128) (ix2 k j) := by
  have e0 := (idx_facts t).2.2.2.2.2.1.1
  have e1 := (idx_facts t).2.2.2.2.2.1.2
  unfold iblk2
  rw [View.read_apply]
  show (V c (Pipeline.arrRef spec2 5)) (((cfg2.win 5).blk t).view.emb (ix2 k j)) = (V c (Pipeline.arrRef spec2 5)) (ix2 k j)
  refine congrArg (V c (Pipeline.arrRef spec2 5)) (funext fun a => Fin.ext ?_)
  match a with
  | ⟨0, _⟩ => show win2_5.index t (0 : Fin 2) * 128 + 1 * k.val = k.val; rw [e0]; omega
  | ⟨1, _⟩ => show win2_5.index t (1 : Fin 2) * 128 + 1 * j.val = j.val; rw [e1]; omega

/-! ## The activation block of a point -/

/-- Over blocks that are rows `5000 s + p` of the three tables and the three whole weight matrices, the stored block at
    `(p, j)` is the layer's activation at row `5000 s + p`, column `j`. -/
theorem pay4_block (h ai ao : LayerSpec.Mat 100000 128) (Ws Wi Wo : LayerSpec.Mat 128 128) (s : Nat) (hs : s < 20)
    (x0 x1 x2 : Vec Ideal S5000x128 .f32) (x3 x4 x5 : Vec Ideal S128x128 .f32)
    (e0 : ∀ (p : Fin 5000) (k : Fin 128), x0 (ix2 p k) = h (ix2 (row s hs p) k))
    (e1 : ∀ (p : Fin 5000) (k : Fin 128), x1 (ix2 p k) = ai (ix2 (row s hs p) k))
    (e2 : ∀ (p : Fin 5000) (k : Fin 128), x2 (ix2 p k) = ao (ix2 (row s hs p) k))
    (e3 : ∀ (k : Fin 128) (j : Fin 128), x3 (ix2 k j) = Ws (ix2 k j))
    (e4 : ∀ (k : Fin 128) (j : Fin 128), x4 (ix2 k j) = Wi (ix2 k j))
    (e5 : ∀ (k : Fin 128) (j : Fin 128), x5 (ix2 k j) = Wo (ix2 k j))
    (p : Fin 5000) (j : Fin 128) :
    k2_pay4 x0 x1 x2 x3 x4 x5 (ix2 p j) = LayerSpec.act h ai ao Ws Wi Wo (ix2 (row s hs p) j) := by
  rw [pay4_apply]
  simp only [e0, e1, e2, e3, e4, e5]
  rfl

/-- The layer's activation table of the six arrays the region finds. -/
abbrev actOf (c : Dev nD) : LayerSpec.Mat 100000 128 := (LayerSpec.act (D := 128) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)))

/-- At point `t` the payload of the point's six blocks, at `(p, j)`, is the activation at row `5000 t + p`. -/
theorem pay4_at (c : Dev nD) (t : Fin cfg2.N) (p : Fin 5000) (j : Fin 128) :
    k2_pay4 (iblk2 V c 0 t) (iblk2 V c 1 t) (iblk2 V c 2 t) (iblk2 V c 3 t) (iblk2 V c 4 t) (iblk2 V c 5 t) (ix2 p j) = actOf V c (ix2 (row t.val (lt_twenty t) p) j) :=
  pay4_block (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) t.val (lt_twenty t)
    (iblk2 V c 0 t) (iblk2 V c 1 t) (iblk2 V c 2 t) (iblk2 V c 3 t) (iblk2 V c 4 t) (iblk2 V c 5 t)
    (iblk_0 V c t (lt_twenty t)) (iblk_1 V c t (lt_twenty t)) (iblk_2 V c t (lt_twenty t))
    (iblk_3 V c t) (iblk_4 V c t) (iblk_5 V c t) p j

/-- What the activation output's buffer holds after point `t`: the payload of the point's blocks, in either case. -/
theorem out6_eq (c : Dev nD) (t : Fin cfg2.N) :
    (outsAt2 V c t.val t.isLt).1 = k2_pay4 (iblk2 V c 0 t) (iblk2 V c 1 t) (iblk2 V c 2 t) (iblk2 V c 3 t) (iblk2 V c 4 t) (iblk2 V c 5 t) := by
  by_cases h0 : t.val % 20 = 0
  · rw [outsAt2_A V c t h0]
    dsimp only
    exact out_A_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)
  · rw [outsAt2_B V c t h0]
    dsimp only
    exact out_B_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2

/-! ## The sums over the rows, block by block -/

/-- The sum of `f` over block `s`'s 5000 rows; zero past the last block. -/
def blockSum (f : Fin 100000 → EReal) (s : Nat) : EReal := if hs : s < 20 then ∑ p : Fin 5000, f (row s hs p) else 0

/-- The 20 blocks' sums add up to the sum over all 100000 rows: row `n` is row `n % 5000` of block `n / 5000`. -/
theorem sum_blocks (f : Fin 100000 → EReal) : ∑ s ∈ Finset.range 20, blockSum f s = ∑ n : Fin 100000, f n := by
  rw [Finset.sum_range]
  have e : ∀ s : Fin 20, blockSum f s.val = ∑ p : Fin 5000, f (row s.val s.isLt p) := fun s => dif_pos s.isLt
  rw [Finset.sum_congr rfl fun s _ => e s]
  rw [← Fintype.sum_prod_type' (fun (s : Fin 20) (p : Fin 5000) => f (row s.val s.isLt p))]
  rw [← (finProdFinEquiv (m := 20) (n := 5000)).sum_comp f]
  refine Finset.sum_congr rfl fun q _ => congrArg f (Fin.ext ?_)
  show 5000 * q.1.val + q.2.val = q.2.val + 5000 * q.1.val
  omega

/-- The column sum of point `t`'s activation block is block `t`'s share of the column's sum. -/
theorem block_sum (c : Dev nD) (t : Fin cfg2.N) (j : Fin 128) :
    ∑ r : Fin 5000, k2_pay4 (iblk2 V c 0 t) (iblk2 V c 1 t) (iblk2 V c 2 t) (iblk2 V c 3 t) (iblk2 V c 4 t) (iblk2 V c 5 t) (ix2 r j) = blockSum (fun n => actOf V c (ix2 n j)) t.val := by
  unfold blockSum
  rw [dif_pos (lt_twenty t)]
  exact Finset.sum_congr rfl fun r _ => pay4_at V c t r j

/-- The same for the squares. -/
theorem block_sumsq (c : Dev nD) (t : Fin cfg2.N) (j : Fin 128) :
    ∑ r : Fin 5000, k2_pay4 (iblk2 V c 0 t) (iblk2 V c 1 t) (iblk2 V c 2 t) (iblk2 V c 3 t) (iblk2 V c 4 t) (iblk2 V c 5 t) (ix2 r j) * k2_pay4 (iblk2 V c 0 t) (iblk2 V c 1 t) (iblk2 V c 2 t) (iblk2 V c 3 t) (iblk2 V c 4 t) (iblk2 V c 5 t) (ix2 r j)
      = blockSum (fun n => actOf V c (ix2 n j) * actOf V c (ix2 n j)) t.val := by
  unfold blockSum
  rw [dif_pos (lt_twenty t)]
  exact Finset.sum_congr rfl fun r _ => by rw [pay4_at V c t r j]

/-- THE RUNNING COLUMN SUMS. After point `n` the first accumulator row holds, at column `j`, the sum of the activation over
    the rows of blocks `0 … n`: zero plus block 0's share at the first point, the previous contents plus block `n`'s at
    every later one — by induction on the point. -/
theorem sums_at (c : Dev nD) : ∀ (n : Nat) (hn : n < cfg2.N) (u : Fin 1) (j : Fin 128),
    ((outsAt2 V c n hn).2.1 : Vec Ideal S1x128 .f32) (ix2 u j)
      = ∑ s ∈ Finset.range (n + 1), blockSum (fun m => actOf V c (ix2 m j)) s
  | 0, hn, u, j => by
    rw [outsAt2_A V c ⟨0, hn⟩ rfl]
    dsimp only
    rw [out_A_7 (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) ((hcond2_0 ⟨0, hn⟩).mpr rfl) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩)]
    rw [pay5_apply, pay2_apply, zero_add, Finset.sum_range_one]
    exact block_sum V c ⟨0, hn⟩ j
  | n + 1, hn, u, j => by
    have hN : cfg2.N = 20 := N_2
    have hB : ¬(⟨n + 1, hn⟩ : Fin cfg2.N).val % 20 = 0 := by dsimp only; omega
    rw [outsAt2_B V c ⟨n + 1, hn⟩ hB]
    dsimp only
    rw [out_B_7 (F := Ideal) c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) (ms2_8 (⟨n + 1, hn⟩ : Fin cfg2.N)) (hs2_8 (⟨n + 1, hn⟩ : Fin cfg2.N)) (fun h => hB ((hcond2_0 (⟨n + 1, hn⟩ : Fin cfg2.N)).mp h)) (iblk2 V c 0 (⟨n + 1, hn⟩ : Fin cfg2.N)) (iblk2 V c 1 (⟨n + 1, hn⟩ : Fin cfg2.N)) (iblk2 V c 2 (⟨n + 1, hn⟩ : Fin cfg2.N)) (iblk2 V c 3 (⟨n + 1, hn⟩ : Fin cfg2.N)) (iblk2 V c 4 (⟨n + 1, hn⟩ : Fin cfg2.N)) (iblk2 V c 5 (⟨n + 1, hn⟩ : Fin cfg2.N)) (outsAt2 V c ((⟨n + 1, hn⟩ : Fin cfg2.N).val - 1) (Nat.lt_of_le_of_lt (Nat.sub_le _ _) (⟨n + 1, hn⟩ : Fin cfg2.N).isLt)).2.1 (outsAt2 V c ((⟨n + 1, hn⟩ : Fin cfg2.N).val - 1) (Nat.lt_of_le_of_lt (Nat.sub_le _ _) (⟨n + 1, hn⟩ : Fin cfg2.N).isLt)).2.2]
    rw [pay5_apply, Finset.sum_range_succ _ (n + 1)]
    exact congrArg₂ (· + ·) (sums_at c n (Nat.lt_of_succ_lt hn) u j) (block_sum V c ⟨n + 1, hn⟩ j)

/-- THE RUNNING COLUMN SUMS OF SQUARES, likewise. -/
theorem sumsq_at (c : Dev nD) : ∀ (n : Nat) (hn : n < cfg2.N) (u : Fin 1) (j : Fin 128),
    ((outsAt2 V c n hn).2.2 : Vec Ideal S1x128 .f32) (ix2 u j)
      = ∑ s ∈ Finset.range (n + 1), blockSum (fun m => actOf V c (ix2 m j) * actOf V c (ix2 m j)) s
  | 0, hn, u, j => by
    rw [outsAt2_A V c ⟨0, hn⟩ rfl]
    dsimp only
    rw [out_A_8 (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) ((hcond2_0 ⟨0, hn⟩).mpr rfl) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩)]
    rw [pay1_apply, pay3_apply, zero_add, Finset.sum_range_one]
    exact block_sumsq V c ⟨0, hn⟩ j
  | n + 1, hn, u, j => by
    have hN : cfg2.N = 20 := N_2
    have hB : ¬(⟨n + 1, hn⟩ : Fin cfg2.N).val % 20 = 0 := by dsimp only; omega
    rw [outsAt2_B V c ⟨n + 1, hn⟩ hB]
    dsimp only
    rw [out_B_8 (F := Ideal) c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) (ms2_8 (⟨n + 1, hn⟩ : Fin cfg2.N)) (hs2_8 (⟨n + 1, hn⟩ : Fin cfg2.N)) (fun h => hB ((hcond2_0 (⟨n + 1, hn⟩ : Fin cfg2.N)).mp h)) (iblk2 V c 0 (⟨n + 1, hn⟩ : Fin cfg2.N)) (iblk2 V c 1 (⟨n + 1, hn⟩ : Fin cfg2.N)) (iblk2 V c 2 (⟨n + 1, hn⟩ : Fin cfg2.N)) (iblk2 V c 3 (⟨n + 1, hn⟩ : Fin cfg2.N)) (iblk2 V c 4 (⟨n + 1, hn⟩ : Fin cfg2.N)) (iblk2 V c 5 (⟨n + 1, hn⟩ : Fin cfg2.N)) (outsAt2 V c ((⟨n + 1, hn⟩ : Fin cfg2.N).val - 1) (Nat.lt_of_le_of_lt (Nat.sub_le _ _) (⟨n + 1, hn⟩ : Fin cfg2.N).isLt)).2.1 (outsAt2 V c ((⟨n + 1, hn⟩ : Fin cfg2.N).val - 1) (Nat.lt_of_le_of_lt (Nat.sub_le _ _) (⟨n + 1, hn⟩ : Fin cfg2.N).isLt)).2.2]
    rw [pay1_apply, Finset.sum_range_succ _ (n + 1)]
    exact congrArg₂ (· + ·) (sumsq_at c n (Nat.lt_of_succ_lt hn) u j) (block_sumsq V c ⟨n + 1, hn⟩ j)

/-! ## From the blocks written back to the three result arrays -/

/-- Every point writes back, as its block of the activation output, its block of the layer's activation table: block
    `t` covers rows `5000 t … 5000 t + 4999`, all 128 columns. -/
theorem flushed6_eq (c : Dev nD) (t : Fin cfg2.N) :
    (dat2 V c).flushed 6 t = ((cfg2.win 6).blk t).view.read (Elt Ideal) (actOf V c) := by
  have e0 := (idx_facts t).2.2.2.2.2.2.1.1
  have e1 := (idx_facts t).2.2.2.2.2.2.1.2
  show (cfg2.win 6).cut (grid2.coords t) ((dat2 V c).after 6 t) = _
  rw [after2_6, out6_eq]
  funext y
  obtain ⟨p, j, rfl⟩ : ∃ (p : Fin 5000) (j : Fin 128), y = ix2 p j := ⟨y 0, y 1, eq_ix2 y⟩
  rw [View.read_apply]
  show k2_pay4 (iblk2 V c 0 t) (iblk2 V c 1 t) (iblk2 V c 2 t) (iblk2 V c 3 t) (iblk2 V c 4 t) (iblk2 V c 5 t) (ix2 p j) = actOf V c (((cfg2.win 6).blk t).view.emb (ix2 p j))
  rw [pay4_at V c t p j]
  refine congrArg (actOf V c) (funext fun a => Fin.ext ?_)
  match a with
  | ⟨0, _⟩ => show 5000 * t.val + p.val = win2_6.index t (0 : Fin 2) * 5000 + 1 * p.val; rw [e0]; omega
  | ⟨1, _⟩ => show j.val = win2_6.index t (1 : Fin 2) * 128 + 1 * j.val; rw [e1]; omega

/-- THE ACTIVATION OUTPUT after the region is the layer's activation table of the six input arrays: row `n` was written
    back by point `n / 5000`. -/
theorem act_eq (c : Dev nD) : (dat2 V c).arrAt 6 cfg2.N = (LayerSpec.act (D := 128) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) :=
  (dat2 V c).arrAt_eq_of_cover 6 (actOf V c) (fun t _ => flushed6_eq V c t) fun i => by
    have hi0 : (i 0).val < 100000 := (i 0).isLt
    have hi1 : (i 1).val < 128 := (i 1).isLt
    have hN : cfg2.N = 20 := N_2
    obtain ⟨t, ht⟩ : ∃ t : Fin cfg2.N, t.val = (i 0).val / 5000 := ⟨⟨(i 0).val / 5000, by omega⟩, rfl⟩
    have e0 := (idx_facts t).2.2.2.2.2.2.1.1
    have e1 := (idx_facts t).2.2.2.2.2.2.1.2
    refine ⟨t, flush2_6 t, ?_⟩
    show i ∈ ((View.whole main_v57_0).slice (win2_6.rect t)).set
    rw [View.set_slice_whole, Rect.mem_set_unit]
    intro a
    match a with
    | ⟨0, _⟩ => show win2_6.index t (0 : Fin 2) * 5000 ≤ (i 0).val ∧ (i 0).val < win2_6.index t (0 : Fin 2) * 5000 + 5000; rw [e0]; omega
    | ⟨1, _⟩ => show win2_6.index t (1 : Fin 2) * 128 ≤ (i 1).val ∧ (i 1).val < win2_6.index t (1 : Fin 2) * 128 + 128; rw [e1]; omega

/-- A block of an accumulator row, read at an index of the block, is the row at the index's place in the array (the row is
    kept as a variable: the statement is about the window, not about what the row holds). -/
theorem read7_apply (G : LayerSpec.Mat 1 128) (t : Fin cfg2.N) (y : S1x128.Idx) :
    ((cfg2.win 7).blk t).view.read (Elt Ideal) G y = G (((cfg2.win 7).blk t).view.emb y) := rfl
theorem read8_apply (G : LayerSpec.Mat 1 128) (t : Fin cfg2.N) (y : S1x128.Idx) :
    ((cfg2.win 8).blk t).view.read (Elt Ideal) G y = G (((cfg2.win 8).blk t).view.emb y) := rfl

/-- The one write-back of the column sums, at the last point, writes the whole column sums of the activation table. -/
theorem flushed7_eq (c : Dev nD) (t : Fin cfg2.N) (hf : (cfg2.win 7).flush t = true) :
    (dat2 V c).flushed 7 t = ((cfg2.win 7).blk t).view.read (Elt Ideal) (LayerSpec.colSum (actOf V c)) := by
  have hN : cfg2.N = 20 := N_2
  have h19 : t.val + 1 = 20 := by have := (flush2_7 t).mp hf; have := t.isLt; omega
  have e1 := (idx_facts t).2.2.2.2.2.2.2.1.2
  show (cfg2.win 7).cut (grid2.coords t) ((dat2 V c).after 7 t) = _
  rw [after2_7]
  funext y
  obtain ⟨u, j, rfl⟩ : ∃ (u : Fin 1) (j : Fin 128), y = ix2 u j := ⟨y 0, y 1, eq_ix2 y⟩
  refine Eq.trans ?_ (read7_apply (LayerSpec.colSum (actOf V c)) t (ix2 u j)).symm
  have s1 : ((outsAt2 V c t.val t.isLt).2.1 : Vec Ideal S1x128 .f32) (ix2 u j)
      = ∑ s ∈ Finset.range (t.val + 1), blockSum (fun m => actOf V c (ix2 m j)) s := sums_at V c t.val t.isLt u j
  have s2 : ∑ s ∈ Finset.range (t.val + 1), blockSum (fun m => actOf V c (ix2 m j)) s = ∑ n : Fin 100000, actOf V c (ix2 n j) := by
    rw [h19]
    exact sum_blocks (fun n => actOf V c (ix2 n j))
  have ej : (((cfg2.win 7).blk t).view.emb (ix2 u j)) 1 = j := Fin.ext (by
    show win2_7.index t (1 : Fin 2) * 128 + 1 * j.val = j.val; rw [e1]; omega)
  have s3 : LayerSpec.colSum (actOf V c) (((cfg2.win 7).blk t).view.emb (ix2 u j)) = ∑ n : Fin 100000, actOf V c (ix2 n j) := by
    unfold LayerSpec.colSum
    rw [ej]
  exact (s1.trans s2).trans s3.symm

/-- THE COLUMN SUMS after the region are the sums of the activation table's columns over all 100000 rows. -/
theorem sum_eq (c : Dev nD) : (dat2 V c).arrAt 7 cfg2.N = LayerSpec.colSum (LayerSpec.act (D := 128) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) :=
  (dat2 V c).arrAt_eq_of_cover 7 (LayerSpec.colSum (actOf V c)) (flushed7_eq V c) fun i => by
    have hi0 : (i 0).val < 1 := (i 0).isLt
    have hi1 : (i 1).val < 128 := (i 1).isLt
    have hN : cfg2.N = 20 := N_2
    obtain ⟨t, ht⟩ : ∃ t : Fin cfg2.N, t.val = 19 := ⟨⟨19, by omega⟩, rfl⟩
    have e0 := (idx_facts t).2.2.2.2.2.2.2.1.1
    have e1 := (idx_facts t).2.2.2.2.2.2.2.1.2
    refine ⟨t, (flush2_7 t).mpr (by omega), ?_⟩
    show i ∈ ((View.whole main_v57_1).slice (win2_7.rect t)).set
    rw [View.set_slice_whole, Rect.mem_set_unit]
    intro a
    match a with
    | ⟨0, _⟩ => show win2_7.index t (0 : Fin 2) * 1 ≤ (i 0).val ∧ (i 0).val < win2_7.index t (0 : Fin 2) * 1 + 1; rw [e0]; omega
    | ⟨1, _⟩ => show win2_7.index t (1 : Fin 2) * 128 ≤ (i 1).val ∧ (i 1).val < win2_7.index t (1 : Fin 2) * 128 + 128; rw [e1]; omega

/-- The one write-back of the sums of squares, at the last point, writes the whole column sums of squares. -/
theorem flushed8_eq (c : Dev nD) (t : Fin cfg2.N) (hf : (cfg2.win 8).flush t = true) :
    (dat2 V c).flushed 8 t = ((cfg2.win 8).blk t).view.read (Elt Ideal) (LayerSpec.colSumSq (actOf V c)) := by
  have hN : cfg2.N = 20 := N_2
  have h19 : t.val + 1 = 20 := by have := (flush2_8 t).mp hf; have := t.isLt; omega
  have e1 := (idx_facts t).2.2.2.2.2.2.2.2.2
  show (cfg2.win 8).cut (grid2.coords t) ((dat2 V c).after 8 t) = _
  rw [after2_8]
  funext y
  obtain ⟨u, j, rfl⟩ : ∃ (u : Fin 1) (j : Fin 128), y = ix2 u j := ⟨y 0, y 1, eq_ix2 y⟩
  refine Eq.trans ?_ (read8_apply (LayerSpec.colSumSq (actOf V c)) t (ix2 u j)).symm
  have s1 : ((outsAt2 V c t.val t.isLt).2.2 : Vec Ideal S1x128 .f32) (ix2 u j)
      = ∑ s ∈ Finset.range (t.val + 1), blockSum (fun m => actOf V c (ix2 m j) * actOf V c (ix2 m j)) s := sumsq_at V c t.val t.isLt u j
  have s2 : ∑ s ∈ Finset.range (t.val + 1), blockSum (fun m => actOf V c (ix2 m j) * actOf V c (ix2 m j)) s = ∑ n : Fin 100000, actOf V c (ix2 n j) * actOf V c (ix2 n j) := by
    rw [h19]
    exact sum_blocks (fun n => actOf V c (ix2 n j) * actOf V c (ix2 n j))
  have ej : (((cfg2.win 8).blk t).view.emb (ix2 u j)) 1 = j := Fin.ext (by
    show win2_8.index t (1 : Fin 2) * 128 + 1 * j.val = j.val; rw [e1]; omega)
  have s3 : LayerSpec.colSumSq (actOf V c) (((cfg2.win 8).blk t).view.emb (ix2 u j)) = ∑ n : Fin 100000, actOf V c (ix2 n j) * actOf V c (ix2 n j) := by
    unfold LayerSpec.colSumSq
    rw [ej]
  exact (s1.trans s2).trans s3.symm

/-- THE COLUMN SUMS OF SQUARES after the region are those of the activation table over all 100000 rows. -/
theorem sumsq_eq (c : Dev nD) : (dat2 V c).arrAt 8 cfg2.N = LayerSpec.colSumSq (LayerSpec.act (D := 128) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) :=
  (dat2 V c).arrAt_eq_of_cover 8 (LayerSpec.colSumSq (actOf V c)) (flushed8_eq V c) fun i => by
    have hi0 : (i 0).val < 1 := (i 0).isLt
    have hi1 : (i 1).val < 128 := (i 1).isLt
    have hN : cfg2.N = 20 := N_2
    obtain ⟨t, ht⟩ : ∃ t : Fin cfg2.N, t.val = 19 := ⟨⟨19, by omega⟩, rfl⟩
    have e0 := (idx_facts t).2.2.2.2.2.2.2.2.1
    have e1 := (idx_facts t).2.2.2.2.2.2.2.2.2
    refine ⟨t, (flush2_8 t).mpr (by omega), ?_⟩
    show i ∈ ((View.whole main_v57_2).slice (win2_8.rect t)).set
    rw [View.set_slice_whole, Rect.mem_set_unit]
    intro a
    match a with
    | ⟨0, _⟩ => show win2_8.index t (0 : Fin 2) * 1 ≤ (i 0).val ∧ (i 0).val < win2_8.index t (0 : Fin 2) * 1 + 1; rw [e0]; omega
    | ⟨1, _⟩ => show win2_8.index t (1 : Fin 2) * 128 ≤ (i 1).val ∧ (i 1).val < win2_8.index t (1 : Fin 2) * 128 + 128; rw [e1]; omega

end Value

end Cert.KernelIdeal.Stage1Value2

end
-- ==== Proof.Stage1Value4.lean ====
/-
  The value of one stage-1 region (region 4 of the idealized kernel's program), read at the extended reals.

  The region runs its body at 20 points. Point `t` sees rows `5000 t … 5000 t + 4999` of the node table and of the two
  aggregated tables, the three whole `128 × 128` weight matrices, and leaves (a) its `5000 × 128` block of
  `max (h·Ws + ai·Wi + ao·Wo) 0`, which depends on those rows only, and (b) two `1 × 128` accumulator rows — zeroed at the
  first point, then increased at every point by the block's column sums and column sums of squares — written back once,
  after the last point. So the first result array is the layer's activation table, and the two rows are the sums, over
  all 100000 rows, of its columns and of their squares: addition of extended reals is associative and commutative, so
  the sum taken block by block is the sum over all rows.
-/
import proofs.«136260_j12601434046916_1_alg».proof.Proof.Gen.KernelIdeal.Frame
import proofs.«136260_j12601434046916_1_alg».proof.Proof.LayerSpec
import Idealize.ShloMosaic.Lib.Pipeline.Value
import Idealize.ShloMosaic.Lib.ValueLayout
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open scoped BigOperators

namespace Cert.KernelIdeal.Stage1Value4

open Cert.KernelIdeal Cert.KernelIdeal.Gen Idealize.ShloMosaic.ValueIdx

/-! ## What each case of the body leaves in the three output blocks -/

section Pieces

variable {F : FTy → Type} [FloatOps F]

/-- Every whole-buffer access is through the rectangle at offsets `(0, 0)`. -/
theorem hz : (![0, 0] : Fin 2 → Nat) = fun _ => 0 := funext fun a => by fin_cases a <;> rfl

/-- At the first point the activation block is the one store's payload of the six input blocks. -/
theorem out_A_6 (c : Dev nD) (i : grid4.Coords) (a1 : Memref sig .tc .vmem S5000x128 .f32) (h1 : a1.IsWhole) (a2 : Memref sig .tc .vmem S5000x128 .f32) (h2 : a2.IsWhole) (a3 : Memref sig .tc .vmem S5000x128 .f32) (h3 : a3.IsWhole) (a4 : Memref sig .tc .vmem S128x128 .f32) (h4 : a4.IsWhole) (a5 : Memref sig .tc .vmem S128x128 .f32) (h5 : a5.IsWhole) (a6 : Memref sig .tc .vmem S128x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond4_0 i) (x0 x1 x2 : Vec F S5000x128 .f32) (x3 x4 x5 : Vec F S128x128 .f32) :
    out4_A_6 c i a1 h1 a2 h2 a3 h3 a4 h4 a5 h5 a6 h6 a7 h7 a8 h8 a9 h9 hc x0 x1 x2 x3 x4 x5 = k4_pay4 x0 x1 x2 x3 x4 x5 := by
  unfold out4_A_6
  rw [View.read_writes_eq_canon _ _ _ (cover4_A_6 c i a1 h1 a2 h2 a3 h3 a4 h4 a5 h5 a6 h6 a7 h7 a8 h8 a9 h9 hc x0 x1 x2 x3 x4 x5)]
  unfold kernelRun4_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S5000x128) hz, View.ld_unit_zero (S := S128x128) hz, View.ld_unit_zero (S := S5000x128) hz, View.ld_unit_zero (S := S1x128) hz]

/-- At every later point likewise: the activation block does not depend on the accumulators. -/
theorem out_B_6 (c : Dev nD) (i : grid4.Coords) (a1 : Memref sig .tc .vmem S5000x128 .f32) (h1 : a1.IsWhole) (a2 : Memref sig .tc .vmem S5000x128 .f32) (h2 : a2.IsWhole) (a3 : Memref sig .tc .vmem S5000x128 .f32) (h3 : a3.IsWhole) (a4 : Memref sig .tc .vmem S128x128 .f32) (h4 : a4.IsWhole) (a5 : Memref sig .tc .vmem S128x128 .f32) (h5 : a5.IsWhole) (a6 : Memref sig .tc .vmem S128x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond4_0 i) (x0 x1 x2 : Vec F S5000x128 .f32) (x3 x4 x5 : Vec F S128x128 .f32) (xo7 xo8 : Vec F S1x128 .f32) :
    out4_B_6 c i a1 h1 a2 h2 a3 h3 a4 h4 a5 h5 a6 h6 a7 h7 a8 h8 a9 h9 hc x0 x1 x2 x3 x4 x5 xo7 xo8 = k4_pay4 x0 x1 x2 x3 x4 x5 := by
  unfold out4_B_6
  rw [View.read_writes_eq_canon _ _ _ (cover4_B_6 c i a1 h1 a2 h2 a3 h3 a4 h4 a5 h5 a6 h6 a7 h7 a8 h8 a9 h9 hc x0 x1 x2 x3 x4 x5 xo7 xo8)]
  unfold kernelRun4_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S5000x128) hz, View.ld_unit_zero (S := S128x128) hz, View.ld_unit_zero (S := S5000x128) hz, View.ld_unit_zero (S := S1x128) hz]

/-- At the first point the column sums are stored as zero, read back, and the block's column sums added. -/
theorem out_A_7 (c : Dev nD) (i : grid4.Coords) (a1 : Memref sig .tc .vmem S5000x128 .f32) (h1 : a1.IsWhole) (a2 : Memref sig .tc .vmem S5000x128 .f32) (h2 : a2.IsWhole) (a3 : Memref sig .tc .vmem S5000x128 .f32) (h3 : a3.IsWhole) (a4 : Memref sig .tc .vmem S128x128 .f32) (h4 : a4.IsWhole) (a5 : Memref sig .tc .vmem S128x128 .f32) (h5 : a5.IsWhole) (a6 : Memref sig .tc .vmem S128x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond4_0 i) (x0 x1 x2 : Vec F S5000x128 .f32) (x3 x4 x5 : Vec F S128x128 .f32) :
    out4_A_7 c i a1 h1 a2 h2 a3 h3 a4 h4 a5 h5 a6 h6 a7 h7 a8 h8 a9 h9 hc x0 x1 x2 x3 x4 x5 = k4_pay5 x0 x1 x2 x3 x4 x5 k4_pay2 := by
  unfold out4_A_7
  rw [View.read_writes_eq_canon _ _ _ (cover4_A_7 c i a1 h1 a2 h2 a3 h3 a4 h4 a5 h5 a6 h6 a7 h7 a8 h8 a9 h9 hc x0 x1 x2 x3 x4 x5)]
  unfold kernelRun4_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, h9.read_unread, View.ld_unit_zero (S := S5000x128) hz, View.ld_unit_zero (S := S128x128) hz, View.ld_unit_zero (S := S5000x128) hz, View.ld_unit_zero (S := S1x128) hz]

/-- At a later point the block's column sums are added to what the accumulator held. -/
theorem out_B_7 (c : Dev nD) (i : grid4.Coords) (a1 : Memref sig .tc .vmem S5000x128 .f32) (h1 : a1.IsWhole) (a2 : Memref sig .tc .vmem S5000x128 .f32) (h2 : a2.IsWhole) (a3 : Memref sig .tc .vmem S5000x128 .f32) (h3 : a3.IsWhole) (a4 : Memref sig .tc .vmem S128x128 .f32) (h4 : a4.IsWhole) (a5 : Memref sig .tc .vmem S128x128 .f32) (h5 : a5.IsWhole) (a6 : Memref sig .tc .vmem S128x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond4_0 i) (x0 x1 x2 : Vec F S5000x128 .f32) (x3 x4 x5 : Vec F S128x128 .f32) (xo7 xo8 : Vec F S1x128 .f32) :
    out4_B_7 c i a1 h1 a2 h2 a3 h3 a4 h4 a5 h5 a6 h6 a7 h7 a8 h8 a9 h9 hc x0 x1 x2 x3 x4 x5 xo7 xo8 = k4_pay5 x0 x1 x2 x3 x4 x5 xo7 := by
  unfold out4_B_7
  rw [View.read_writes_eq_canon _ _ _ (cover4_B_7 c i a1 h1 a2 h2 a3 h3 a4 h4 a5 h5 a6 h6 a7 h7 a8 h8 a9 h9 hc x0 x1 x2 x3 x4 x5 xo7 xo8)]
  unfold kernelRun4_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S5000x128) hz, View.ld_unit_zero (S := S128x128) hz, View.ld_unit_zero (S := S5000x128) hz, View.ld_unit_zero (S := S1x128) hz]

/-- At the first point the sums of squares are stored as zero, read back, and the block's added. -/
theorem out_A_8 (c : Dev nD) (i : grid4.Coords) (a1 : Memref sig .tc .vmem S5000x128 .f32) (h1 : a1.IsWhole) (a2 : Memref sig .tc .vmem S5000x128 .f32) (h2 : a2.IsWhole) (a3 : Memref sig .tc .vmem S5000x128 .f32) (h3 : a3.IsWhole) (a4 : Memref sig .tc .vmem S128x128 .f32) (h4 : a4.IsWhole) (a5 : Memref sig .tc .vmem S128x128 .f32) (h5 : a5.IsWhole) (a6 : Memref sig .tc .vmem S128x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : cond4_0 i) (x0 x1 x2 : Vec F S5000x128 .f32) (x3 x4 x5 : Vec F S128x128 .f32) :
    out4_A_8 c i a1 h1 a2 h2 a3 h3 a4 h4 a5 h5 a6 h6 a7 h7 a8 h8 a9 h9 hc x0 x1 x2 x3 x4 x5 = k4_pay1 (k4_pay4 x0 x1 x2 x3 x4 x5) k4_pay3 := by
  unfold out4_A_8
  rw [View.read_writes_eq_canon _ _ _ (cover4_A_8 c i a1 h1 a2 h2 a3 h3 a4 h4 a5 h5 a6 h6 a7 h7 a8 h8 a9 h9 hc x0 x1 x2 x3 x4 x5)]
  unfold kernelRun4_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, h8.read_unread, h9.read_unread, View.ld_unit_zero (S := S5000x128) hz, View.ld_unit_zero (S := S128x128) hz, View.ld_unit_zero (S := S5000x128) hz, View.ld_unit_zero (S := S1x128) hz]

/-- At a later point the block's column sums of squares are added to what the accumulator held. -/
theorem out_B_8 (c : Dev nD) (i : grid4.Coords) (a1 : Memref sig .tc .vmem S5000x128 .f32) (h1 : a1.IsWhole) (a2 : Memref sig .tc .vmem S5000x128 .f32) (h2 : a2.IsWhole) (a3 : Memref sig .tc .vmem S5000x128 .f32) (h3 : a3.IsWhole) (a4 : Memref sig .tc .vmem S128x128 .f32) (h4 : a4.IsWhole) (a5 : Memref sig .tc .vmem S128x128 .f32) (h5 : a5.IsWhole) (a6 : Memref sig .tc .vmem S128x128 .f32) (h6 : a6.IsWhole) (a7 : Memref sig .tc .vmem S5000x128 .f32) (h7 : a7.IsWhole) (a8 : Memref sig .tc .vmem S1x128 .f32) (h8 : a8.IsWhole) (a9 : Memref sig .tc .vmem S1x128 .f32) (h9 : a9.IsWhole) (hc : ¬cond4_0 i) (x0 x1 x2 : Vec F S5000x128 .f32) (x3 x4 x5 : Vec F S128x128 .f32) (xo7 xo8 : Vec F S1x128 .f32) :
    out4_B_8 c i a1 h1 a2 h2 a3 h3 a4 h4 a5 h5 a6 h6 a7 h7 a8 h8 a9 h9 hc x0 x1 x2 x3 x4 x5 xo7 xo8 = k4_pay1 (k4_pay4 x0 x1 x2 x3 x4 x5) xo8 := by
  unfold out4_B_8
  rw [View.read_writes_eq_canon _ _ _ (cover4_B_8 c i a1 h1 a2 h2 a3 h3 a4 h4 a5 h5 a6 h6 a7 h7 a8 h8 a9 h9 hc x0 x1 x2 x3 x4 x5 xo7 xo8)]
  unfold kernelRun4_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S5000x128) hz, View.ld_unit_zero (S := S128x128) hz, View.ld_unit_zero (S := S5000x128) hz, View.ld_unit_zero (S := S1x128) hz]

end Pieces

/-! ## The body's arithmetic at an index, over the extended reals -/

/-- The dimension numbers of the three products: a `5000 × 128` block times a `128 × 128` matrix, one contracted axis. -/
abbrev dims : DotDims S5000x128 S128x128 S5000x128 := dot_S5000x128_S128x128_S5000x128_1_0_0_1_n_n

theorem lhs_row (i : S5000x128.Idx) (q : dims.contr.Idx) : (dims.lhsIdx i q 0).val = (i 0).val := by
  unfold DotDims.lhsIdx
  rw [dif_neg (show ¬(0 : Fin S5000x128.rank) ∈ dims.lhsBatch by decide), dif_pos (show (0 : Fin S5000x128.rank) ∈ dims.lhsNonContracting by decide)]
  rfl
theorem lhs_col (i : S5000x128.Idx) (q : dims.contr.Idx) : (dims.lhsIdx i q 1).val = (q ⟨0, by decide⟩).val :=
  dims.lhsIdx_val_of_single rfl i q
theorem rhs_row (i : S5000x128.Idx) (q : dims.contr.Idx) : (dims.rhsIdx i q 0).val = (q ⟨0, by decide⟩).val :=
  dims.rhsIdx_val_of_single rfl i q
theorem rhs_col (i : S5000x128.Idx) (q : dims.contr.Idx) : (dims.rhsIdx i q 1).val = (i 1).val := by
  unfold DotDims.rhsIdx
  rw [dif_neg (show ¬(1 : Fin S128x128.rank) ∈ dims.rhsBatch by decide), dif_pos (show (1 : Fin S128x128.rank) ∈ dims.rhsNonContracting by decide)]
  rfl

/-- A product into the zero accumulator, at row `p` and column `j`: the sum over the shared axis of the row's entries
    times the column's. -/
theorem matmul_at {φ₁ φ₂ : FTy} (l : FVec Ideal S5000x128 φ₁) (r : FVec Ideal S128x128 φ₂) (p : Fin 5000) (j : Fin 128) :
    matmul dims none l r (constant (F := Ideal) S5000x128 .f32 0x00000000#32) (ix2 p j)
      = ∑ k : Fin 128, l (ix2 p k) * r (ix2 k j) := by
  refine (Ideal.matmul_constant_zero_apply dims none l r (ix2 p j)).trans ?_
  rw [← Equiv.sum_comp (ValueIdx.contrEquiv1 dims 128 rfl rfl).symm]
  refine Finset.sum_congr rfl fun k _ => ?_
  have hk := ValueIdx.contrEquiv1_symm_val dims 128 rfl rfl k
  have el : dims.lhsIdx (ix2 p j) ((ValueIdx.contrEquiv1 dims 128 rfl rfl).symm k) = ix2 p k := funext fun a => Fin.ext (by
    match a with
    | ⟨0, _⟩ => exact lhs_row _ _
    | ⟨1, _⟩ => exact (lhs_col _ _).trans hk)
  have er : dims.rhsIdx (ix2 p j) ((ValueIdx.contrEquiv1 dims 128 rfl rfl).symm k) = ix2 k j := funext fun a => Fin.ext (by
    match a with
    | ⟨0, _⟩ => exact (rhs_row _ _).trans hk
    | ⟨1, _⟩ => exact rhs_col _ _)
  rw [el, er]

/-- The stored activation block at `(p, j)`: the three products added left to right, then the maximum with zero
    (the narrowing of the operands to the product's format is the identity on extended reals). -/
theorem pay4_apply (x0 x1 x2 : Vec Ideal S5000x128 .f32) (x3 x4 x5 : Vec Ideal S128x128 .f32) (p : Fin 5000) (j : Fin 128) :
    k4_pay4 x0 x1 x2 x3 x4 x5 (ix2 p j)
      = max (((∑ k : Fin 128, x0 (ix2 p k) * x3 (ix2 k j)) + ∑ k : Fin 128, x1 (ix2 p k) * x4 (ix2 k j))
          + ∑ k : Fin 128, x2 (ix2 p k) * x5 (ix2 k j)) (Ideal.ofBits .f32 0x00000000#32) := by
  unfold k4_pay4
  simp only [shapeCast_self]
  exact congrArg₂ max (congrArg₂ (· + ·) (congrArg₂ (· + ·) (matmul_at _ _ p j) (matmul_at _ _ p j)) (matmul_at _ _ p j)) rfl

/-- The sum of a `5000 × 128` block along its rows, at column `j`. -/
theorem colsum_at (src : FVec Ideal S5000x128 .f32) (j : Fin 128) :
    multiReduction (F := Ideal) .add [0] S128 src 0x00000000#32 reduces_S5000x128_S128 (.inl rfl) rfl (ix1 j)
      = ∑ r : Fin 5000, src (ix2 r j) := by
  refine (Ideal.multiReduction_add_single src 0x00000000#32 reduces_S5000x128_S128 (.inl rfl) rfl (ix1 j)).trans ?_
  refine Finset.sum_congr rfl fun r _ => congrArg src ?_
  funext a
  match a with
  | ⟨0, _⟩ => rfl
  | ⟨1, _⟩ => rfl

/-- The new column sums at `(u, j)`: what the accumulator held there plus the block's column sum. -/
theorem pay5_apply (x0 x1 x2 : Vec Ideal S5000x128 .f32) (x3 x4 x5 : Vec Ideal S128x128 .f32) (v25 : Vec Ideal S1x128 .f32)
    (u : Fin 1) (j : Fin 128) :
    k4_pay5 x0 x1 x2 x3 x4 x5 v25 (ix2 u j)
      = v25 (ix2 u j) + ∑ r : Fin 5000, k4_pay4 x0 x1 x2 x3 x4 x5 (ix2 r j) := by
  unfold k4_pay5
  simp only [shapeCast_self]
  refine congrArg (v25 (ix2 u j) + ·) ?_
  refine (shapeCast_a_1a_apply _ _ u j).trans ?_
  exact colsum_at _ j

/-- The new column sums of squares at `(u, j)`: what the accumulator held there plus the column sum of the block's
    squares. -/
theorem pay1_apply (v23 : FVec Ideal S5000x128 .f32) (v31 : Vec Ideal S1x128 .f32) (u : Fin 1) (j : Fin 128) :
    k4_pay1 v23 v31 (ix2 u j) = v31 (ix2 u j) + ∑ r : Fin 5000, v23 (ix2 r j) * v23 (ix2 r j) := by
  unfold k4_pay1
  simp only [shapeCast_self]
  refine congrArg (v31 (ix2 u j) + ·) ?_
  refine (shapeCast_a_1a_apply _ _ u j).trans ?_
  exact colsum_at _ j

/-- The two accumulators are reset to the zero row. -/
theorem pay2_apply (i : S1x128.Idx) : k4_pay2 (F := Ideal) i = 0 := Ideal.ofBits_zero_f32
theorem pay3_apply (i : S1x128.Idx) : k4_pay3 (F := Ideal) i = 0 := Ideal.ofBits_zero_f32

/-! ## The blocks of the six input arrays -/

section Value

variable (V : (c : Dev nD) → (b : Ref sig .tc) → Buf (Elt Ideal) ((c : Thread nD τ).loc b))

/-- The printed index maps, decided once over the 20 points: the three row-blocked inputs and the activation output sit at
    block `(t, 0)`; the three weight matrices and the two accumulator rows at block `(0, 0)` at every point. -/
theorem idx_facts : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = t.val ∧ win4_6.index t (1 : Fin 2) = 0)
    ∧ (win4_7.index t (0 : Fin 2) = 0 ∧ win4_7.index t (1 : Fin 2) = 0)
    ∧ (win4_8.index t (0 : Fin 2) = 0 ∧ win4_8.index t (1 : Fin 2) = 0) :=
  (by decide +kernel : ∀ t : Fin grid4.N, _)

/-- Row `p` of block `s` is row `5000 s + p` of a 100000-row table. -/
def row (s : Nat) (hs : s < 20) (p : Fin 5000) : Fin 100000 := ⟨5000 * s + p.val, by omega⟩

theorem lt_twenty (t : Fin cfg4.N) : t.val < 20 := by
  have h := t.isLt
  have hN : cfg4.N = 20 := N_4
  omega

theorem iblk_0 (c : Dev nD) (t : Fin cfg4.N) (hs : t.val < 20) (p : Fin 5000) (k : Fin 128) :
    (iblk4 V c 0 t : Vec Ideal S5000x128 .f32) (ix2 p k) = ((V c (Pipeline.arrRef spec4 0)) : LayerSpec.Mat 100000 128) (ix2 (row t.val hs p) k) := by
  have e0 := (idx_facts t).1.1
  have e1 := (idx_facts t).1.2
  unfold iblk4
  rw [View.read_apply]
  show (V c (Pipeline.arrRef spec4 0)) (((cfg4.win 0).blk t).view.emb (ix2 p k)) = (V c (Pipeline.arrRef spec4 0)) (ix2 (row t.val hs p) k)
  refine congrArg (V c (Pipeline.arrRef spec4 0)) (funext fun a => Fin.ext ?_)
  match a with
  | ⟨0, _⟩ => show win4_0.index t (0 : Fin 2) * 5000 + 1 * p.val = 5000 * t.val + p.val; rw [e0]; omega
  | ⟨1, _⟩ => show win4_0.index t (1 : Fin 2) * 128 + 1 * k.val = k.val; rw [e1]; omega

theorem iblk_1 (c : Dev nD) (t : Fin cfg4.N) (hs : t.val < 20) (p : Fin 5000) (k : Fin 128) :
    (iblk4 V c 1 t : Vec Ideal S5000x128 .f32) (ix2 p k) = ((V c (Pipeline.arrRef spec4 1)) : LayerSpec.Mat 100000 128) (ix2 (row t.val hs p) k) := by
  have e0 := (idx_facts t).2.1.1
  have e1 := (idx_facts t).2.1.2
  unfold iblk4
  rw [View.read_apply]
  show (V c (Pipeline.arrRef spec4 1)) (((cfg4.win 1).blk t).view.emb (ix2 p k)) = (V c (Pipeline.arrRef spec4 1)) (ix2 (row t.val hs p) k)
  refine congrArg (V c (Pipeline.arrRef spec4 1)) (funext fun a => Fin.ext ?_)
  match a with
  | ⟨0, _⟩ => show win4_1.index t (0 : Fin 2) * 5000 + 1 * p.val = 5000 * t.val + p.val; rw [e0]; omega
  | ⟨1, _⟩ => show win4_1.index t (1 : Fin 2) * 128 + 1 * k.val = k.val; rw [e1]; omega

theorem iblk_2 (c : Dev nD) (t : Fin cfg4.N) (hs : t.val < 20) (p : Fin 5000) (k : Fin 128) :
    (iblk4 V c 2 t : Vec Ideal S5000x128 .f32) (ix2 p k) = ((V c (Pipeline.arrRef spec4 2)) : LayerSpec.Mat 100000 128) (ix2 (row t.val hs p) k) := by
  have e0 := (idx_facts t).2.2.1.1
  have e1 := (idx_facts t).2.2.1.2
  unfold iblk4
  rw [View.read_apply]
  show (V c (Pipeline.arrRef spec4 2)) (((cfg4.win 2).blk t).view.emb (ix2 p k)) = (V c (Pipeline.arrRef spec4 2)) (ix2 (row t.val hs p) k)
  refine congrArg (V c (Pipeline.arrRef spec4 2)) (funext fun a => Fin.ext ?_)
  match a with
  | ⟨0, _⟩ => show win4_2.index t (0 : Fin 2) * 5000 + 1 * p.val = 5000 * t.val + p.val; rw [e0]; omega
  | ⟨1, _⟩ => show win4_2.index t (1 : Fin 2) * 128 + 1 * k.val = k.val; rw [e1]; omega

theorem iblk_3 (c : Dev nD) (t : Fin cfg4.N) (k : Fin 128) (j : Fin 128) :
    (iblk4 V c 3 t : Vec Ideal S128x128 .f32) (ix2 k j) = ((V c (Pipeline.arrRef spec4 3)) : LayerSpec.Mat 128 128) (ix2 k j) := by
  have e0 := (idx_facts t).2.2.2.1.1
  have e1 := (idx_facts t).2.2.2.1.2
  unfold iblk4
  rw [View.read_apply]
  show (V c (Pipeline.arrRef spec4 3)) (((cfg4.win 3).blk t).view.emb (ix2 k j)) = (V c (Pipeline.arrRef spec4 3)) (ix2 k j)
  refine congrArg (V c (Pipeline.arrRef spec4 3)) (funext fun a => Fin.ext ?_)
  match a with
  | ⟨0, _⟩ => show win4_3.index t (0 : Fin 2) * 128 + 1 * k.val = k.val; rw [e0]; omega
  | ⟨1, _⟩ => show win4_3.index t (1 : Fin 2) * 128 + 1 * j.val = j.val; rw [e1]; omega

theorem iblk_4 (c : Dev nD) (t : Fin cfg4.N) (k : Fin 128) (j : Fin 128) :
    (iblk4 V c 4 t : Vec Ideal S128x128 .f32) (ix2 k j) = ((V c (Pipeline.arrRef spec4 4)) : LayerSpec.Mat 128 128) (ix2 k j) := by
  have e0 := (idx_facts t).2.2.2.2.1.1
  have e1 := (idx_facts t).2.2.2.2.1.2
  unfold iblk4
  rw [View.read_apply]
  show (V c (Pipeline.arrRef spec4 4)) (((cfg4.win 4).blk t).view.emb (ix2 k j)) = (V c (Pipeline.arrRef spec4 4)) (ix2 k j)
  refine congrArg (V c (Pipeline.arrRef spec4 4)) (funext fun a => Fin.ext ?_)
  match a with
  | ⟨0, _⟩ => show win4_4.index t (0 : Fin 2) * 128 + 1 * k.val = k.val; rw [e0]; omega
  | ⟨1, _⟩ => show win4_4.index t (1 : Fin 2) * 128 + 1 * j.val = j.val; rw [e1]; omega

theorem iblk_5 (c : Dev nD) (t : Fin cfg4.N) (k : Fin 128) (j : Fin 128) :
    (iblk4 V c 5 t : Vec Ideal S128x128 .f32) (ix2 k j) = ((V c (Pipeline.arrRef spec4 5)) : LayerSpec.Mat 128 128) (ix2 k j) := by
  have e0 := (idx_facts t).2.2.2.2.2.1.1
  have e1 := (idx_facts t).2.2.2.2.2.1.2
  unfold iblk4
  rw [View.read_apply]
  show (V c (Pipeline.arrRef spec4 5)) (((cfg4.win 5).blk t).view.emb (ix2 k j)) = (V c (Pipeline.arrRef spec4 5)) (ix2 k j)
  refine congrArg (V c (Pipeline.arrRef spec4 5)) (funext fun a => Fin.ext ?_)
  match a with
  | ⟨0, _⟩ => show win4_5.index t (0 : Fin 2) * 128 + 1 * k.val = k.val; rw [e0]; omega
  | ⟨1, _⟩ => show win4_5.index t (1 : Fin 2) * 128 + 1 * j.val = j.val; rw [e1]; omega

/-! ## The activation block of a point -/

/-- Over blocks that are rows `5000 s + p` of the three tables and the three whole weight matrices, the stored block at
    `(p, j)` is the layer's activation at row `5000 s + p`, column `j`. -/
theorem pay4_block (h ai ao : LayerSpec.Mat 100000 128) (Ws Wi Wo : LayerSpec.Mat 128 128) (s : Nat) (hs : s < 20)
    (x0 x1 x2 : Vec Ideal S5000x128 .f32) (x3 x4 x5 : Vec Ideal S128x128 .f32)
    (e0 : ∀ (p : Fin 5000) (k : Fin 128), x0 (ix2 p k) = h (ix2 (row s hs p) k))
    (e1 : ∀ (p : Fin 5000) (k : Fin 128), x1 (ix2 p k) = ai (ix2 (row s hs p) k))
    (e2 : ∀ (p : Fin 5000) (k : Fin 128), x2 (ix2 p k) = ao (ix2 (row s hs p) k))
    (e3 : ∀ (k : Fin 128) (j : Fin 128), x3 (ix2 k j) = Ws (ix2 k j))
    (e4 : ∀ (k : Fin 128) (j : Fin 128), x4 (ix2 k j) = Wi (ix2 k j))
    (e5 : ∀ (k : Fin 128) (j : Fin 128), x5 (ix2 k j) = Wo (ix2 k j))
    (p : Fin 5000) (j : Fin 128) :
    k4_pay4 x0 x1 x2 x3 x4 x5 (ix2 p j) = LayerSpec.act h ai ao Ws Wi Wo (ix2 (row s hs p) j) := by
  rw [pay4_apply]
  simp only [e0, e1, e2, e3, e4, e5]
  rfl

/-- The layer's activation table of the six arrays the region finds. -/
abbrev actOf (c : Dev nD) : LayerSpec.Mat 100000 128 := (LayerSpec.act (D := 128) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)))

/-- At point `t` the payload of the point's six blocks, at `(p, j)`, is the activation at row `5000 t + p`. -/
theorem pay4_at (c : Dev nD) (t : Fin cfg4.N) (p : Fin 5000) (j : Fin 128) :
    k4_pay4 (iblk4 V c 0 t) (iblk4 V c 1 t) (iblk4 V c 2 t) (iblk4 V c 3 t) (iblk4 V c 4 t) (iblk4 V c 5 t) (ix2 p j) = actOf V c (ix2 (row t.val (lt_twenty t) p) j) :=
  pay4_block (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) t.val (lt_twenty t)
    (iblk4 V c 0 t) (iblk4 V c 1 t) (iblk4 V c 2 t) (iblk4 V c 3 t) (iblk4 V c 4 t) (iblk4 V c 5 t)
    (iblk_0 V c t (lt_twenty t)) (iblk_1 V c t (lt_twenty t)) (iblk_2 V c t (lt_twenty t))
    (iblk_3 V c t) (iblk_4 V c t) (iblk_5 V c t) p j

/-- What the activation output's buffer holds after point `t`: the payload of the point's blocks, in either case. -/
theorem out6_eq (c : Dev nD) (t : Fin cfg4.N) :
    (outsAt4 V c t.val t.isLt).1 = k4_pay4 (iblk4 V c 0 t) (iblk4 V c 1 t) (iblk4 V c 2 t) (iblk4 V c 3 t) (iblk4 V c 4 t) (iblk4 V c 5 t) := by
  by_cases h0 : t.val % 20 = 0
  · rw [outsAt4_A V c t h0]
    dsimp only
    exact out_A_6 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t)
  · rw [outsAt4_B V c t h0]
    dsimp only
    exact out_B_6 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2

/-! ## The sums over the rows, block by block -/

/-- The sum of `f` over block `s`'s 5000 rows; zero past the last block. -/
def blockSum (f : Fin 100000 → EReal) (s : Nat) : EReal := if hs : s < 20 then ∑ p : Fin 5000, f (row s hs p) else 0

/-- The 20 blocks' sums add up to the sum over all 100000 rows: row `n` is row `n % 5000` of block `n / 5000`. -/
theorem sum_blocks (f : Fin 100000 → EReal) : ∑ s ∈ Finset.range 20, blockSum f s = ∑ n : Fin 100000, f n := by
  rw [Finset.sum_range]
  have e : ∀ s : Fin 20, blockSum f s.val = ∑ p : Fin 5000, f (row s.val s.isLt p) := fun s => dif_pos s.isLt
  rw [Finset.sum_congr rfl fun s _ => e s]
  rw [← Fintype.sum_prod_type' (fun (s : Fin 20) (p : Fin 5000) => f (row s.val s.isLt p))]
  rw [← (finProdFinEquiv (m := 20) (n := 5000)).sum_comp f]
  refine Finset.sum_congr rfl fun q _ => congrArg f (Fin.ext ?_)
  show 5000 * q.1.val + q.2.val = q.2.val + 5000 * q.1.val
  omega

/-- The column sum of point `t`'s activation block is block `t`'s share of the column's sum. -/
theorem block_sum (c : Dev nD) (t : Fin cfg4.N) (j : Fin 128) :
    ∑ r : Fin 5000, k4_pay4 (iblk4 V c 0 t) (iblk4 V c 1 t) (iblk4 V c 2 t) (iblk4 V c 3 t) (iblk4 V c 4 t) (iblk4 V c 5 t) (ix2 r j) = blockSum (fun n => actOf V c (ix2 n j)) t.val := by
  unfold blockSum
  rw [dif_pos (lt_twenty t)]
  exact Finset.sum_congr rfl fun r _ => pay4_at V c t r j

/-- The same for the squares. -/
theorem block_sumsq (c : Dev nD) (t : Fin cfg4.N) (j : Fin 128) :
    ∑ r : Fin 5000, k4_pay4 (iblk4 V c 0 t) (iblk4 V c 1 t) (iblk4 V c 2 t) (iblk4 V c 3 t) (iblk4 V c 4 t) (iblk4 V c 5 t) (ix2 r j) * k4_pay4 (iblk4 V c 0 t) (iblk4 V c 1 t) (iblk4 V c 2 t) (iblk4 V c 3 t) (iblk4 V c 4 t) (iblk4 V c 5 t) (ix2 r j)
      = blockSum (fun n => actOf V c (ix2 n j) * actOf V c (ix2 n j)) t.val := by
  unfold blockSum
  rw [dif_pos (lt_twenty t)]
  exact Finset.sum_congr rfl fun r _ => by rw [pay4_at V c t r j]

/-- THE RUNNING COLUMN SUMS. After point `n` the first accumulator row holds, at column `j`, the sum of the activation over
    the rows of blocks `0 … n`: zero plus block 0's share at the first point, the previous contents plus block `n`'s at
    every later one — by induction on the point. -/
theorem sums_at (c : Dev nD) : ∀ (n : Nat) (hn : n < cfg4.N) (u : Fin 1) (j : Fin 128),
    ((outsAt4 V c n hn).2.1 : Vec Ideal S1x128 .f32) (ix2 u j)
      = ∑ s ∈ Finset.range (n + 1), blockSum (fun m => actOf V c (ix2 m j)) s
  | 0, hn, u, j => by
    rw [outsAt4_A V c ⟨0, hn⟩ rfl]
    dsimp only
    rw [out_A_7 (F := Ideal) c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) ((hcond4_0 ⟨0, hn⟩).mpr rfl) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩)]
    rw [pay5_apply, pay2_apply, zero_add, Finset.sum_range_one]
    exact block_sum V c ⟨0, hn⟩ j
  | n + 1, hn, u, j => by
    have hN : cfg4.N = 20 := N_4
    have hB : ¬(⟨n + 1, hn⟩ : Fin cfg4.N).val % 20 = 0 := by dsimp only; omega
    rw [outsAt4_B V c ⟨n + 1, hn⟩ hB]
    dsimp only
    rw [out_B_7 (F := Ideal) c (grid4.coords (⟨n + 1, hn⟩ : Fin cfg4.N)) (ms4_0 (⟨n + 1, hn⟩ : Fin cfg4.N)) (hs4_0 (⟨n + 1, hn⟩ : Fin cfg4.N)) (ms4_1 (⟨n + 1, hn⟩ : Fin cfg4.N)) (hs4_1 (⟨n + 1, hn⟩ : Fin cfg4.N)) (ms4_2 (⟨n + 1, hn⟩ : Fin cfg4.N)) (hs4_2 (⟨n + 1, hn⟩ : Fin cfg4.N)) (ms4_3 (⟨n + 1, hn⟩ : Fin cfg4.N)) (hs4_3 (⟨n + 1, hn⟩ : Fin cfg4.N)) (ms4_4 (⟨n + 1, hn⟩ : Fin cfg4.N)) (hs4_4 (⟨n + 1, hn⟩ : Fin cfg4.N)) (ms4_5 (⟨n + 1, hn⟩ : Fin cfg4.N)) (hs4_5 (⟨n + 1, hn⟩ : Fin cfg4.N)) (ms4_6 (⟨n + 1, hn⟩ : Fin cfg4.N)) (hs4_6 (⟨n + 1, hn⟩ : Fin cfg4.N)) (ms4_7 (⟨n + 1, hn⟩ : Fin cfg4.N)) (hs4_7 (⟨n + 1, hn⟩ : Fin cfg4.N)) (ms4_8 (⟨n + 1, hn⟩ : Fin cfg4.N)) (hs4_8 (⟨n + 1, hn⟩ : Fin cfg4.N)) (fun h => hB ((hcond4_0 (⟨n + 1, hn⟩ : Fin cfg4.N)).mp h)) (iblk4 V c 0 (⟨n + 1, hn⟩ : Fin cfg4.N)) (iblk4 V c 1 (⟨n + 1, hn⟩ : Fin cfg4.N)) (iblk4 V c 2 (⟨n + 1, hn⟩ : Fin cfg4.N)) (iblk4 V c 3 (⟨n + 1, hn⟩ : Fin cfg4.N)) (iblk4 V c 4 (⟨n + 1, hn⟩ : Fin cfg4.N)) (iblk4 V c 5 (⟨n + 1, hn⟩ : Fin cfg4.N)) (outsAt4 V c ((⟨n + 1, hn⟩ : Fin cfg4.N).val - 1) (Nat.lt_of_le_of_lt (Nat.sub_le _ _) (⟨n + 1, hn⟩ : Fin cfg4.N).isLt)).2.1 (outsAt4 V c ((⟨n + 1, hn⟩ : Fin cfg4.N).val - 1) (Nat.lt_of_le_of_lt (Nat.sub_le _ _) (⟨n + 1, hn⟩ : Fin cfg4.N).isLt)).2.2]
    rw [pay5_apply, Finset.sum_range_succ _ (n + 1)]
    exact congrArg₂ (· + ·) (sums_at c n (Nat.lt_of_succ_lt hn) u j) (block_sum V c ⟨n + 1, hn⟩ j)

/-- THE RUNNING COLUMN SUMS OF SQUARES, likewise. -/
theorem sumsq_at (c : Dev nD) : ∀ (n : Nat) (hn : n < cfg4.N) (u : Fin 1) (j : Fin 128),
    ((outsAt4 V c n hn).2.2 : Vec Ideal S1x128 .f32) (ix2 u j)
      = ∑ s ∈ Finset.range (n + 1), blockSum (fun m => actOf V c (ix2 m j) * actOf V c (ix2 m j)) s
  | 0, hn, u, j => by
    rw [outsAt4_A V c ⟨0, hn⟩ rfl]
    dsimp only
    rw [out_A_8 (F := Ideal) c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) ((hcond4_0 ⟨0, hn⟩).mpr rfl) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩)]
    rw [pay1_apply, pay3_apply, zero_add, Finset.sum_range_one]
    exact block_sumsq V c ⟨0, hn⟩ j
  | n + 1, hn, u, j => by
    have hN : cfg4.N = 20 := N_4
    have hB : ¬(⟨n + 1, hn⟩ : Fin cfg4.N).val % 20 = 0 := by dsimp only; omega
    rw [outsAt4_B V c ⟨n + 1, hn⟩ hB]
    dsimp only
    rw [out_B_8 (F := Ideal) c (grid4.coords (⟨n + 1, hn⟩ : Fin cfg4.N)) (ms4_0 (⟨n + 1, hn⟩ : Fin cfg4.N)) (hs4_0 (⟨n + 1, hn⟩ : Fin cfg4.N)) (ms4_1 (⟨n + 1, hn⟩ : Fin cfg4.N)) (hs4_1 (⟨n + 1, hn⟩ : Fin cfg4.N)) (ms4_2 (⟨n + 1, hn⟩ : Fin cfg4.N)) (hs4_2 (⟨n + 1, hn⟩ : Fin cfg4.N)) (ms4_3 (⟨n + 1, hn⟩ : Fin cfg4.N)) (hs4_3 (⟨n + 1, hn⟩ : Fin cfg4.N)) (ms4_4 (⟨n + 1, hn⟩ : Fin cfg4.N)) (hs4_4 (⟨n + 1, hn⟩ : Fin cfg4.N)) (ms4_5 (⟨n + 1, hn⟩ : Fin cfg4.N)) (hs4_5 (⟨n + 1, hn⟩ : Fin cfg4.N)) (ms4_6 (⟨n + 1, hn⟩ : Fin cfg4.N)) (hs4_6 (⟨n + 1, hn⟩ : Fin cfg4.N)) (ms4_7 (⟨n + 1, hn⟩ : Fin cfg4.N)) (hs4_7 (⟨n + 1, hn⟩ : Fin cfg4.N)) (ms4_8 (⟨n + 1, hn⟩ : Fin cfg4.N)) (hs4_8 (⟨n + 1, hn⟩ : Fin cfg4.N)) (fun h => hB ((hcond4_0 (⟨n + 1, hn⟩ : Fin cfg4.N)).mp h)) (iblk4 V c 0 (⟨n + 1, hn⟩ : Fin cfg4.N)) (iblk4 V c 1 (⟨n + 1, hn⟩ : Fin cfg4.N)) (iblk4 V c 2 (⟨n + 1, hn⟩ : Fin cfg4.N)) (iblk4 V c 3 (⟨n + 1, hn⟩ : Fin cfg4.N)) (iblk4 V c 4 (⟨n + 1, hn⟩ : Fin cfg4.N)) (iblk4 V c 5 (⟨n + 1, hn⟩ : Fin cfg4.N)) (outsAt4 V c ((⟨n + 1, hn⟩ : Fin cfg4.N).val - 1) (Nat.lt_of_le_of_lt (Nat.sub_le _ _) (⟨n + 1, hn⟩ : Fin cfg4.N).isLt)).2.1 (outsAt4 V c ((⟨n + 1, hn⟩ : Fin cfg4.N).val - 1) (Nat.lt_of_le_of_lt (Nat.sub_le _ _) (⟨n + 1, hn⟩ : Fin cfg4.N).isLt)).2.2]
    rw [pay1_apply, Finset.sum_range_succ _ (n + 1)]
    exact congrArg₂ (· + ·) (sumsq_at c n (Nat.lt_of_succ_lt hn) u j) (block_sumsq V c ⟨n + 1, hn⟩ j)

/-! ## From the blocks written back to the three result arrays -/

/-- Every point writes back, as its block of the activation output, its block of the layer's activation table: block
    `t` covers rows `5000 t … 5000 t + 4999`, all 128 columns. -/
theorem flushed6_eq (c : Dev nD) (t : Fin cfg4.N) :
    (dat4 V c).flushed 6 t = ((cfg4.win 6).blk t).view.read (Elt Ideal) (actOf V c) := by
  have e0 := (idx_facts t).2.2.2.2.2.2.1.1
  have e1 := (idx_facts t).2.2.2.2.2.2.1.2
  show (cfg4.win 6).cut (grid4.coords t) ((dat4 V c).after 6 t) = _
  rw [after4_6, out6_eq]
  funext y
  obtain ⟨p, j, rfl⟩ : ∃ (p : Fin 5000) (j : Fin 128), y = ix2 p j := ⟨y 0, y 1, eq_ix2 y⟩
  rw [View.read_apply]
  show k4_pay4 (iblk4 V c 0 t) (iblk4 V c 1 t) (iblk4 V c 2 t) (iblk4 V c 3 t) (iblk4 V c 4 t) (iblk4 V c 5 t) (ix2 p j) = actOf V c (((cfg4.win 6).blk t).view.emb (ix2 p j))
  rw [pay4_at V c t p j]
  refine congrArg (actOf V c) (funext fun a => Fin.ext ?_)
  match a with
  | ⟨0, _⟩ => show 5000 * t.val + p.val = win4_6.index t (0 : Fin 2) * 5000 + 1 * p.val; rw [e0]; omega
  | ⟨1, _⟩ => show j.val = win4_6.index t (1 : Fin 2) * 128 + 1 * j.val; rw [e1]; omega

/-- THE ACTIVATION OUTPUT after the region is the layer's activation table of the six input arrays: row `n` was written
    back by point `n / 5000`. -/
theorem act_eq (c : Dev nD) : (dat4 V c).arrAt 6 cfg4.N = (LayerSpec.act (D := 128) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) :=
  (dat4 V c).arrAt_eq_of_cover 6 (actOf V c) (fun t _ => flushed6_eq V c t) fun i => by
    have hi0 : (i 0).val < 100000 := (i 0).isLt
    have hi1 : (i 1).val < 128 := (i 1).isLt
    have hN : cfg4.N = 20 := N_4
    obtain ⟨t, ht⟩ : ∃ t : Fin cfg4.N, t.val = (i 0).val / 5000 := ⟨⟨(i 0).val / 5000, by omega⟩, rfl⟩
    have e0 := (idx_facts t).2.2.2.2.2.2.1.1
    have e1 := (idx_facts t).2.2.2.2.2.2.1.2
    refine ⟨t, flush4_6 t, ?_⟩
    show i ∈ ((View.whole main_v90_0).slice (win4_6.rect t)).set
    rw [View.set_slice_whole, Rect.mem_set_unit]
    intro a
    match a with
    | ⟨0, _⟩ => show win4_6.index t (0 : Fin 2) * 5000 ≤ (i 0).val ∧ (i 0).val < win4_6.index t (0 : Fin 2) * 5000 + 5000; rw [e0]; omega
    | ⟨1, _⟩ => show win4_6.index t (1 : Fin 2) * 128 ≤ (i 1).val ∧ (i 1).val < win4_6.index t (1 : Fin 2) * 128 + 128; rw [e1]; omega

/-- A block of an accumulator row, read at an index of the block, is the row at the index's place in the array (the row is
    kept as a variable: the statement is about the window, not about what the row holds). -/
theorem read7_apply (G : LayerSpec.Mat 1 128) (t : Fin cfg4.N) (y : S1x128.Idx) :
    ((cfg4.win 7).blk t).view.read (Elt Ideal) G y = G (((cfg4.win 7).blk t).view.emb y) := rfl
theorem read8_apply (G : LayerSpec.Mat 1 128) (t : Fin cfg4.N) (y : S1x128.Idx) :
    ((cfg4.win 8).blk t).view.read (Elt Ideal) G y = G (((cfg4.win 8).blk t).view.emb y) := rfl

/-- The one write-back of the column sums, at the last point, writes the whole column sums of the activation table. -/
theorem flushed7_eq (c : Dev nD) (t : Fin cfg4.N) (hf : (cfg4.win 7).flush t = true) :
    (dat4 V c).flushed 7 t = ((cfg4.win 7).blk t).view.read (Elt Ideal) (LayerSpec.colSum (actOf V c)) := by
  have hN : cfg4.N = 20 := N_4
  have h19 : t.val + 1 = 20 := by have := (flush4_7 t).mp hf; have := t.isLt; omega
  have e1 := (idx_facts t).2.2.2.2.2.2.2.1.2
  show (cfg4.win 7).cut (grid4.coords t) ((dat4 V c).after 7 t) = _
  rw [after4_7]
  funext y
  obtain ⟨u, j, rfl⟩ : ∃ (u : Fin 1) (j : Fin 128), y = ix2 u j := ⟨y 0, y 1, eq_ix2 y⟩
  refine Eq.trans ?_ (read7_apply (LayerSpec.colSum (actOf V c)) t (ix2 u j)).symm
  have s1 : ((outsAt4 V c t.val t.isLt).2.1 : Vec Ideal S1x128 .f32) (ix2 u j)
      = ∑ s ∈ Finset.range (t.val + 1), blockSum (fun m => actOf V c (ix2 m j)) s := sums_at V c t.val t.isLt u j
  have s2 : ∑ s ∈ Finset.range (t.val + 1), blockSum (fun m => actOf V c (ix2 m j)) s = ∑ n : Fin 100000, actOf V c (ix2 n j) := by
    rw [h19]
    exact sum_blocks (fun n => actOf V c (ix2 n j))
  have ej : (((cfg4.win 7).blk t).view.emb (ix2 u j)) 1 = j := Fin.ext (by
    show win4_7.index t (1 : Fin 2) * 128 + 1 * j.val = j.val; rw [e1]; omega)
  have s3 : LayerSpec.colSum (actOf V c) (((cfg4.win 7).blk t).view.emb (ix2 u j)) = ∑ n : Fin 100000, actOf V c (ix2 n j) := by
    unfold LayerSpec.colSum
    rw [ej]
  exact (s1.trans s2).trans s3.symm

/-- THE COLUMN SUMS after the region are the sums of the activation table's columns over all 100000 rows. -/
theorem sum_eq (c : Dev nD) : (dat4 V c).arrAt 7 cfg4.N = LayerSpec.colSum (LayerSpec.act (D := 128) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) :=
  (dat4 V c).arrAt_eq_of_cover 7 (LayerSpec.colSum (actOf V c)) (flushed7_eq V c) fun i => by
    have hi0 : (i 0).val < 1 := (i 0).isLt
    have hi1 : (i 1).val < 128 := (i 1).isLt
    have hN : cfg4.N = 20 := N_4
    obtain ⟨t, ht⟩ : ∃ t : Fin cfg4.N, t.val = 19 := ⟨⟨19, by omega⟩, rfl⟩
    have e0 := (idx_facts t).2.2.2.2.2.2.2.1.1
    have e1 := (idx_facts t).2.2.2.2.2.2.2.1.2
    refine ⟨t, (flush4_7 t).mpr (by omega), ?_⟩
    show i ∈ ((View.whole main_v90_1).slice (win4_7.rect t)).set
    rw [View.set_slice_whole, Rect.mem_set_unit]
    intro a
    match a with
    | ⟨0, _⟩ => show win4_7.index t (0 : Fin 2) * 1 ≤ (i 0).val ∧ (i 0).val < win4_7.index t (0 : Fin 2) * 1 + 1; rw [e0]; omega
    | ⟨1, _⟩ => show win4_7.index t (1 : Fin 2) * 128 ≤ (i 1).val ∧ (i 1).val < win4_7.index t (1 : Fin 2) * 128 + 128; rw [e1]; omega

/-- The one write-back of the sums of squares, at the last point, writes the whole column sums of squares. -/
theorem flushed8_eq (c : Dev nD) (t : Fin cfg4.N) (hf : (cfg4.win 8).flush t = true) :
    (dat4 V c).flushed 8 t = ((cfg4.win 8).blk t).view.read (Elt Ideal) (LayerSpec.colSumSq (actOf V c)) := by
  have hN : cfg4.N = 20 := N_4
  have h19 : t.val + 1 = 20 := by have := (flush4_8 t).mp hf; have := t.isLt; omega
  have e1 := (idx_facts t).2.2.2.2.2.2.2.2.2
  show (cfg4.win 8).cut (grid4.coords t) ((dat4 V c).after 8 t) = _
  rw [after4_8]
  funext y
  obtain ⟨u, j, rfl⟩ : ∃ (u : Fin 1) (j : Fin 128), y = ix2 u j := ⟨y 0, y 1, eq_ix2 y⟩
  refine Eq.trans ?_ (read8_apply (LayerSpec.colSumSq (actOf V c)) t (ix2 u j)).symm
  have s1 : ((outsAt4 V c t.val t.isLt).2.2 : Vec Ideal S1x128 .f32) (ix2 u j)
      = ∑ s ∈ Finset.range (t.val + 1), blockSum (fun m => actOf V c (ix2 m j) * actOf V c (ix2 m j)) s := sumsq_at V c t.val t.isLt u j
  have s2 : ∑ s ∈ Finset.range (t.val + 1), blockSum (fun m => actOf V c (ix2 m j) * actOf V c (ix2 m j)) s = ∑ n : Fin 100000, actOf V c (ix2 n j) * actOf V c (ix2 n j) := by
    rw [h19]
    exact sum_blocks (fun n => actOf V c (ix2 n j) * actOf V c (ix2 n j))
  have ej : (((cfg4.win 8).blk t).view.emb (ix2 u j)) 1 = j := Fin.ext (by
    show win4_8.index t (1 : Fin 2) * 128 + 1 * j.val = j.val; rw [e1]; omega)
  have s3 : LayerSpec.colSumSq (actOf V c) (((cfg4.win 8).blk t).view.emb (ix2 u j)) = ∑ n : Fin 100000, actOf V c (ix2 n j) * actOf V c (ix2 n j) := by
    unfold LayerSpec.colSumSq
    rw [ej]
  exact (s1.trans s2).trans s3.symm

/-- THE COLUMN SUMS OF SQUARES after the region are those of the activation table over all 100000 rows. -/
theorem sumsq_eq (c : Dev nD) : (dat4 V c).arrAt 8 cfg4.N = LayerSpec.colSumSq (LayerSpec.act (D := 128) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) :=
  (dat4 V c).arrAt_eq_of_cover 8 (LayerSpec.colSumSq (actOf V c)) (flushed8_eq V c) fun i => by
    have hi0 : (i 0).val < 1 := (i 0).isLt
    have hi1 : (i 1).val < 128 := (i 1).isLt
    have hN : cfg4.N = 20 := N_4
    obtain ⟨t, ht⟩ : ∃ t : Fin cfg4.N, t.val = 19 := ⟨⟨19, by omega⟩, rfl⟩
    have e0 := (idx_facts t).2.2.2.2.2.2.2.2.1
    have e1 := (idx_facts t).2.2.2.2.2.2.2.2.2
    refine ⟨t, (flush4_8 t).mpr (by omega), ?_⟩
    show i ∈ ((View.whole main_v90_2).slice (win4_8.rect t)).set
    rw [View.set_slice_whole, Rect.mem_set_unit]
    intro a
    match a with
    | ⟨0, _⟩ => show win4_8.index t (0 : Fin 2) * 1 ≤ (i 0).val ∧ (i 0).val < win4_8.index t (0 : Fin 2) * 1 + 1; rw [e0]; omega
    | ⟨1, _⟩ => show win4_8.index t (1 : Fin 2) * 128 ≤ (i 1).val ∧ (i 1).val < win4_8.index t (1 : Fin 2) * 128 + 128; rw [e1]; omega

end Value

end Cert.KernelIdeal.Stage1Value4

end
-- ==== Proof.BnValue1.lean ====
/-
  The value of a normalisation region: the array its output window ends holding. The body stores, once per point, the
  whole 5000 × 128 block `g · (pre − mu) · inv + b`, the block of `pre` taken entry by entry and the four 1 × 128 rows
  broadcast along the rows. Point `t` of the twenty reads rows `5000 t … 5000 t + 4999` of `pre` and the four rows
  whole, and writes the same rows of the output; the twenty blocks tile the 100000 rows, so the output array ends at
  `LayerSpec.bn` of the five arrays as the region finds them — for any contents `V` at the region's entry.
-/
import proofs.«136260_j12601434046916_1_alg».proof.Proof.Gen.KernelIdeal.Frame
import proofs.«136260_j12601434046916_1_alg».proof.Proof.LayerSpec
import Idealize.ShloMosaic.Lib.ValueIdx
import Idealize.ShloMosaic.Lib.ValueLayout
import Idealize.ShloMosaic.Lib.Pipeline.Value

set_option maxRecDepth 16384

noncomputable section

namespace Cert.KernelIdeal.BnValue1

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The zero offset vector of a whole-block rectangle. -/
theorem hz : (![0, 0] : Fin 2 → Nat) = fun _ => 0 := funext fun a => by fin_cases a <;> rfl

/-! ## The body's arithmetic at an entry -/

/-- The payload as its tree of pointwise operations: the identity casts dropped, the four rows broadcast along the
    5000 rows of the block. -/
theorem pay_eq (g : Vec Ideal S1x128 .f32) (x : Vec Ideal S5000x128 .f32) (mu inv b : Vec Ideal S1x128 .f32) :
    k1_pay1 g x mu inv b
      = addf (mulf (mulf (broadcastTo S5000x128 g broadcasts_S1x128_S5000x128) (subf x (broadcastTo S5000x128 mu broadcasts_S1x128_S5000x128)))
          (broadcastTo S5000x128 inv broadcasts_S1x128_S5000x128)) (broadcastTo S5000x128 b broadcasts_S1x128_S5000x128) := by
  unfold k1_pay1
  simp only [shapeCast_self]

/-- Entry `(r, j)` of the payload: `g j · (x (r, j) − mu j) · inv j + b j`, each row read at its one row. -/
theorem pay_apply (g : Vec Ideal S1x128 .f32) (x : Vec Ideal S5000x128 .f32) (mu inv b : Vec Ideal S1x128 .f32) (r : Fin 5000) (j : Fin 128) :
    k1_pay1 g x mu inv b (ix2 r j) = g (ix2 0 j) * (x (ix2 r j) - mu (ix2 0 j)) * inv (ix2 0 j) + b (ix2 0 j) := by
  rw [pay_eq]
  show broadcastTo S5000x128 g broadcasts_S1x128_S5000x128 (ix2 r j) * (x (ix2 r j) - broadcastTo S5000x128 mu broadcasts_S1x128_S5000x128 (ix2 r j))
      * broadcastTo S5000x128 inv broadcasts_S1x128_S5000x128 (ix2 r j) + broadcastTo S5000x128 b broadcasts_S1x128_S5000x128 (ix2 r j) = _
  rw [broadcastTo_1b_ab_apply g _ r j, broadcastTo_1b_ab_apply mu _ r j, broadcastTo_1b_ab_apply inv _ r j, broadcastTo_1b_ab_apply b _ r j]

/-- What the body leaves in the output block, entry by entry, from the five input blocks (the block of `pre`, then the
    rows `mu`, `inv`, `g`, `b`): its one store covers the block and its loads are whole blocks. -/
theorem out_apply (x0 : Vec Ideal S5000x128 .f32) (x1 x2 x3 x4 : Vec Ideal S1x128 .f32) (y : S5000x128.Idx) (j : Fin 128)
    (hj : j.val = (y 1).val) :
    out1_5 x0 x1 x2 x3 x4 y = x3 (ix2 0 j) * (x0 y - x1 (ix2 0 j)) * x2 (ix2 0 j) + x4 (ix2 0 j) := by
  obtain ⟨r, j', rfl⟩ : ∃ (r : Fin 5000) (j' : Fin 128), y = ix2 r j' := ⟨y 0, y 1, eq_ix2 y⟩
  obtain rfl : j = j' := Fin.ext hj
  unfold out1_5
  rw [View.canon_unit_zero hz]
  simp only [View.ld_unit_zero (S := S5000x128) hz, View.ld_unit_zero (S := S1x128) hz]
  exact pay_apply x3 x0 x1 x2 x4 r j

/-! ## Where each window's block sits in its array -/

/-- The printed index maps over the twenty points: the two 5000-row windows are at block `(t, 0)`, the four rows at
    block `(0, 0)`. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The block of `pre` at point `t` is rows `5000 t … 5000 t + 4999` of the array. -/
theorem read0 (c : Dev nD) (t : Fin cfg1.N) (y : S5000x128.Idx) (i : S100000x128.Idx)
    (h0 : (i 0).val = 5000 * t.val + (y 0).val) (h1 : (i 1).val = (y 1).val) :
    (iblk1 V c 0 t : Vec Ideal S5000x128 .f32) y = (V c (Pipeline.arrRef spec1 0) : S100000x128.Idx → EReal) i := by
  obtain ⟨e00, e01, -⟩ := idx_facts t
  unfold iblk1
  rw [View.read_apply]
  refine congrArg (V c (Pipeline.arrRef spec1 0) : S100000x128.Idx → EReal) (funext fun a => Fin.ext ?_)
  match a with
  | ⟨0, _⟩ => show win1_0.index t (0 : Fin 2) * 5000 + 1 * (y 0).val = (i 0).val; rw [e00, h0]; omega
  | ⟨1, _⟩ => show win1_0.index t (1 : Fin 2) * 128 + 1 * (y 1).val = (i 1).val; rw [e01, h1]; omega

/-- Window 1's block at every point is its whole one-row array. -/
theorem read1 (c : Dev nD) (t : Fin cfg1.N) (y : S1x128.Idx) :
    (iblk1 V c 1 t : Vec Ideal S1x128 .f32) y = (V c (Pipeline.arrRef spec1 1) : S1x128.Idx → EReal) y := by
  obtain ⟨-, -, e10, e11, e20, e21, e30, e31, e40, e41, -⟩ := idx_facts t
  unfold iblk1
  rw [View.read_apply]
  refine congrArg (V c (Pipeline.arrRef spec1 1) : S1x128.Idx → EReal) (funext fun a => Fin.ext ?_)
  match a with
  | ⟨0, _⟩ => show win1_1.index t (0 : Fin 2) * 1 + 1 * (y 0).val = (y 0).val; rw [e10]; omega
  | ⟨1, _⟩ => show win1_1.index t (1 : Fin 2) * 128 + 1 * (y 1).val = (y 1).val; rw [e11]; omega

/-- Window 2's block at every point is its whole one-row array. -/
theorem read2 (c : Dev nD) (t : Fin cfg1.N) (y : S1x128.Idx) :
    (iblk1 V c 2 t : Vec Ideal S1x128 .f32) y = (V c (Pipeline.arrRef spec1 2) : S1x128.Idx → EReal) y := by
  obtain ⟨-, -, e10, e11, e20, e21, e30, e31, e40, e41, -⟩ := idx_facts t
  unfold iblk1
  rw [View.read_apply]
  refine congrArg (V c (Pipeline.arrRef spec1 2) : S1x128.Idx → EReal) (funext fun a => Fin.ext ?_)
  match a with
  | ⟨0, _⟩ => show win1_2.index t (0 : Fin 2) * 1 + 1 * (y 0).val = (y 0).val; rw [e20]; omega
  | ⟨1, _⟩ => show win1_2.index t (1 : Fin 2) * 128 + 1 * (y 1).val = (y 1).val; rw [e21]; omega

/-- Window 3's block at every point is its whole one-row array. -/
theorem read3 (c : Dev nD) (t : Fin cfg1.N) (y : S1x128.Idx) :
    (iblk1 V c 3 t : Vec Ideal S1x128 .f32) y = (V c (Pipeline.arrRef spec1 3) : S1x128.Idx → EReal) y := by
  obtain ⟨-, -, e10, e11, e20, e21, e30, e31, e40, e41, -⟩ := idx_facts t
  unfold iblk1
  rw [View.read_apply]
  refine congrArg (V c (Pipeline.arrRef spec1 3) : S1x128.Idx → EReal) (funext fun a => Fin.ext ?_)
  match a with
  | ⟨0, _⟩ => show win1_3.index t (0 : Fin 2) * 1 + 1 * (y 0).val = (y 0).val; rw [e30]; omega
  | ⟨1, _⟩ => show win1_3.index t (1 : Fin 2) * 128 + 1 * (y 1).val = (y 1).val; rw [e31]; omega

/-- Window 4's block at every point is its whole one-row array. -/
theorem read4 (c : Dev nD) (t : Fin cfg1.N) (y : S1x128.Idx) :
    (iblk1 V c 4 t : Vec Ideal S1x128 .f32) y = (V c (Pipeline.arrRef spec1 4) : S1x128.Idx → EReal) y := by
  obtain ⟨-, -, e10, e11, e20, e21, e30, e31, e40, e41, -⟩ := idx_facts t
  unfold iblk1
  rw [View.read_apply]
  refine congrArg (V c (Pipeline.arrRef spec1 4) : S1x128.Idx → EReal) (funext fun a => Fin.ext ?_)
  match a with
  | ⟨0, _⟩ => show win1_4.index t (0 : Fin 2) * 1 + 1 * (y 0).val = (y 0).val; rw [e40]; omega
  | ⟨1, _⟩ => show win1_4.index t (1 : Fin 2) * 128 + 1 * (y 1).val = (y 1).val; rw [e41]; omega

/-! ## From blocks to the array -/

/-- The entry's arithmetic respects equality of its five operands. -/
theorem arith_congr {a0 a1 a2 a3 a4 b0 b1 b2 b3 b4 : EReal} (h0 : a0 = b0) (h1 : a1 = b1) (h2 : a2 = b2) (h3 : a3 = b3)
    (h4 : a4 = b4) : a3 * (a0 - a1) * a2 + a4 = b3 * (b0 - b1) * b2 + b4 := by
  subst h0 h1 h2 h3 h4; rfl

/-- WHAT POINT `t` WRITES BACK is block `t` of the normalisation of the arrays as the region finds them. -/
theorem flushed_eq (c : Dev nD) (t : Fin cfg1.N) :
    (dat1 V c).flushed 5 t = ((cfg1.win 5).blk t).view.read (Elt Ideal)
      (Cert.LayerSpec.bn (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  obtain ⟨-, -, -, -, -, -, -, -, -, -, e50, e51⟩ := idx_facts t
  funext y
  have hy0 : (y 0).val < 5000 := (y 0).isLt
  have hy1 : (y 1).val < 128 := (y 1).isLt
  have hN : cfg1.N = 20 := N_1
  have htN : t.val < 20 := hN ▸ t.isLt
  -- the entry's place in the array: row `5000 t + y 0`, column `y 1`
  have hemb : (((cfg1.win 5).blk t).view.emb y : S100000x128.Idx)
      = ix2 (⟨5000 * t.val + (y 0).val, by omega⟩ : Fin 100000) (⟨(y 1).val, hy1⟩ : Fin 128) := by
    funext a; apply Fin.ext
    match a with
    | ⟨0, _⟩ => show win1_5.index t (0 : Fin 2) * 5000 + 1 * (y 0).val = 5000 * t.val + (y 0).val; rw [e50]; omega
    | ⟨1, _⟩ => show win1_5.index t (1 : Fin 2) * 128 + 1 * (y 1).val = (y 1).val; rw [e51]; omega
  show out1_5 (iblk1 V c 0 t) (iblk1 V c 1 t) (iblk1 V c 2 t) (iblk1 V c 3 t) (iblk1 V c 4 t) y
      = Cert.LayerSpec.bn _ _ _ _ _ (((cfg1.win 5).blk t).view.emb y)
  rw [hemb]
  refine (out_apply (iblk1 V c 0 t) (iblk1 V c 1 t) (iblk1 V c 2 t) (iblk1 V c 3 t) (iblk1 V c 4 t) y ⟨(y 1).val, hy1⟩ rfl).trans ?_
  exact arith_congr (read0 V c t y (ix2 (⟨5000 * t.val + (y 0).val, by omega⟩ : Fin 100000) (⟨(y 1).val, hy1⟩ : Fin 128)) rfl rfl)
    (read1 V c t (ix2 0 ⟨(y 1).val, hy1⟩)) (read2 V c t (ix2 0 ⟨(y 1).val, hy1⟩)) (read3 V c t (ix2 0 ⟨(y 1).val, hy1⟩))
    (read4 V c t (ix2 0 ⟨(y 1).val, hy1⟩))

/-- An index of the array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v36).slice (win1_5.rect t)).set ↔ _
  rw [View.set_slice_whole, Rect.mem_set_unit]
  exact Iff.rfl

/-- Row `n` is in the block of point `n / 5000`: the twenty blocks tile the array. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, -, -, -, -, -, -, e50, e51⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [e51]; omega

/-- THE ARRAY after the region: the normalisation of the five arrays the region finds, entry by entry. -/
theorem bn_eq (c : Dev nD) : (dat1 V c).arrAt 5 cfg1.N
    = Cert.LayerSpec.bn (V c (Pipeline.arrRef spec1 0)) (V c (Pipeline.arrRef spec1 1)) (V c (Pipeline.arrRef spec1 2))
        (V c (Pipeline.arrRef spec1 3)) (V c (Pipeline.arrRef spec1 4)) :=
  (dat1 V c).arrAt_eq_of_cover 5 _ (fun t _ => flushed_eq V c t) cover

end Cert.KernelIdeal.BnValue1

end
-- ==== Proof.BnValue3.lean ====
/-
  The value of a normalisation region: the array its output window ends holding. The body stores, once per point, the
  whole 5000 × 128 block `g · (pre − mu) · inv + b`, the block of `pre` taken entry by entry and the four 1 × 128 rows
  broadcast along the rows. Point `t` of the twenty reads rows `5000 t … 5000 t + 4999` of `pre` and the four rows
  whole, and writes the same rows of the output; the twenty blocks tile the 100000 rows, so the output array ends at
  `LayerSpec.bn` of the five arrays as the region finds them — for any contents `V` at the region's entry.
-/
import proofs.«136260_j12601434046916_1_alg».proof.Proof.Gen.KernelIdeal.Frame
import proofs.«136260_j12601434046916_1_alg».proof.Proof.LayerSpec
import Idealize.ShloMosaic.Lib.ValueIdx
import Idealize.ShloMosaic.Lib.ValueLayout
import Idealize.ShloMosaic.Lib.Pipeline.Value

set_option maxRecDepth 16384

noncomputable section

namespace Cert.KernelIdeal.BnValue3

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The zero offset vector of a whole-block rectangle. -/
theorem hz : (![0, 0] : Fin 2 → Nat) = fun _ => 0 := funext fun a => by fin_cases a <;> rfl

/-! ## The body's arithmetic at an entry -/

/-- The payload as its tree of pointwise operations: the identity casts dropped, the four rows broadcast along the
    5000 rows of the block. -/
theorem pay_eq (g : Vec Ideal S1x128 .f32) (x : Vec Ideal S5000x128 .f32) (mu inv b : Vec Ideal S1x128 .f32) :
    k3_pay1 g x mu inv b
      = addf (mulf (mulf (broadcastTo S5000x128 g broadcasts_S1x128_S5000x128) (subf x (broadcastTo S5000x128 mu broadcasts_S1x128_S5000x128)))
          (broadcastTo S5000x128 inv broadcasts_S1x128_S5000x128)) (broadcastTo S5000x128 b broadcasts_S1x128_S5000x128) := by
  unfold k3_pay1
  simp only [shapeCast_self]

/-- Entry `(r, j)` of the payload: `g j · (x (r, j) − mu j) · inv j + b j`, each row read at its one row. -/
theorem pay_apply (g : Vec Ideal S1x128 .f32) (x : Vec Ideal S5000x128 .f32) (mu inv b : Vec Ideal S1x128 .f32) (r : Fin 5000) (j : Fin 128) :
    k3_pay1 g x mu inv b (ix2 r j) = g (ix2 0 j) * (x (ix2 r j) - mu (ix2 0 j)) * inv (ix2 0 j) + b (ix2 0 j) := by
  rw [pay_eq]
  show broadcastTo S5000x128 g broadcasts_S1x128_S5000x128 (ix2 r j) * (x (ix2 r j) - broadcastTo S5000x128 mu broadcasts_S1x128_S5000x128 (ix2 r j))
      * broadcastTo S5000x128 inv broadcasts_S1x128_S5000x128 (ix2 r j) + broadcastTo S5000x128 b broadcasts_S1x128_S5000x128 (ix2 r j) = _
  rw [broadcastTo_1b_ab_apply g _ r j, broadcastTo_1b_ab_apply mu _ r j, broadcastTo_1b_ab_apply inv _ r j, broadcastTo_1b_ab_apply b _ r j]

/-- What the body leaves in the output block, entry by entry, from the five input blocks (the block of `pre`, then the
    rows `mu`, `inv`, `g`, `b`): its one store covers the block and its loads are whole blocks. -/
theorem out_apply (x0 : Vec Ideal S5000x128 .f32) (x1 x2 x3 x4 : Vec Ideal S1x128 .f32) (y : S5000x128.Idx) (j : Fin 128)
    (hj : j.val = (y 1).val) :
    out3_5 x0 x1 x2 x3 x4 y = x3 (ix2 0 j) * (x0 y - x1 (ix2 0 j)) * x2 (ix2 0 j) + x4 (ix2 0 j) := by
  obtain ⟨r, j', rfl⟩ : ∃ (r : Fin 5000) (j' : Fin 128), y = ix2 r j' := ⟨y 0, y 1, eq_ix2 y⟩
  obtain rfl : j = j' := Fin.ext hj
  unfold out3_5
  rw [View.canon_unit_zero hz]
  simp only [View.ld_unit_zero (S := S5000x128) hz, View.ld_unit_zero (S := S1x128) hz]
  exact pay_apply x3 x0 x1 x2 x4 r j

/-! ## Where each window's block sits in its array -/

/-- The printed index maps over the twenty points: the two 5000-row windows are at block `(t, 0)`, the four rows at
    block `(0, 0)`. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The block of `pre` at point `t` is rows `5000 t … 5000 t + 4999` of the array. -/
theorem read0 (c : Dev nD) (t : Fin cfg3.N) (y : S5000x128.Idx) (i : S100000x128.Idx)
    (h0 : (i 0).val = 5000 * t.val + (y 0).val) (h1 : (i 1).val = (y 1).val) :
    (iblk3 V c 0 t : Vec Ideal S5000x128 .f32) y = (V c (Pipeline.arrRef spec3 0) : S100000x128.Idx → EReal) i := by
  obtain ⟨e00, e01, -⟩ := idx_facts t
  unfold iblk3
  rw [View.read_apply]
  refine congrArg (V c (Pipeline.arrRef spec3 0) : S100000x128.Idx → EReal) (funext fun a => Fin.ext ?_)
  match a with
  | ⟨0, _⟩ => show win3_0.index t (0 : Fin 2) * 5000 + 1 * (y 0).val = (i 0).val; rw [e00, h0]; omega
  | ⟨1, _⟩ => show win3_0.index t (1 : Fin 2) * 128 + 1 * (y 1).val = (i 1).val; rw [e01, h1]; omega

/-- Window 1's block at every point is its whole one-row array. -/
theorem read1 (c : Dev nD) (t : Fin cfg3.N) (y : S1x128.Idx) :
    (iblk3 V c 1 t : Vec Ideal S1x128 .f32) y = (V c (Pipeline.arrRef spec3 1) : S1x128.Idx → EReal) y := by
  obtain ⟨-, -, e10, e11, e20, e21, e30, e31, e40, e41, -⟩ := idx_facts t
  unfold iblk3
  rw [View.read_apply]
  refine congrArg (V c (Pipeline.arrRef spec3 1) : S1x128.Idx → EReal) (funext fun a => Fin.ext ?_)
  match a with
  | ⟨0, _⟩ => show win3_1.index t (0 : Fin 2) * 1 + 1 * (y 0).val = (y 0).val; rw [e10]; omega
  | ⟨1, _⟩ => show win3_1.index t (1 : Fin 2) * 128 + 1 * (y 1).val = (y 1).val; rw [e11]; omega

/-- Window 2's block at every point is its whole one-row array. -/
theorem read2 (c : Dev nD) (t : Fin cfg3.N) (y : S1x128.Idx) :
    (iblk3 V c 2 t : Vec Ideal S1x128 .f32) y = (V c (Pipeline.arrRef spec3 2) : S1x128.Idx → EReal) y := by
  obtain ⟨-, -, e10, e11, e20, e21, e30, e31, e40, e41, -⟩ := idx_facts t
  unfold iblk3
  rw [View.read_apply]
  refine congrArg (V c (Pipeline.arrRef spec3 2) : S1x128.Idx → EReal) (funext fun a => Fin.ext ?_)
  match a with
  | ⟨0, _⟩ => show win3_2.index t (0 : Fin 2) * 1 + 1 * (y 0).val = (y 0).val; rw [e20]; omega
  | ⟨1, _⟩ => show win3_2.index t (1 : Fin 2) * 128 + 1 * (y 1).val = (y 1).val; rw [e21]; omega

/-- Window 3's block at every point is its whole one-row array. -/
theorem read3 (c : Dev nD) (t : Fin cfg3.N) (y : S1x128.Idx) :
    (iblk3 V c 3 t : Vec Ideal S1x128 .f32) y = (V c (Pipeline.arrRef spec3 3) : S1x128.Idx → EReal) y := by
  obtain ⟨-, -, e10, e11, e20, e21, e30, e31, e40, e41, -⟩ := idx_facts t
  unfold iblk3
  rw [View.read_apply]
  refine congrArg (V c (Pipeline.arrRef spec3 3) : S1x128.Idx → EReal) (funext fun a => Fin.ext ?_)
  match a with
  | ⟨0, _⟩ => show win3_3.index t (0 : Fin 2) * 1 + 1 * (y 0).val = (y 0).val; rw [e30]; omega
  | ⟨1, _⟩ => show win3_3.index t (1 : Fin 2) * 128 + 1 * (y 1).val = (y 1).val; rw [e31]; omega

/-- Window 4's block at every point is its whole one-row array. -/
theorem read4 (c : Dev nD) (t : Fin cfg3.N) (y : S1x128.Idx) :
    (iblk3 V c 4 t : Vec Ideal S1x128 .f32) y = (V c (Pipeline.arrRef spec3 4) : S1x128.Idx → EReal) y := by
  obtain ⟨-, -, e10, e11, e20, e21, e30, e31, e40, e41, -⟩ := idx_facts t
  unfold iblk3
  rw [View.read_apply]
  refine congrArg (V c (Pipeline.arrRef spec3 4) : S1x128.Idx → EReal) (funext fun a => Fin.ext ?_)
  match a with
  | ⟨0, _⟩ => show win3_4.index t (0 : Fin 2) * 1 + 1 * (y 0).val = (y 0).val; rw [e40]; omega
  | ⟨1, _⟩ => show win3_4.index t (1 : Fin 2) * 128 + 1 * (y 1).val = (y 1).val; rw [e41]; omega

/-! ## From blocks to the array -/

/-- The entry's arithmetic respects equality of its five operands. -/
theorem arith_congr {a0 a1 a2 a3 a4 b0 b1 b2 b3 b4 : EReal} (h0 : a0 = b0) (h1 : a1 = b1) (h2 : a2 = b2) (h3 : a3 = b3)
    (h4 : a4 = b4) : a3 * (a0 - a1) * a2 + a4 = b3 * (b0 - b1) * b2 + b4 := by
  subst h0 h1 h2 h3 h4; rfl

/-- WHAT POINT `t` WRITES BACK is block `t` of the normalisation of the arrays as the region finds them. -/
theorem flushed_eq (c : Dev nD) (t : Fin cfg3.N) :
    (dat3 V c).flushed 5 t = ((cfg3.win 5).blk t).view.read (Elt Ideal)
      (Cert.LayerSpec.bn (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  obtain ⟨-, -, -, -, -, -, -, -, -, -, e50, e51⟩ := idx_facts t
  funext y
  have hy0 : (y 0).val < 5000 := (y 0).isLt
  have hy1 : (y 1).val < 128 := (y 1).isLt
  have hN : cfg3.N = 20 := N_3
  have htN : t.val < 20 := hN ▸ t.isLt
  -- the entry's place in the array: row `5000 t + y 0`, column `y 1`
  have hemb : (((cfg3.win 5).blk t).view.emb y : S100000x128.Idx)
      = ix2 (⟨5000 * t.val + (y 0).val, by omega⟩ : Fin 100000) (⟨(y 1).val, hy1⟩ : Fin 128) := by
    funext a; apply Fin.ext
    match a with
    | ⟨0, _⟩ => show win3_5.index t (0 : Fin 2) * 5000 + 1 * (y 0).val = 5000 * t.val + (y 0).val; rw [e50]; omega
    | ⟨1, _⟩ => show win3_5.index t (1 : Fin 2) * 128 + 1 * (y 1).val = (y 1).val; rw [e51]; omega
  show out3_5 (iblk3 V c 0 t) (iblk3 V c 1 t) (iblk3 V c 2 t) (iblk3 V c 3 t) (iblk3 V c 4 t) y
      = Cert.LayerSpec.bn _ _ _ _ _ (((cfg3.win 5).blk t).view.emb y)
  rw [hemb]
  refine (out_apply (iblk3 V c 0 t) (iblk3 V c 1 t) (iblk3 V c 2 t) (iblk3 V c 3 t) (iblk3 V c 4 t) y ⟨(y 1).val, hy1⟩ rfl).trans ?_
  exact arith_congr (read0 V c t y (ix2 (⟨5000 * t.val + (y 0).val, by omega⟩ : Fin 100000) (⟨(y 1).val, hy1⟩ : Fin 128)) rfl rfl)
    (read1 V c t (ix2 0 ⟨(y 1).val, hy1⟩)) (read2 V c t (ix2 0 ⟨(y 1).val, hy1⟩)) (read3 V c t (ix2 0 ⟨(y 1).val, hy1⟩))
    (read4 V c t (ix2 0 ⟨(y 1).val, hy1⟩))

/-- An index of the array is in point `t`'s block iff each coordinate is in the block's range on its axis. -/
theorem mem_blk (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v69).slice (win3_5.rect t)).set ↔ _
  rw [View.set_slice_whole, Rect.mem_set_unit]
  exact Iff.rfl

/-- Row `n` is in the block of point `n / 5000`: the twenty blocks tile the array. -/
theorem cover (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 20 := N_3
  have ht : (i 0).val / 5000 < cfg3.N := by rw [hN]; omega
  obtain ⟨-, -, -, -, -, -, -, -, -, -, e50, e51⟩ := idx_facts ⟨(i 0).val / 5000, ht⟩
  refine ⟨⟨(i 0).val / 5000, ht⟩, flush3_5 _, ?_⟩
  rw [mem_blk]
  intro a
  match a with
  | ⟨0, _⟩ =>
    show win3_5.index ⟨(i 0).val / 5000, ht⟩ (0 : Fin 2) * 5000 ≤ (i 0).val ∧ (i 0).val < win3_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win3_5.index ⟨(i 0).val / 5000, ht⟩ (1 : Fin 2) * 128 ≤ (i 1).val ∧ (i 1).val < win3_5.index ⟨(i 0).val / 5000, ht⟩ (1 : Fin 2) * 128 + 128
    rw [e51]; omega

/-- THE ARRAY after the region: the normalisation of the five arrays the region finds, entry by entry. -/
theorem bn_eq (c : Dev nD) : (dat3 V c).arrAt 5 cfg3.N
    = Cert.LayerSpec.bn (V c (Pipeline.arrRef spec3 0)) (V c (Pipeline.arrRef spec3 1)) (V c (Pipeline.arrRef spec3 2))
        (V c (Pipeline.arrRef spec3 3)) (V c (Pipeline.arrRef spec3 4)) :=
  (dat3 V c).arrAt_eq_of_cover 5 _ (fun t _ => flushed_eq V c t) cover

end Cert.KernelIdeal.BnValue3

end
-- ==== Proof.BnValue5.lean ====
/-
  The value of a normalisation region: the array its output window ends holding. The body stores, once per point, the
  whole 5000 × 128 block `g · (pre − mu) · inv + b`, the block of `pre` taken entry by entry and the four 1 × 128 rows
  broadcast along the rows. Point `t` of the twenty reads rows `5000 t … 5000 t + 4999` of `pre` and the four rows
  whole, and writes the same rows of the output; the twenty blocks tile the 100000 rows, so the output array ends at
  `LayerSpec.bn` of the five arrays as the region finds them — for any contents `V` at the region's entry.
-/
import proofs.«136260_j12601434046916_1_alg».proof.Proof.Gen.KernelIdeal.Frame
import proofs.«136260_j12601434046916_1_alg».proof.Proof.LayerSpec
import Idealize.ShloMosaic.Lib.ValueIdx
import Idealize.ShloMosaic.Lib.ValueLayout
import Idealize.ShloMosaic.Lib.Pipeline.Value

set_option maxRecDepth 16384

noncomputable section

namespace Cert.KernelIdeal.BnValue5

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The zero offset vector of a whole-block rectangle. -/
theorem hz : (![0, 0] : Fin 2 → Nat) = fun _ => 0 := funext fun a => by fin_cases a <;> rfl

/-! ## The body's arithmetic at an entry -/

/-- The payload as its tree of pointwise operations: the identity casts dropped, the four rows broadcast along the
    5000 rows of the block. -/
theorem pay_eq (g : Vec Ideal S1x128 .f32) (x : Vec Ideal S5000x128 .f32) (mu inv b : Vec Ideal S1x128 .f32) :
    k5_pay1 g x mu inv b
      = addf (mulf (mulf (broadcastTo S5000x128 g broadcasts_S1x128_S5000x128) (subf x (broadcastTo S5000x128 mu broadcasts_S1x128_S5000x128)))
          (broadcastTo S5000x128 inv broadcasts_S1x128_S5000x128)) (broadcastTo S5000x128 b broadcasts_S1x128_S5000x128) := by
  unfold k5_pay1
  simp only [shapeCast_self]

/-- Entry `(r, j)` of the payload: `g j · (x (r, j) − mu j) · inv j + b j`, each row read at its one row. -/
theorem pay_apply (g : Vec Ideal S1x128 .f32) (x : Vec Ideal S5000x128 .f32) (mu inv b : Vec Ideal S1x128 .f32) (r : Fin 5000) (j : Fin 128) :
    k5_pay1 g x mu inv b (ix2 r j) = g (ix2 0 j) * (x (ix2 r j) - mu (ix2 0 j)) * inv (ix2 0 j) + b (ix2 0 j) := by
  rw [pay_eq]
  show broadcastTo S5000x128 g broadcasts_S1x128_S5000x128 (ix2 r j) * (x (ix2 r j) - broadcastTo S5000x128 mu broadcasts_S1x128_S5000x128 (ix2 r j))
      * broadcastTo S5000x128 inv broadcasts_S1x128_S5000x128 (ix2 r j) + broadcastTo S5000x128 b broadcasts_S1x128_S5000x128 (ix2 r j) = _
  rw [broadcastTo_1b_ab_apply g _ r j, broadcastTo_1b_ab_apply mu _ r j, broadcastTo_1b_ab_apply inv _ r j, broadcastTo_1b_ab_apply b _ r j]

/-- What the body leaves in the output block, entry by entry, from the five input blocks (the block of `pre`, then the
    rows `mu`, `inv`, `g`, `b`): its one store covers the block and its loads are whole blocks. -/
theorem out_apply (x0 : Vec Ideal S5000x128 .f32) (x1 x2 x3 x4 : Vec Ideal S1x128 .f32) (y : S5000x128.Idx) (j : Fin 128)
    (hj : j.val = (y 1).val) :
    out5_5 x0 x1 x2 x3 x4 y = x3 (ix2 0 j) * (x0 y - x1 (ix2 0 j)) * x2 (ix2 0 j) + x4 (ix2 0 j) := by
  obtain ⟨r, j', rfl⟩ : ∃ (r : Fin 5000) (j' : Fin 128), y = ix2 r j' := ⟨y 0, y 1, eq_ix2 y⟩
  obtain rfl : j = j' := Fin.ext hj
  unfold out5_5
  rw [View.canon_unit_zero hz]
  simp only [View.ld_unit_zero (S := S5000x128) hz, View.ld_unit_zero (S := S1x128) hz]
  exact pay_apply x3 x0 x1 x2 x4 r j

/-! ## Where each window's block sits in its array -/

/-- The printed index maps over the twenty points: the two 5000-row windows are at block `(t, 0)`, the four rows at
    block `(0, 0)`. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The block of `pre` at point `t` is rows `5000 t … 5000 t + 4999` of the array. -/
theorem read0 (c : Dev nD) (t : Fin cfg5.N) (y : S5000x128.Idx) (i : S100000x128.Idx)
    (h0 : (i 0).val = 5000 * t.val + (y 0).val) (h1 : (i 1).val = (y 1).val) :
    (iblk5 V c 0 t : Vec Ideal S5000x128 .f32) y = (V c (Pipeline.arrRef spec5 0) : S100000x128.Idx → EReal) i := by
  obtain ⟨e00, e01, -⟩ := idx_facts t
  unfold iblk5
  rw [View.read_apply]
  refine congrArg (V c (Pipeline.arrRef spec5 0) : S100000x128.Idx → EReal) (funext fun a => Fin.ext ?_)
  match a with
  | ⟨0, _⟩ => show win5_0.index t (0 : Fin 2) * 5000 + 1 * (y 0).val = (i 0).val; rw [e00, h0]; omega
  | ⟨1, _⟩ => show win5_0.index t (1 : Fin 2) * 128 + 1 * (y 1).val = (i 1).val; rw [e01, h1]; omega

/-- Window 1's block at every point is its whole one-row array. -/
theorem read1 (c : Dev nD) (t : Fin cfg5.N) (y : S1x128.Idx) :
    (iblk5 V c 1 t : Vec Ideal S1x128 .f32) y = (V c (Pipeline.arrRef spec5 1) : S1x128.Idx → EReal) y := by
  obtain ⟨-, -, e10, e11, e20, e21, e30, e31, e40, e41, -⟩ := idx_facts t
  unfold iblk5
  rw [View.read_apply]
  refine congrArg (V c (Pipeline.arrRef spec5 1) : S1x128.Idx → EReal) (funext fun a => Fin.ext ?_)
  match a with
  | ⟨0, _⟩ => show win5_1.index t (0 : Fin 2) * 1 + 1 * (y 0).val = (y 0).val; rw [e10]; omega
  | ⟨1, _⟩ => show win5_1.index t (1 : Fin 2) * 128 + 1 * (y 1).val = (y 1).val; rw [e11]; omega

/-- Window 2's block at every point is its whole one-row array. -/
theorem read2 (c : Dev nD) (t : Fin cfg5.N) (y : S1x128.Idx) :
    (iblk5 V c 2 t : Vec Ideal S1x128 .f32) y = (V c (Pipeline.arrRef spec5 2) : S1x128.Idx → EReal) y := by
  obtain ⟨-, -, e10, e11, e20, e21, e30, e31, e40, e41, -⟩ := idx_facts t
  unfold iblk5
  rw [View.read_apply]
  refine congrArg (V c (Pipeline.arrRef spec5 2) : S1x128.Idx → EReal) (funext fun a => Fin.ext ?_)
  match a with
  | ⟨0, _⟩ => show win5_2.index t (0 : Fin 2) * 1 + 1 * (y 0).val = (y 0).val; rw [e20]; omega
  | ⟨1, _⟩ => show win5_2.index t (1 : Fin 2) * 128 + 1 * (y 1).val = (y 1).val; rw [e21]; omega

/-- Window 3's block at every point is its whole one-row array. -/
theorem read3 (c : Dev nD) (t : Fin cfg5.N) (y : S1x128.Idx) :
    (iblk5 V c 3 t : Vec Ideal S1x128 .f32) y = (V c (Pipeline.arrRef spec5 3) : S1x128.Idx → EReal) y := by
  obtain ⟨-, -, e10, e11, e20, e21, e30, e31, e40, e41, -⟩ := idx_facts t
  unfold iblk5
  rw [View.read_apply]
  refine congrArg (V c (Pipeline.arrRef spec5 3) : S1x128.Idx → EReal) (funext fun a => Fin.ext ?_)
  match a with
  | ⟨0, _⟩ => show win5_3.index t (0 : Fin 2) * 1 + 1 * (y 0).val = (y 0).val; rw [e30]; omega
  | ⟨1, _⟩ => show win5_3.index t (1 : Fin 2) * 128 + 1 * (y 1).val = (y 1).val; rw [e31]; omega

/-- Window 4's block at every point is its whole one-row array. -/
theorem read4 (c : Dev nD) (t : Fin cfg5.N) (y : S1x128.Idx) :
    (iblk5 V c 4 t : Vec Ideal S1x128 .f32) y = (V c (Pipeline.arrRef spec5 4) : S1x128.Idx → EReal) y := by
  obtain ⟨-, -, e10, e11, e20, e21, e30, e31, e40, e41, -⟩ := idx_facts t
  unfold iblk5
  rw [View.read_apply]
  refine congrArg (V c (Pipeline.arrRef spec5 4) : S1x128.Idx → EReal) (funext fun a => Fin.ext ?_)
  match a with
  | ⟨0, _⟩ => show win5_4.index t (0 : Fin 2) * 1 + 1 * (y 0).val = (y 0).val; rw [e40]; omega
  | ⟨1, _⟩ => show win5_4.index t (1 : Fin 2) * 128 + 1 * (y 1).val = (y 1).val; rw [e41]; omega

/-! ## From blocks to the array -/

/-- The entry's arithmetic respects equality of its five operands. -/
theorem arith_congr {a0 a1 a2 a3 a4 b0 b1 b2 b3 b4 : EReal} (h0 : a0 = b0) (h1 : a1 = b1) (h2 : a2 = b2) (h3 : a3 = b3)
    (h4 : a4 = b4) : a3 * (a0 - a1) * a2 + a4 = b3 * (b0 - b1) * b2 + b4 := by
  subst h0 h1 h2 h3 h4; rfl

/-- WHAT POINT `t` WRITES BACK is block `t` of the normalisation of the arrays as the region finds them. -/
theorem flushed_eq (c : Dev nD) (t : Fin cfg5.N) :
    (dat5 V c).flushed 5 t = ((cfg5.win 5).blk t).view.read (Elt Ideal)
      (Cert.LayerSpec.bn (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((dat5 V c).after 5 t) = _
  rw [after5_5]
  obtain ⟨-, -, -, -, -, -, -, -, -, -, e50, e51⟩ := idx_facts t
  funext y
  have hy0 : (y 0).val < 5000 := (y 0).isLt
  have hy1 : (y 1).val < 128 := (y 1).isLt
  have hN : cfg5.N = 20 := N_5
  have htN : t.val < 20 := hN ▸ t.isLt
  -- the entry's place in the array: row `5000 t + y 0`, column `y 1`
  have hemb : (((cfg5.win 5).blk t).view.emb y : S100000x128.Idx)
      = ix2 (⟨5000 * t.val + (y 0).val, by omega⟩ : Fin 100000) (⟨(y 1).val, hy1⟩ : Fin 128) := by
    funext a; apply Fin.ext
    match a with
    | ⟨0, _⟩ => show win5_5.index t (0 : Fin 2) * 5000 + 1 * (y 0).val = 5000 * t.val + (y 0).val; rw [e50]; omega
    | ⟨1, _⟩ => show win5_5.index t (1 : Fin 2) * 128 + 1 * (y 1).val = (y 1).val; rw [e51]; omega
  show out5_5 (iblk5 V c 0 t) (iblk5 V c 1 t) (iblk5 V c 2 t) (iblk5 V c 3 t) (iblk5 V c 4 t) y
      = Cert.LayerSpec.bn _ _ _ _ _ (((cfg5.win 5).blk t).view.emb y)
  rw [hemb]
  refine (out_apply (iblk5 V c 0 t) (iblk5 V c 1 t) (iblk5 V c 2 t) (iblk5 V c 3 t) (iblk5 V c 4 t) y ⟨(y 1).val, hy1⟩ rfl).trans ?_
  exact arith_congr (read0 V c t y (ix2 (⟨5000 * t.val + (y 0).val, by omega⟩ : Fin 100000) (⟨(y 1).val, hy1⟩ : Fin 128)) rfl rfl)
    (read1 V c t (ix2 0 ⟨(y 1).val, hy1⟩)) (read2 V c t (ix2 0 ⟨(y 1).val, hy1⟩)) (read3 V c t (ix2 0 ⟨(y 1).val, hy1⟩))
    (read4 V c t (ix2 0 ⟨(y 1).val, hy1⟩))

/-- An index of the array is in point `t`'s block iff each coordinate is in the block's range on its axis. -/
theorem mem_blk (t : Fin cfg5.N) (i : S100000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v102).slice (win5_5.rect t)).set ↔ _
  rw [View.set_slice_whole, Rect.mem_set_unit]
  exact Iff.rfl

/-- Row `n` is in the block of point `n / 5000`: the twenty blocks tile the array. -/
theorem cover (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have hN : cfg5.N = 20 := N_5
  have ht : (i 0).val / 5000 < cfg5.N := by rw [hN]; omega
  obtain ⟨-, -, -, -, -, -, -, -, -, -, e50, e51⟩ := idx_facts ⟨(i 0).val / 5000, ht⟩
  refine ⟨⟨(i 0).val / 5000, ht⟩, flush5_5 _, ?_⟩
  rw [mem_blk]
  intro a
  match a with
  | ⟨0, _⟩ =>
    show win5_5.index ⟨(i 0).val / 5000, ht⟩ (0 : Fin 2) * 5000 ≤ (i 0).val ∧ (i 0).val < win5_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win5_5.index ⟨(i 0).val / 5000, ht⟩ (1 : Fin 2) * 128 ≤ (i 1).val ∧ (i 1).val < win5_5.index ⟨(i 0).val / 5000, ht⟩ (1 : Fin 2) * 128 + 128
    rw [e51]; omega

/-- THE ARRAY after the region: the normalisation of the five arrays the region finds, entry by entry. -/
theorem bn_eq (c : Dev nD) : (dat5 V c).arrAt 5 cfg5.N
    = Cert.LayerSpec.bn (V c (Pipeline.arrRef spec5 0)) (V c (Pipeline.arrRef spec5 1)) (V c (Pipeline.arrRef spec5 2))
        (V c (Pipeline.arrRef spec5 3)) (V c (Pipeline.arrRef spec5 4)) :=
  (dat5 V c).arrAt_eq_of_cover 5 _ (fun t _ => flushed_eq V c t) cover

end Cert.KernelIdeal.BnValue5

end
-- ==== Proof.LibERealAlgebra.lean ====
/- General facts about the extended reals as the exact ("ideal") reading of float programs uses them: sums,
   quotients and square roots of finite values stay finite and are the real operations; a few float words as the
   exact reals they denote; and two finite-sum identities over the reals. -/
import Idealize.ShloMosaic.PureOps.Ideal
import Idealize.ShloMosaic.PureOps.Ideal.Laws
import Mathlib.Data.EReal.Inv
import Mathlib.Analysis.SpecialFunctions.Pow.Real
import Mathlib.Algebra.BigOperators.Group.Finset.Basic
import Mathlib.Tactic

noncomputable section

namespace Cert.LibEReal

open Idealize.ShloMosaic
open scoped BigOperators

/-- A finite sum of finite extended reals is the (finite) real sum. -/
theorem coe_sum {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The quotient of two finite values by a nonzero divisor is the real quotient. -/
theorem div_coe' (a b : ℝ) (hb : b ≠ 0) : Ideal.div (a : EReal) (b : EReal) = ((a / b : ℝ) : EReal) := by
  rw [Ideal.div_coe hb, ← EReal.coe_mul, mul_one_div]

/-- The square root of a nonnegative finite value is the real square root. -/
theorem sqrt_coe (x : ℝ) (hx : 0 ≤ x) : Ideal.sqrt (x : EReal) = ((Real.sqrt x : ℝ) : EReal) := by
  rw [Ideal.sqrt_coe, if_neg (not_lt.mpr hx)]

/-- The reciprocal square root of a positive finite value is the reciprocal of the real square root. -/
theorem rsqrt_coe (x : ℝ) (hx : 0 < x) : Ideal.rsqrt (x : EReal) = (((Real.sqrt x)⁻¹ : ℝ) : EReal) := by
  rw [Ideal.rsqrt_coe, if_neg (not_lt.mpr hx.le), if_neg hx.ne']

/-- Multiplying by the reciprocal square root of a positive value is dividing by its square root. -/
theorem mul_rsqrt_eq_div_sqrt (a x : ℝ) (hx : 0 < x) :
    (a : EReal) * Ideal.rsqrt (x : EReal) = Ideal.div (a : EReal) (Ideal.sqrt (x : EReal)) := by
  have hs : Real.sqrt x ≠ 0 := (Real.sqrt_pos.mpr hx).ne'
  rw [rsqrt_coe x hx, sqrt_coe x hx.le, div_coe' a _ hs, ← EReal.coe_mul, div_eq_mul_inv]

/-- The float word `0x3F800000` denotes `1`. -/
theorem ofBits_one : Ideal.ofBits .f32 0x3F800000#32 = 1 := by
  simp [Ideal.ofBits, Ideal.ieee, -EReal.coe_mul]; norm_num

/-- The float word `0x46800000` denotes `16384 = 2 ^ 14`. -/
theorem ofBits_16384 : Ideal.ofBits .f32 0x46800000#32 = ((16384 : ℝ) : EReal) := by
  simp [Ideal.ofBits, Ideal.ieee, -EReal.coe_mul]; norm_num

/-- The float word `0x3727C5AC` (the float nearest `1e-5`) denotes a positive real, `10995116 · 2 ^ (-40)`. -/
theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- The float word `0x3C23D70A` (the float nearest `0.01`) denotes a real, `10737418 · 2 ^ (-30)`. -/
theorem ofBits_slope : ∃ s : ℝ, Ideal.ofBits .f32 0x3C23D70A#32 = (s : EReal) := by
  refine ⟨(10737418 : ℝ) * (2 : ℝ) ^ (-30 : ℤ), ?_⟩
  simp [Ideal.ofBits, Ideal.ieee, -EReal.coe_mul]

/-- Adding a self-loop (a `1` on the diagonal) to row `i` raises its row sum by `1`. -/
theorem rowsum_selfloop {n : ℕ} (g : Fin n → ℝ) (i : Fin n) :
    ∑ j, (g j + if i = j then 1 else 0) = (∑ j, g j) + 1 := by
  rw [Finset.sum_add_distrib, Finset.sum_ite_eq Finset.univ i (fun _ => (1 : ℝ)), if_pos (Finset.mem_univ i)]

/-- Row `i` of the symmetrically normalised matrix `D (G + I) D` applied to `hp`: the scale `d i` comes out of the
    sum, and the diagonal `1` contributes the single term `d i * hp i`. -/
theorem normalized_product {n : ℕ} (g d hp : Fin n → ℝ) (i : Fin n) :
    ∑ j, (((g j + if i = j then 1 else 0) * d i) * d j) * hp j
      = d i * ((∑ j, g j * (d j * hp j)) + d i * hp i) := by
  have h : ∀ j, (((g j + if i = j then 1 else 0) * d i) * d j) * hp j
      = d i * (g j * (d j * hp j)) + (if i = j then d i * (d j * hp j) else 0) := by
    intro j
    split_ifs <;> ring
  rw [Finset.sum_congr rfl (fun j _ => h j), Finset.sum_add_distrib, ← Finset.mul_sum,
    Finset.sum_ite_eq Finset.univ i (fun j => d i * (d j * hp j)), if_pos (Finset.mem_univ i)]
  ring

/-- The sum of two finite values is the real sum (the coercion pushed outward). -/
theorem coe_add (a b : ℝ) : (a : EReal) + (b : EReal) = ((a + b : ℝ) : EReal) := (EReal.coe_add a b).symm

/-- The difference of two finite values is the real difference (the coercion pushed outward). -/
theorem coe_sub (a b : ℝ) : (a : EReal) - (b : EReal) = ((a - b : ℝ) : EReal) := (EReal.coe_sub a b).symm

/-- The product of two finite values is the real product (the coercion pushed outward). -/
theorem coe_mul (a b : ℝ) : (a : EReal) * (b : EReal) = ((a * b : ℝ) : EReal) := (EReal.coe_mul a b).symm

/-- The negative of a finite value is the real negative (the coercion pushed outward). -/
theorem coe_neg (a : ℝ) : -(a : EReal) = ((-a : ℝ) : EReal) := (EReal.coe_neg a).symm

/-- A mean of squares (over `16384` terms' worth) is nonnegative. -/
theorem sum_sq_div_nonneg {n : ℕ} (f : Fin n → ℝ) : 0 ≤ (∑ k, f k * f k) / 16384 :=
  div_nonneg (Finset.sum_nonneg fun k _ => mul_self_nonneg (f k)) (by norm_num)

/-- A mean of squares plus a positive constant is positive. -/
theorem sum_sq_div_add_pos {n : ℕ} (f : Fin n → ℝ) {e : ℝ} (he : 0 < e) : 0 < (∑ k, f k * f k) / 16384 + e :=
  add_pos_of_nonneg_of_pos (sum_sq_div_nonneg f) he

end Cert.LibEReal

end
-- ==== Proof.LibScatterGather.lean ====
/-
  Row scatter-add and row gather, read at an index. A table of N rows of width C; E row numbers, held as an
  [E, 1] array of integer words; E update rows of width C.
  Scatter-add: update element (e, k') lands on table element (i, k) exactly when the signed reading of word e
  is i and k' = k, so table element (i, k) receives the sum over those e whose word reads i of update (e, k).
  Gather: result element (e, k) is table element (r, k) with r the signed reading of word e clamped into [0, N - 1].
-/
import Idealize.ShloMosaic.PureOps.Ideal
import Idealize.ShloMosaic.PureOps.Ideal.Laws
import Idealize.ShloMosaic.Lib.ValueIdx
import Idealize.ShloMosaic.Lib.ReduceAll

noncomputable section

open scoped BigOperators

namespace Cert.ScatterGather

open Idealize.ShloMosaic Idealize.ShloMosaic.ValueIdx

/-! ## Scatter-add along rows -/

/-- The dimension numbers of a scatter of whole rows: the update's axis 1 is the window, the table's axis 0 is
    the scattered one, one index word per update row. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k' : Fin C)

/-- On the row axis the window of update element (e, k') starts at the signed reading of word e. -/
theorem start_row : (rowScatter N E C wf).start (ix2 e k') idx 0 = (idx (ix2 e 0)).toInt := by
  unfold ScatterDims.start
  rw [dif_pos (show (0 : Fin 2) ∈ (rowScatter N E C wf).scatterDimsToOperandDims from List.mem_singleton.mpr rfl)]
  have hsi : (rowScatter N E C wf).siIdx (ix2 e k') ⟨List.idxOf (0 : Fin 2) (rowScatter N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis it starts at 0. -/
theorem start_col : (rowScatter N E C wf).start (ix2 e k') idx 1 = 0 := rfl

/-- The window coordinate on the row axis is 0 … -/
theorem window_row : (rowScatter N E C wf).window (ix2 e k') 0 = 0 := rfl

/-- … and on the column axis it is k'. -/
theorem window_col : (rowScatter N E C wf).window (ix2 e k') 1 = k'.val := rfl

end Scatter

section ScatterIdx
variable {N E C w : Nat} (wf : ScatterDims.WF ⟨2, ![N, C]⟩ ⟨2, ![E, 1]⟩ ⟨2, ![E, C]⟩ [1] [0] [0] 1)
  (idx : IVec ⟨2, ![E, 1]⟩ w)

/-- WHERE AN UPDATE ELEMENT LANDS: (e, k') lands on (i, k) exactly when word e reads i and k' = k. -/
theorem resultIdx_rows (e : Fin E) (k' : Fin C) (i : Fin N) (k : Fin C) :
    (rowScatter N E C wf).resultIdx? (ix2 e k') idx = some (ix2 i k) ↔ (idx (ix2 e 0)).toInt = (i.val : ℤ) ∧ k' = k := by
  unfold ScatterDims.resultIdx?
  split
  · rename_i h
    rw [Option.some.injEq]
    constructor
    · intro hf
      have h0 := congrArg Fin.val (congrFun hf 0)
      have h1 := congrArg Fin.val (congrFun hf 1)
      have g0 := (h 0).1
      simp only [start_row, window_row, start_col, window_col] at h0 h1 g0
      refine ⟨?_, Fin.ext ?_⟩
      · show (idx (ix2 e 0)).toInt = (i.val : ℤ)
        have : ((idx (ix2 e 0)).toInt + ((0 : ℕ) : ℤ)).toNat = i.val := h0
        omega
      · have : ((0 : ℤ) + (k'.val : ℤ)).toNat = k.val := h1
        omega
    · rintro ⟨hv, rfl⟩
      funext a; refine Fin.ext ?_
      match a with
      | ⟨0, _⟩ =>
        show ((rowScatter N E C wf).start (ix2 e k') idx 0 + ((rowScatter N E C wf).window (ix2 e k') 0 : ℤ)).toNat = i.val
        rw [start_row, window_row, hv]; omega
      | ⟨1, _⟩ =>
        show ((rowScatter N E C wf).start (ix2 e k') idx 1 + ((rowScatter N E C wf).window (ix2 e k') 1 : ℤ)).toNat = k'.val
        rw [start_col, window_col]; omega
  · rename_i h
    constructor
    · intro hf; exact absurd hf (by simp)
    · rintro ⟨hv, rfl⟩
      refine absurd (fun a => ?_) h
      match a with
      | ⟨0, _⟩ =>
        show 0 ≤ (rowScatter N E C wf).start (ix2 e k') idx 0 + ((rowScatter N E C wf).window (ix2 e k') 0 : ℤ) ∧
          (rowScatter N E C wf).start (ix2 e k') idx 0 + ((rowScatter N E C wf).window (ix2 e k') 0 : ℤ) < (N : ℤ)
        rw [start_row, window_row, hv]; have := i.isLt; omega
      | ⟨1, _⟩ =>
        show 0 ≤ (rowScatter N E C wf).start (ix2 e k') idx 1 + ((rowScatter N E C wf).window (ix2 e k') 1 : ℤ) ∧
          (rowScatter N E C wf).start (ix2 e k') idx 1 + ((rowScatter N E C wf).window (ix2 e k') 1 : ℤ) < (C : ℤ)
        rw [start_col, window_col]; have := k'.isLt; omega

/-- THE SCATTER-ADD READ AT (i, k): the table's element plus the updates (e, k) of the rows e whose word reads i. -/
theorem scatterAdd_rows_apply (x : (⟨2, ![N, C]⟩ : Shape).Idx → EReal) (upd : (⟨2, ![E, C]⟩ : Shape).Idx → EReal)
    (i : Fin N) (k : Fin C) :
    Ideal.hostScatterAdd (rowScatter N E C wf) x idx upd (ix2 i k)
      = x (ix2 i k) + ∑ e ∈ Finset.univ.filter (fun e : Fin E => (idx (ix2 e 0)).toInt = (i.val : ℤ)), upd (ix2 e k) := by
  unfold Ideal.hostScatterAdd
  congr 1
  rw [Finset.sum_filter, sum_idx2, Finset.sum_filter]
  refine Finset.sum_congr rfl fun e _ => ?_
  simp only [resultIdx_rows]
  by_cases hv : (idx (ix2 e 0)).toInt = (i.val : ℤ)
  · simp only [hv, true_and, if_true]
    rw [Finset.sum_ite_eq' Finset.univ k (fun b => upd (ix2 e b))]
    simp
  · simp only [hv, false_and, if_false, Finset.sum_const_zero]

end ScatterIdx

/-! ## Gather along rows -/

/-- The dimension numbers of a gather of whole rows: one index word per result row names a table row
    (slices of one row, all C columns), the result's axis 1 runs over the columns. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section Gather
variable {α : Type} {N E C w : Nat}

/-- THE GATHER READ AT (e, k): the table at row "word e read signed, clamped into [0, N - 1]", column k. -/
theorem gather_rows_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGather N E C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGather N E C wf).start (ix2 e k) idx 0 + (rowGather N E C wf).batchCoord (ix2 e k) 0
        + (rowGather N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e k) ⟨List.idxOf (0 : Fin 2) (rowGather N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E C wf).start (ix2 e k) idx 1 + (rowGather N E C wf).batchCoord (ix2 e k) 1
        + (rowGather N E C wf).offCoord (ix2 e k) 1 = k.val
    rw [GatherDims.batchCoord_eq_zero _ _ _ List.not_mem_nil]
    have hs : (rowGather N E C wf).start (ix2 e k) idx 1 = 0 := rfl
    have ho : (rowGather N E C wf).offCoord (ix2 e k) 1 = k.val := rfl
    rw [hs, ho]; omega

/-- The same, with the table's row named by the caller: any r whose number is the clamped reading of word e. -/
theorem gather_rows_apply_of_eq (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) (r : Fin N)
    (hr : min (idx (ix2 e 0)).toInt.toNat (N - 1) = r.val) :
    Host.gather (rowGather N E C wf) x idx (ix2 e k) = x (ix2 r k) := by
  rw [gather_rows_apply hN wf]
  refine congrArg x (funext fun a => ?_)
  match a with
  | ⟨0, _⟩ => exact Fin.ext hr
  | ⟨1, _⟩ => rfl

end Gather

/-! ## Row lookup with a fill value for row numbers out of range

A lookup of rows of a table of 50000 rows by 800000 signed row numbers, in the form a lookup with "fill" mode
takes: a negative number is first wrapped by adding 50000; a row number that after that is outside [0, 49999]
gives a row of the fill value; otherwise the (clamped) gather gives the table's row. For a row number already
in [0, 50000) nothing is wrapped, both range tests pass, nothing is clamped, and the result is the table's row. -/

/-- A left fold by `and` over one-bit words that are all 1, started at 1, is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A reduction by `and` from 1 is 1 at a result index when every element that reduces into it is 1. -/
theorem reduce_andi_eq_one_of_all {s t u : Shape} {axes : List (Fin s.rank)} (x : s.Idx → BitVec 1)
    (init : u.Idx → BitVec 1) (h : s.ReducesTo axes t) (hu : 0 < u.numel) (j : t.Idx)
    (hi : init (Shape.Idx.first hu) = 1#1) (hx : ∀ i, h.drop i = j → x i = 1#1) :
    Host.reduce IntOp.andi x init h hu j = 1#1 := by
  rw [Host.reduce_eq_foldl, hi]
  refine foldl_andi_one x _ fun i hi' => ?_
  rw [List.mem_filter] at hi'
  exact hx i (by simpa using hi'.2)

/-- A vector of 800000 entries broadcast along axis 0 of an [800000, m] array reads, at (e, c), its entry e. -/
theorem broadcast_rows_apply {α : Type} {m : Nat}
    (hb : (⟨1, ![800000]⟩ : Shape).BroadcastsInDim ⟨2, ![800000, m]⟩ (![0] : Fin 1 → Fin 2))
    (x : (⟨1, ![800000]⟩ : Shape).Idx → α) (i : (⟨2, ![800000, m]⟩ : Shape).Idx) :
    broadcastInDim ⟨2, ![800000, m]⟩ ![0] hb x i = x (ix1 (i 0)) := by
  unfold broadcastInDim
  refine congrArg x (funext fun a => Fin.ext ?_)
  match a with
  | ⟨0, _⟩ => rfl

section Take
variable {F : FTy → Type} [FloatOps F] {C : Nat}
  (hb0 : (⟨0, ![]⟩ : Shape).BroadcastsInDim ⟨1, ![800000]⟩ (![] : Fin 0 → Fin (⟨1, ![800000]⟩ : Shape).rank))
  (hb1 : (⟨1, ![800000]⟩ : Shape).BroadcastsInDim ⟨2, ![800000, 1]⟩ (![0] : Fin 1 → Fin (⟨2, ![800000, 1]⟩ : Shape).rank))
  (hb2 : (⟨0, ![]⟩ : Shape).BroadcastsInDim ⟨2, ![800000, 1]⟩ (![] : Fin 0 → Fin (⟨2, ![800000, 1]⟩ : Shape).rank))
  (hb3 : (⟨1, ![1]⟩ : Shape).BroadcastsInDim ⟨2, ![1, 1]⟩ (![1] : Fin 1 → Fin (⟨2, ![1, 1]⟩ : Shape).rank))
  (hb4 : (⟨2, ![1, 1]⟩ : Shape).BroadcastsInDim ⟨2, ![800000, 1]⟩ (![0, 1] : Fin 2 → Fin (⟨2, ![800000, 1]⟩ : Shape).rank))
  (hr : (⟨2, ![800000, 1]⟩ : Shape).ReducesTo [1] ⟨1, ![800000]⟩)
  (hu : 0 < (⟨0, ![]⟩ : Shape).numel)
  (hb5 : (⟨1, ![800000]⟩ : Shape).BroadcastsInDim ⟨2, ![800000, C]⟩ (![0] : Fin 1 → Fin (⟨2, ![800000, C]⟩ : Shape).rank))
  (hb6 : (⟨0, ![]⟩ : Shape).BroadcastsInDim ⟨2, ![800000, C]⟩ (![] : Fin 0 → Fin (⟨2, ![800000, C]⟩ : Shape).rank))
  (wf : GatherDims.WF ⟨2, ![50000, C]⟩ ⟨2, ![800000, 1]⟩ ⟨2, ![800000, C]⟩ [1] [0] [] [0] [] 1 ![1, C])

/-- The lookup: wrap negative row numbers, make the row numbers a column, test each against [0, 49999], gather the
    rows, and put the fill value (the pattern 0x7FC00000) where the test failed. -/
def takeFill (T : FVec F ⟨2, ![50000, C]⟩ .f32) (s : IVec ⟨1, ![800000]⟩ 32) : FVec F ⟨2, ![800000, C]⟩ .f32 :=
  select
    (broadcastInDim ⟨2, ![800000, C]⟩ ![0] hb5
      (Host.reduce IntOp.andi
        (andi
          (cmpi .sge
            (broadcastInDim ⟨2, ![800000, 1]⟩ ![0] hb1
              (select (cmpi .slt s (broadcastInDim ⟨1, ![800000]⟩ ![] hb0 (constantI ⟨0, ![]⟩ 32 0#32)))
                (addi s (broadcastInDim ⟨1, ![800000]⟩ ![] hb0 (constantI ⟨0, ![]⟩ 32 50000#32))) s))
            (broadcastInDim ⟨2, ![800000, 1]⟩ ![] hb2 (constantI ⟨0, ![]⟩ 32 0#32)))
          (cmpi .sle
            (broadcastInDim ⟨2, ![800000, 1]⟩ ![0] hb1
              (select (cmpi .slt s (broadcastInDim ⟨1, ![800000]⟩ ![] hb0 (constantI ⟨0, ![]⟩ 32 0#32)))
                (addi s (broadcastInDim ⟨1, ![800000]⟩ ![] hb0 (constantI ⟨0, ![]⟩ 32 50000#32))) s))
            (broadcastInDim ⟨2, ![800000, 1]⟩ ![0, 1] hb4
              (broadcastInDim ⟨2, ![1, 1]⟩ ![1] hb3 (constantI ⟨1, ![1]⟩ 32 49999#32)))))
        (constantI ⟨0, ![]⟩ 1 1#1) hr hu))
    (Host.gather (rowGather 50000 800000 C wf) T
      (broadcastInDim ⟨2, ![800000, 1]⟩ ![0] hb1
        (select (cmpi .slt s (broadcastInDim ⟨1, ![800000]⟩ ![] hb0 (constantI ⟨0, ![]⟩ 32 0#32)))
          (addi s (broadcastInDim ⟨1, ![800000]⟩ ![] hb0 (constantI ⟨0, ![]⟩ 32 50000#32))) s)))
    (broadcastInDim ⟨2, ![800000, C]⟩ ![] hb6 (constant ⟨0, ![]⟩ .f32 0x7FC00000#32))

/-- A nonnegative row number is not wrapped. -/
theorem wrap_apply (s : IVec ⟨1, ![800000]⟩ 32) (j : (⟨1, ![800000]⟩ : Shape).Idx) (h0 : 0 ≤ (s j).toInt) :
    select (cmpi .slt s (broadcastInDim ⟨1, ![800000]⟩ ![] hb0 (constantI ⟨0, ![]⟩ 32 0#32)))
      (addi s (broadcastInDim ⟨1, ![800000]⟩ ![] hb0 (constantI ⟨0, ![]⟩ 32 50000#32))) s j = s j := by
  show Scalar.select (IntOp.cmpi .slt (s j) 0#32) _ _ = s j
  unfold Scalar.select
  rw [if_neg]
  intro hc
  have := IntOp.cmpi_slt.1 hc
  rw [show (0#32 : BitVec 32).toInt = 0 from by decide] at this
  omega

/-- THE LOOKUP READ AT (e, k), for a row number in [0, 50000): the table's row of that number, column k. -/
theorem takeFill_apply (T : FVec F ⟨2, ![50000, C]⟩ .f32) (s : IVec ⟨1, ![800000]⟩ 32) (e : Fin 800000) (k : Fin C)
    (h0 : 0 ≤ (s (ix1 e)).toInt) (h1 : (s (ix1 e)).toInt < 50000) :
    takeFill hb0 hb1 hb2 hb3 hb4 hr hu hb5 hb6 wf T s (ix2 e k)
      = T (ix2 ⟨(s (ix1 e)).toInt.toNat, by omega⟩ k) := by
  unfold takeFill
  rw [select_apply, broadcast_rows_apply hb5]
  -- the row-number column read at row e is the row number e itself
  have hv : ∀ i : (⟨2, ![800000, 1]⟩ : Shape).Idx, i 0 = e →
      broadcastInDim ⟨2, ![800000, 1]⟩ ![0] hb1
        (select (cmpi .slt s (broadcastInDim ⟨1, ![800000]⟩ ![] hb0 (constantI ⟨0, ![]⟩ 32 0#32)))
          (addi s (broadcastInDim ⟨1, ![800000]⟩ ![] hb0 (constantI ⟨0, ![]⟩ 32 50000#32))) s) i = s (ix1 e) := by
    intro i hi
    rw [broadcast_rows_apply hb1, hi, wrap_apply hb0 s (ix1 e) h0]
  -- both range tests pass at row e
  have hok : Host.reduce IntOp.andi
        (andi
          (cmpi .sge
            (broadcastInDim ⟨2, ![800000, 1]⟩ ![0] hb1
              (select (cmpi .slt s (broadcastInDim ⟨1, ![800000]⟩ ![] hb0 (constantI ⟨0, ![]⟩ 32 0#32)))
                (addi s (broadcastInDim ⟨1, ![800000]⟩ ![] hb0 (constantI ⟨0, ![]⟩ 32 50000#32))) s))
            (broadcastInDim ⟨2, ![800000, 1]⟩ ![] hb2 (constantI ⟨0, ![]⟩ 32 0#32)))
          (cmpi .sle
            (broadcastInDim ⟨2, ![800000, 1]⟩ ![0] hb1
              (select (cmpi .slt s (broadcastInDim ⟨1, ![800000]⟩ ![] hb0 (constantI ⟨0, ![]⟩ 32 0#32)))
                (addi s (broadcastInDim ⟨1, ![800000]⟩ ![] hb0 (constantI ⟨0, ![]⟩ 32 50000#32))) s))
            (broadcastInDim ⟨2, ![800000, 1]⟩ ![0, 1] hb4
              (broadcastInDim ⟨2, ![1, 1]⟩ ![1] hb3 (constantI ⟨1, ![1]⟩ 32 49999#32)))))
        (constantI ⟨0, ![]⟩ 1 1#1) hr hu (ix1 ((ix2 e k : (⟨2, ![800000, C]⟩ : Shape).Idx) 0)) = 1#1 := by
    refine reduce_andi_eq_one_of_all _ _ hr hu _ rfl fun i hi => ?_
    have hi0 : i 0 = e := by
      have := congrArg Fin.val (congrFun hi 0)
      exact Fin.ext this
    show IntOp.andi (IntOp.cmpi .sge _ 0#32) (IntOp.cmpi .sle _ 49999#32) = 1#1
    rw [hv i hi0, IntOp.andi_eq_one, IntOp.cmpi_sge, IntOp.cmpi_sle,
      show (0#32 : BitVec 32).toInt = 0 from by decide, show (49999#32 : BitVec 32).toInt = 49999 from by decide]
    omega
  rw [hok, select_one]
  refine gather_rows_apply_of_eq (by decide) wf T _ e k _ ?_
  rw [hv (ix2 e 0) rfl]
  show min (s (ix1 e)).toInt.toNat (50000 - 1) = (s (ix1 e)).toInt.toNat
  omega

end Take

end Cert.ScatterGather

end
-- ==== Proof.LayerMath.lean ====
/-
  The one law that separates the two programs, and the finiteness that makes it hold.

  For a table `o` of 100000 rows whose entries are real numbers, write, column by column, `S` for the sum of the
  column, `Q` for the sum of its squares and `μ = S / 100000`. One program takes the variance as the mean of the squared
  deviations, `(∑ (o − μ)²) / 100000`; the other as `Q / 100000 − μ · μ`. Over the reals these agree
  (expand the square and use `∑ o = 100000 · μ`); over the extended reals they need not (an infinite entry makes one
  `+∞` and the other `−∞`), so the law is stated for finite tables, and each step of a layer is shown to keep tables
  finite: sums and products of reals are real, a maximum with zero is real, a quotient by 100000 is real, and the
  reciprocal square root is taken at a variance plus a positive constant, hence at a positive real.
-/
import proofs.«136260_j12601434046916_1_alg».proof.Proof.LayerSpec
import proofs.«136260_j12601434046916_1_alg».proof.Proof.LibERealAlgebra
import proofs.«136260_j12601434046916_1_alg».proof.Proof.LibScatterGather
import Mathlib.Tactic

noncomputable section

open scoped BigOperators

namespace Cert.LayerMath

open Idealize.ShloMosaic Idealize.ShloMosaic.ValueIdx Cert.LayerSpec Cert.LibEReal Cert.ScatterGather

/-- An extended real that is a real number. -/
def IsReal (x : EReal) : Prop := ∃ v : ℝ, x = (v : EReal)

/-- A function into the extended reals all of whose values are real numbers. -/
def Finite {ι : Type} (x : ι → EReal) : Prop := ∀ i, IsReal (x i)

/-- The zero word. -/
abbrev Z : EReal := Ideal.ofBits .f32 0x00000000#32
/-- The word of the row count, 100000. -/
abbrev C : EReal := Ideal.ofBits .f32 0x47C35000#32
/-- The word of the variance offset, the float nearest 1e-5. -/
abbrev E : EReal := Ideal.ofBits .f32 0x3727C5AC#32

theorem Z_eq : Z = 0 := Ideal.ofBits_zero_f32

/-- The word `0x47C35000` denotes `100000 = 12800000 · 2 ^ (-7)`. -/
theorem C_eq : C = ((100000 : ℝ) : EReal) := by
  have h : C = (((12800000 : ℝ) * (2 : ℝ) ^ (-7 : ℤ) : ℝ) : EReal) := by
    simp [C, Ideal.ofBits, Ideal.ieee, -EReal.coe_mul]
  rw [h]; congr 1; norm_num

/-! ## Real numbers are closed under the operations of a layer -/

theorem IsReal.add {a b : EReal} : IsReal a → IsReal b → IsReal (a + b) := by
  rintro ⟨u, rfl⟩ ⟨v, rfl⟩; exact ⟨u + v, coe_add u v⟩

theorem IsReal.sub {a b : EReal} : IsReal a → IsReal b → IsReal (a - b) := by
  rintro ⟨u, rfl⟩ ⟨v, rfl⟩; exact ⟨u - v, coe_sub u v⟩

theorem IsReal.mul {a b : EReal} : IsReal a → IsReal b → IsReal (a * b) := by
  rintro ⟨u, rfl⟩ ⟨v, rfl⟩; exact ⟨u * v, coe_mul u v⟩

theorem IsReal.sum {ι : Type} (s : Finset ι) (f : ι → EReal) (h : ∀ k ∈ s, IsReal (f k)) : IsReal (∑ k ∈ s, f k) := by
  classical
  induction s using Finset.induction_on with
  | empty => exact ⟨0, by simp⟩
  | insert a s ha ih =>
    rw [Finset.sum_insert ha]
    exact (h a (Finset.mem_insert_self a s)).add (ih fun k hk => h k (Finset.mem_insert_of_mem hk))

/-- The maximum of a real number and zero is real. -/
theorem IsReal.max_Z {a : EReal} : IsReal a → IsReal (max a Z) := by
  rintro ⟨u, rfl⟩
  rw [Z_eq]
  exact ⟨max u 0, by rw [← EReal.coe_zero]; exact (EReal.coe_strictMono.monotone.map_max).symm⟩

/-- A real number over 100000 is real. -/
theorem IsReal.div_C {a : EReal} : IsReal a → IsReal (Ideal.div a C) := by
  rintro ⟨u, rfl⟩
  exact ⟨u / 100000, by rw [C_eq, div_coe' _ _ (by norm_num)]⟩

/-- A gather of whole rows of a finite table is finite: each entry is an entry of the table. -/
theorem gather_finite {N E' C' w : Nat} (hN : 0 < N)
    (wf : GatherDims.WF ⟨2, ![N, C']⟩ ⟨2, ![E', 1]⟩ ⟨2, ![E', C']⟩ [1] [0] [] [0] [] 1 ![1, C'])
    (x : (⟨2, ![N, C']⟩ : Shape).Idx → EReal) (hx : Finite x) (idx : IVec ⟨2, ![E', 1]⟩ w) :
    Finite (Host.gather (rowGather N E' C' wf) x idx) := fun i => by
  obtain ⟨a, b, rfl⟩ : ∃ (a : Fin E') (b : Fin C'), i = ix2 a b := ⟨i 0, i 1, eq_ix2 i⟩
  rw [gather_rows_apply hN wf]; exact hx _

/-- A scatter-add of finite rows into a finite table is finite: each entry is the table's entry plus a finite sum
    of update entries. -/
theorem scatter_finite {N E' C' w : Nat}
    (wf : ScatterDims.WF ⟨2, ![N, C']⟩ ⟨2, ![E', 1]⟩ ⟨2, ![E', C']⟩ [1] [0] [0] 1)
    (x : (⟨2, ![N, C']⟩ : Shape).Idx → EReal) (upd : (⟨2, ![E', C']⟩ : Shape).Idx → EReal)
    (hx : Finite x) (hu : Finite upd) (idx : IVec ⟨2, ![E', 1]⟩ w) :
    Finite (Ideal.hostScatterAdd (rowScatter N E' C' wf) x idx upd) := fun i => by
  obtain ⟨a, b, rfl⟩ : ∃ (a : Fin N) (b : Fin C'), i = ix2 a b := ⟨i 0, i 1, eq_ix2 i⟩
  rw [scatterAdd_rows_apply]; exact (hx _).add (IsReal.sum _ _ fun e _ => hu _)

/-- The activation of finite tables is finite. -/
theorem act_finite {D : Nat} (h ai ao : Mat 100000 D) (Ws Wi Wo : Mat D 128)
    (hh : Finite h) (hai : Finite ai) (hao : Finite ao) (hs : Finite Ws) (hi : Finite Wi) (ho : Finite Wo) :
    Finite (act h ai ao Ws Wi Wo) := fun i =>
  IsReal.max_Z (((IsReal.sum _ _ fun k _ => (hh _).mul (hs _)).add (IsReal.sum _ _ fun k _ => (hai _).mul (hi _))).add
    (IsReal.sum _ _ fun k _ => (hao _).mul (ho _)))

/-! ## The law over the reals -/

/-- The mean of the squared deviations is the mean of the squares less the squared mean. -/
theorem var_identity (r : Fin 100000 → ℝ) :
    (∑ n, (r n - (∑ k, r k) / 100000) * (r n - (∑ k, r k) / 100000)) / 100000
      = (∑ n, r n * r n) / 100000 - (∑ k, r k) / 100000 * ((∑ k, r k) / 100000) := by
  set μ : ℝ := (∑ k, r k) / 100000 with hμ
  have hS : (∑ k, r k) = 100000 * μ := by rw [hμ]; field_simp
  have e : ∀ n, (r n - μ) * (r n - μ) = r n * r n - 2 * μ * r n + μ * μ := fun n => by ring
  simp_rw [e]
  rw [Finset.sum_add_distrib, Finset.sum_sub_distrib, ← Finset.mul_sum, Finset.sum_const, Finset.card_univ,
    Fintype.card_fin, hS]
  simp only [nsmul_eq_mul]
  push_cast
  ring

/-- The mean of squared deviations is nonnegative. -/
theorem var_nonneg (r : Fin 100000 → ℝ) (μ : ℝ) : 0 ≤ (∑ n, (r n - μ) * (r n - μ)) / 100000 :=
  div_nonneg (Finset.sum_nonneg fun n _ => mul_self_nonneg _) (by norm_num)

/-! ## The column statistics of a finite table, as reals -/

/-- The reference's normalisation of a table by its own column statistics: per column the mean `μ` (zero plus the
    column's sum, over 100000), the variance (zero plus the sum of squared deviations, over 100000), and entry
    `(n, j)` sent to `g j · (o (n, j) − μ) · rsqrt (variance + offset) + b j`. -/
def refBn (o : Mat 100000 128) (g b : (⟨1, ![128]⟩ : Shape).Idx → EReal) : Mat 100000 128 := fun i =>
  g (ix1 (i 1)) * (o i - Ideal.div (Z + ∑ n : Fin 100000, o (ix2 n (i 1))) C)
    * Ideal.rsqrt (Ideal.div (Z + ∑ n : Fin 100000,
        (o (ix2 n (i 1)) - Ideal.div (Z + ∑ n' : Fin 100000, o (ix2 n' (i 1))) C)
          * (o (ix2 n (i 1)) - Ideal.div (Z + ∑ n' : Fin 100000, o (ix2 n' (i 1))) C)) C + E)
    + b (ix1 (i 1))

/-- The kernel program's mean row: the column sums over 100000. -/
def kerMu (s : Mat 1 128) : Mat 1 128 := fun j => Ideal.div (s j) C

/-- The kernel program's inverse deviation row: `rsqrt (Q / 100000 − μ · μ + offset)`. -/
def kerInv (s ss : Mat 1 128) : Mat 1 128 := fun j =>
  Ideal.rsqrt (Ideal.div (ss j) C - kerMu s j * kerMu s j + E)

section Column
variable (r : Fin 100000 → ℝ)

theorem mean_coe : Ideal.div (∑ n, (r n : EReal)) C = (((∑ n, r n) / 100000 : ℝ) : EReal) := by
  rw [coe_sum, C_eq, div_coe' _ _ (by norm_num)]

theorem mean_coe' : Ideal.div (Z + ∑ n, (r n : EReal)) C = (((∑ n, r n) / 100000 : ℝ) : EReal) := by
  rw [Z_eq, zero_add, mean_coe]

theorem var_ref_coe : Ideal.div (Z + ∑ n, ((r n : EReal) - (((∑ k, r k) / 100000 : ℝ) : EReal))
      * ((r n : EReal) - (((∑ k, r k) / 100000 : ℝ) : EReal))) C
    = (((∑ n, (r n - (∑ k, r k) / 100000) * (r n - (∑ k, r k) / 100000)) / 100000 : ℝ) : EReal) := by
  have e : ∀ n, ((r n : EReal) - (((∑ k, r k) / 100000 : ℝ) : EReal)) * ((r n : EReal) - (((∑ k, r k) / 100000 : ℝ) : EReal))
      = (((r n - (∑ k, r k) / 100000) * (r n - (∑ k, r k) / 100000) : ℝ) : EReal) := fun n => by
    rw [coe_sub, coe_mul]
  simp_rw [e]
  rw [Z_eq, zero_add, coe_sum, C_eq, div_coe' _ _ (by norm_num)]

theorem var_ker_coe : Ideal.div (∑ n, (r n : EReal) * (r n : EReal)) C
      - (((∑ k, r k) / 100000 : ℝ) : EReal) * (((∑ k, r k) / 100000 : ℝ) : EReal)
    = (((∑ n, r n * r n) / 100000 - (∑ k, r k) / 100000 * ((∑ k, r k) / 100000) : ℝ) : EReal) := by
  have e : ∀ n, (r n : EReal) * (r n : EReal) = ((r n * r n : ℝ) : EReal) := fun n => coe_mul _ _
  simp_rw [e]
  rw [coe_sum, C_eq, div_coe' _ _ (by norm_num), coe_mul, coe_sub]

end Column

/-! ## The two normalisations of a finite table agree -/

/-- On a table of real numbers the kernel program's normalisation — mean and inverse deviation rows formed from the
    column sums and the column sums of squares — is the reference's. -/
theorem bridge (o : Mat 100000 128) (ho : Finite o) (g b : (⟨1, ![128]⟩ : Shape).Idx → EReal) :
    bn o (kerMu (colSum o)) (kerInv (colSum o) (colSumSq o)) (fun j => g (ix1 (j 1))) (fun j => b (ix1 (j 1)))
      = refBn o g b := by
  funext i
  have ho' : ∀ i, ∃ v : ℝ, o i = (v : EReal) := ho
  choose r hr using ho'
  unfold bn refBn kerInv kerMu colSum colSumSq
  dsimp only
  simp_rw [hr]
  rw [mean_coe', mean_coe, var_ref_coe, var_ker_coe, var_identity]

/-- The reference's normalisation of a finite table with finite gain and offset is finite: the variance is a
    nonnegative real, so the reciprocal square root is taken at a positive real. -/
theorem refBn_finite (o : Mat 100000 128) (ho : Finite o) (g b : (⟨1, ![128]⟩ : Shape).Idx → EReal)
    (hg : Finite g) (hb : Finite b) : Finite (refBn o g b) := by
  intro i
  have ho' : ∀ i, ∃ v : ℝ, o i = (v : EReal) := ho
  choose r hr using ho'
  obtain ⟨e, he, hE⟩ := ofBits_eps
  unfold refBn
  simp_rw [hr]
  rw [mean_coe', var_ref_coe]
  have hpos : 0 < (∑ n, (r (ix2 n (i 1)) - (∑ k, r (ix2 k (i 1))) / 100000) * (r (ix2 n (i 1)) - (∑ k, r (ix2 k (i 1))) / 100000)) / 100000 + e :=
    add_pos_of_nonneg_of_pos (var_nonneg _ _) he
  show IsReal (_ * _ * Ideal.rsqrt (_ + Ideal.ofBits .f32 0x3727C5AC#32) + _)
  rw [hE, coe_add, rsqrt_coe _ hpos]
  exact (((hg _).mul (⟨_, coe_sub _ _⟩)).mul ⟨_, rfl⟩).add (hb _)

end Cert.LayerMath

end
-- ==== Proof.RefRead1.lean ====
/-
  The reference's first layer, read index by index.

  Its activation is max (h·Ws + agg_in·Wi + agg_out·Wo) 0 with each product a sum over the shared axis of 64, and its
  output is that activation normalised by its own column statistics: the reference forms the column mean as zero plus
  the column's sum over 100000, the variance as zero plus the sum of squared deviations over 100000, and rescales.
  The two aggregated tables are scatter-adds of gathered rows of the layer's input table, hence finite when it is.
-/
import proofs.«136260_j12601434046916_1_alg».proof.Proof.RefReadP
import proofs.«136260_j12601434046916_1_alg».proof.Proof.LayerMath

noncomputable section

open scoped BigOperators

namespace Cert.ReferenceIdeal.Layers

open Cert.ReferenceIdeal Cert.ReferenceIdeal.Gen Cert.ReferenceIdeal.ReadP Idealize.ShloMosaic Idealize.ShloMosaic.ValueIdx
  Cert.LayerSpec Cert.LayerMath Cert.ScatterGather

variable (x0 : (⟨S100000x64, .f32⟩ : BufTy).Contents (Elt Ideal)) (x1 : (⟨S2x1600000, .i32⟩ : BufTy).Contents (Elt Ideal))
  (x3 x4 x5 : (⟨S64x128, .f32⟩ : BufTy).Contents (Elt Ideal)) (x6 x7 : (⟨S128, .f32⟩ : BufTy).Contents (Elt Ideal))

/-- The first layer's activation is the specification's, of the node table, its two aggregations and the weights: each
    of the three products is read as the sum over the shared axis of 64, the two sums and the maximum with the zero
    word entry by entry. -/
theorem act1 : val_main_v29 (F := Ideal) x0 x1 x3 x4 x5
    = act (D := 64) x0 (val_main_v13 (F := Ideal) x0 x1) (val_main_v23 (F := Ideal) x0 x1) x3 x4 x5 := by
  funext i
  have hl24 : ∀ k, lidx_main_v24 i k = ix2 (n0 := 100000) (n1 := 64) (i 0) k := fun k => funext fun a => Fin.ext (by match a with | ⟨0, _⟩ => rfl | ⟨1, _⟩ => rfl)
  have hr24 : ∀ k, ridx_main_v24 i k = ix2 (n0 := 64) (n1 := 128) k (i 1) := fun k => funext fun a => Fin.ext (by match a with | ⟨0, _⟩ => rfl | ⟨1, _⟩ => rfl)
  have hl25 : ∀ k, lidx_main_v25 i k = ix2 (n0 := 100000) (n1 := 64) (i 0) k := fun k => funext fun a => Fin.ext (by match a with | ⟨0, _⟩ => rfl | ⟨1, _⟩ => rfl)
  have hr25 : ∀ k, ridx_main_v25 i k = ix2 (n0 := 64) (n1 := 128) k (i 1) := fun k => funext fun a => Fin.ext (by match a with | ⟨0, _⟩ => rfl | ⟨1, _⟩ => rfl)
  have hl27 : ∀ k, lidx_main_v27 i k = ix2 (n0 := 100000) (n1 := 64) (i 0) k := fun k => funext fun a => Fin.ext (by match a with | ⟨0, _⟩ => rfl | ⟨1, _⟩ => rfl)
  have hr27 : ∀ k, ridx_main_v27 i k = ix2 (n0 := 64) (n1 := 128) k (i 1) := fun k => funext fun a => Fin.ext (by match a with | ⟨0, _⟩ => rfl | ⟨1, _⟩ => rfl)
  rw [val_main_v29_apply, val_main_v28_apply, val_main_v26_apply, val_main_v24_apply, val_main_v25_apply, val_main_v27_apply]
  simp only [hl24, hr24, hl25, hr25, hl27, hr27]
  rfl

/-- The column mean the reference forms: zero plus the column's sum over the 100000 rows, over the row count. -/
theorem mean1 (j : S128.Idx) : val_main_v32 (F := Ideal) x0 x1 x3 x4 x5 j
    = Ideal.div (Z + ∑ n : Fin 100000, val_main_v29 (F := Ideal) x0 x1 x3 x4 x5 (ix2 (n0 := 100000) (n1 := 128) n (j 0))) C := by
  have e30 : ∀ k, idx_main_v30 j k = ix2 (n0 := 100000) (n1 := 128) k (j 0) := fun k => funext fun a => Fin.ext (by match a with | ⟨0, _⟩ => rfl | ⟨1, _⟩ => rfl)
  rw [val_main_v32_apply, val_main_v30_apply, val_main_v31_apply, val_main_cst_4_apply, val_main_cst_5_apply]
  simp only [e30]
  rfl

/-- The column variance the reference forms: zero plus the sum over the rows of the squared deviation from the column
    mean, over the row count. -/
theorem var1 (j : S128.Idx) : val_main_v39 (F := Ideal) x0 x1 x3 x4 x5 j
    = Ideal.div (Z + ∑ n : Fin 100000,
        (val_main_v29 (F := Ideal) x0 x1 x3 x4 x5 (ix2 (n0 := 100000) (n1 := 128) n (j 0)) - val_main_v32 (F := Ideal) x0 x1 x3 x4 x5 j)
          * (val_main_v29 (F := Ideal) x0 x1 x3 x4 x5 (ix2 (n0 := 100000) (n1 := 128) n (j 0)) - val_main_v32 (F := Ideal) x0 x1 x3 x4 x5 j)) C := by
  have e37 : ∀ k, idx_main_v37 j k = ix2 (n0 := 100000) (n1 := 128) k (j 0) := fun k => funext fun a => Fin.ext (by match a with | ⟨0, _⟩ => rfl | ⟨1, _⟩ => rfl)
  have e33 : ∀ k : Fin 100000, idx_main_v33 (idx_main_v34 (ix2 (n0 := 100000) (n1 := 128) k (j 0))) = j := fun k => funext fun a => Fin.ext (by match a with | ⟨0, _⟩ => rfl)
  have e33' : ∀ k : Fin 100000, idx_main_v33 (idx_main_v34 (idx_main_v37 j k)) = j := fun k => funext fun a => Fin.ext (by match a with | ⟨0, _⟩ => rfl)
  rw [val_main_v39_apply, val_main_v37_apply, val_main_v38_apply, val_main_cst_6_apply, val_main_cst_7_apply]
  simp only [val_main_v36_apply, val_main_v35_apply, val_main_v34_apply, val_main_v33_apply, e33', e37, e33]
  rfl

/-- The first layer's output is the reference's normalisation of its activation: entry (n, j) is the gain of column j
    times the deviation from the column mean, times the reciprocal square root of the column variance plus the offset
    word, plus the offset of column j. -/
theorem bn1 : val_main_v54 (F := Ideal) x0 x1 x3 x4 x5 x6 x7 = refBn (val_main_v29 (F := Ideal) x0 x1 x3 x4 x5) x6 x7 := by
  funext i
  have e43 : idx_main_v43 (idx_main_v44 i) = ix1 (n := 128) (i 1) := funext fun a => Fin.ext (by match a with | ⟨0, _⟩ => rfl)
  have e52 : idx_main_v52 (idx_main_v53 i) = ix1 (n := 128) (i 1) := funext fun a => Fin.ext (by match a with | ⟨0, _⟩ => rfl)
  have e40 : idx_main_v40 (idx_main_v41 i) = ix1 (n := 128) (i 1) := funext fun a => Fin.ext (by match a with | ⟨0, _⟩ => rfl)
  have e49 : idx_main_v49 (idx_main_v50 i) = ix1 (n := 128) (i 1) := funext fun a => Fin.ext (by match a with | ⟨0, _⟩ => rfl)
  rw [val_main_v54_apply, val_main_v51_apply, val_main_v45_apply, val_main_v44_apply, val_main_v43_apply, val_main_v42_apply, val_main_v41_apply,
    val_main_v40_apply, val_main_v50_apply, val_main_v49_apply, val_main_v48_apply, val_main_v47_apply, val_main_v46_apply, val_main_cst_8_apply,
    val_main_v53_apply, val_main_v52_apply, e43, e52, e40, e49, var1, mean1]
  rfl

/-- The two aggregations of a finite table are finite: each is a scatter-add, into the zero table, of rows gathered
    from the table, so each entry is zero plus a finite sum of entries of the table. -/
theorem agg1 (hx : Finite x0) : Finite (val_main_v13 (F := Ideal) x0 x1) ∧ Finite (val_main_v23 (F := Ideal) x0 x1) := by
  have hz1 : Finite (val_main_v11 (F := Ideal)) := fun i =>
    ⟨0, by rw [val_main_v11_apply, val_main_cst_apply]; exact Ideal.ofBits_zero_f32⟩
  have hg1 : Finite (Host.gather (rowGather 100000 1600000 64 gather_S100000x64_S1600000x1_S1600000x64_1_0_n_n_0_1_164_wf) x0 (val_main_v9 (F := Ideal) x1)) :=
    gather_finite (by decide) gather_S100000x64_S1600000x1_S1600000x64_1_0_n_n_0_1_164_wf x0 hx (val_main_v9 (F := Ideal) x1)
  have hs1 : Finite (Ideal.hostScatterAdd (rowScatter 100000 1600000 64 scatter_S100000x64_S1600000x1_S1600000x64_1_0_0_1_wf) (val_main_v11 (F := Ideal))
      (val_main_v12 (F := Ideal) x1) (Host.gather (rowGather 100000 1600000 64 gather_S100000x64_S1600000x1_S1600000x64_1_0_n_n_0_1_164_wf) x0 (val_main_v9 (F := Ideal) x1))) :=
    scatter_finite scatter_S100000x64_S1600000x1_S1600000x64_1_0_0_1_wf _ _ hz1 hg1 _
  have hz2 : Finite (val_main_v21 (F := Ideal)) := fun i =>
    ⟨0, by rw [val_main_v21_apply, val_main_cst_3_apply]; exact Ideal.ofBits_zero_f32⟩
  have hg2 : Finite (Host.gather (rowGather 100000 1600000 64 gather_S100000x64_S1600000x1_S1600000x64_1_0_n_n_0_1_164_wf) x0 (val_main_v19 (F := Ideal) x1)) :=
    gather_finite (by decide) gather_S100000x64_S1600000x1_S1600000x64_1_0_n_n_0_1_164_wf x0 hx (val_main_v19 (F := Ideal) x1)
  have hs2 : Finite (Ideal.hostScatterAdd (rowScatter 100000 1600000 64 scatter_S100000x64_S1600000x1_S1600000x64_1_0_0_1_wf) (val_main_v21 (F := Ideal))
      (val_main_v22 (F := Ideal) x1) (Host.gather (rowGather 100000 1600000 64 gather_S100000x64_S1600000x1_S1600000x64_1_0_n_n_0_1_164_wf) x0 (val_main_v19 (F := Ideal) x1))) :=
    scatter_finite scatter_S100000x64_S1600000x1_S1600000x64_1_0_0_1_wf _ _ hz2 hg2 _
  exact ⟨hs1, hs2⟩

/-- The first layer's activation of finite tables is finite: sums of products of reals and a maximum with zero. -/
theorem finAct1 (hh : Finite x0) (hs : Finite x3) (hi : Finite x4) (ho : Finite x5) :
    Finite (val_main_v29 (F := Ideal) x0 x1 x3 x4 x5) := by
  have ha := agg1 x0 x1 hh
  rw [act1]
  exact act_finite _ _ _ _ _ _ hh ha.1 ha.2 hs hi ho

/-- The first layer's output on finite tables, gain and offset is finite: the variance is a nonnegative real, so the
    reciprocal square root is taken at a positive real. -/
theorem finOut1 (hh : Finite x0) (hs : Finite x3) (hi : Finite x4) (ho : Finite x5)
    (hg : Finite x6) (hb : Finite x7) : Finite (val_main_v54 (F := Ideal) x0 x1 x3 x4 x5 x6 x7) := by
  rw [bn1]
  exact refBn_finite _ (finAct1 x0 x1 x3 x4 x5 hh hs hi ho) _ _ hg hb

end Cert.ReferenceIdeal.Layers

end
-- ==== Proof.RefRead2.lean ====
/-
  The reference's second layer, read index by index.

  Its activation is max (h·Ws + agg_in·Wi + agg_out·Wo) 0 with each product a sum over the shared axis of 128, and its
  output is that activation normalised by its own column statistics: the reference forms the column mean as zero plus
  the column's sum over 100000, the variance as zero plus the sum of squared deviations over 100000, and rescales.
  The two aggregated tables are scatter-adds of gathered rows of the layer's input table, hence finite when it is.
-/
import proofs.«136260_j12601434046916_1_alg».proof.Proof.RefReadP
import proofs.«136260_j12601434046916_1_alg».proof.Proof.LayerMath

noncomputable section

open scoped BigOperators

namespace Cert.ReferenceIdeal.Layers

open Cert.ReferenceIdeal Cert.ReferenceIdeal.Gen Cert.ReferenceIdeal.ReadP Idealize.ShloMosaic Idealize.ShloMosaic.ValueIdx
  Cert.LayerSpec Cert.LayerMath Cert.ScatterGather

variable (x0 : (⟨S100000x64, .f32⟩ : BufTy).Contents (Elt Ideal)) (x1 : (⟨S2x1600000, .i32⟩ : BufTy).Contents (Elt Ideal))
  (x3 x4 x5 : (⟨S64x128, .f32⟩ : BufTy).Contents (Elt Ideal)) (x6 x7 : (⟨S128, .f32⟩ : BufTy).Contents (Elt Ideal))
  (x8 x9 x10 : (⟨S128x128, .f32⟩ : BufTy).Contents (Elt Ideal)) (x11 x12 : (⟨S128, .f32⟩ : BufTy).Contents (Elt Ideal))

/-- The second layer's activation is the specification's, of the first layer's output, its two aggregations and the weights: each
    of the three products is read as the sum over the shared axis of 128, the two sums and the maximum with the zero
    word entry by entry. -/
theorem act2 : val_main_v80 (F := Ideal) x0 x1 x3 x4 x5 x6 x7 x8 x9 x10
    = act (D := 128) (val_main_v54 (F := Ideal) x0 x1 x3 x4 x5 x6 x7) (val_main_v64 (F := Ideal) x0 x1 x3 x4 x5 x6 x7) (val_main_v74 (F := Ideal) x0 x1 x3 x4 x5 x6 x7) x8 x9 x10 := by
  funext i
  have hl24 : ∀ k, lidx_main_v75 i k = ix2 (n0 := 100000) (n1 := 128) (i 0) k := fun k => funext fun a => Fin.ext (by match a with | ⟨0, _⟩ => rfl | ⟨1, _⟩ => rfl)
  have hr24 : ∀ k, ridx_main_v75 i k = ix2 (n0 := 128) (n1 := 128) k (i 1) := fun k => funext fun a => Fin.ext (by match a with | ⟨0, _⟩ => rfl | ⟨1, _⟩ => rfl)
  have hl25 : ∀ k, lidx_main_v76 i k = ix2 (n0 := 100000) (n1 := 128) (i 0) k := fun k => funext fun a => Fin.ext (by match a with | ⟨0, _⟩ => rfl | ⟨1, _⟩ => rfl)
  have hr25 : ∀ k, ridx_main_v76 i k = ix2 (n0 := 128) (n1 := 128) k (i 1) := fun k => funext fun a => Fin.ext (by match a with | ⟨0, _⟩ => rfl | ⟨1, _⟩ => rfl)
  have hl27 : ∀ k, lidx_main_v78 i k = ix2 (n0 := 100000) (n1 := 128) (i 0) k := fun k => funext fun a => Fin.ext (by match a with | ⟨0, _⟩ => rfl | ⟨1, _⟩ => rfl)
  have hr27 : ∀ k, ridx_main_v78 i k = ix2 (n0 := 128) (n1 := 128) k (i 1) := fun k => funext fun a => Fin.ext (by match a with | ⟨0, _⟩ => rfl | ⟨1, _⟩ => rfl)
  rw [val_main_v80_apply, val_main_v79_apply, val_main_v77_apply, val_main_v75_apply, val_main_v76_apply, val_main_v78_apply]
  simp only [hl24, hr24, hl25, hr25, hl27, hr27]
  rfl

/-- The column mean the reference forms: zero plus the column's sum over the 100000 rows, over the row count. -/
theorem mean2 (j : S128.Idx) : val_main_v83 (F := Ideal) x0 x1 x3 x4 x5 x6 x7 x8 x9 x10 j
    = Ideal.div (Z + ∑ n : Fin 100000, val_main_v80 (F := Ideal) x0 x1 x3 x4 x5 x6 x7 x8 x9 x10 (ix2 (n0 := 100000) (n1 := 128) n (j 0))) C := by
  have e30 : ∀ k, idx_main_v81 j k = ix2 (n0 := 100000) (n1 := 128) k (j 0) := fun k => funext fun a => Fin.ext (by match a with | ⟨0, _⟩ => rfl | ⟨1, _⟩ => rfl)
  rw [val_main_v83_apply, val_main_v81_apply, val_main_v82_apply, val_main_cst_15_apply, val_main_cst_16_apply]
  simp only [e30]
  rfl

/-- The column variance the reference forms: zero plus the sum over the rows of the squared deviation from the column
    mean, over the row count. -/
theorem var2 (j : S128.Idx) : val_main_v90 (F := Ideal) x0 x1 x3 x4 x5 x6 x7 x8 x9 x10 j
    = Ideal.div (Z + ∑ n : Fin 100000,
        (val_main_v80 (F := Ideal) x0 x1 x3 x4 x5 x6 x7 x8 x9 x10 (ix2 (n0 := 100000) (n1 := 128) n (j 0)) - val_main_v83 (F := Ideal) x0 x1 x3 x4 x5 x6 x7 x8 x9 x10 j)
          * (val_main_v80 (F := Ideal) x0 x1 x3 x4 x5 x6 x7 x8 x9 x10 (ix2 (n0 := 100000) (n1 := 128) n (j 0)) - val_main_v83 (F := Ideal) x0 x1 x3 x4 x5 x6 x7 x8 x9 x10 j)) C := by
  have e37 : ∀ k, idx_main_v88 j k = ix2 (n0 := 100000) (n1 := 128) k (j 0) := fun k => funext fun a => Fin.ext (by match a with | ⟨0, _⟩ => rfl | ⟨1, _⟩ => rfl)
  have e33 : ∀ k : Fin 100000, idx_main_v84 (idx_main_v85 (ix2 (n0 := 100000) (n1 := 128) k (j 0))) = j := fun k => funext fun a => Fin.ext (by match a with | ⟨0, _⟩ => rfl)
  have e33' : ∀ k : Fin 100000, idx_main_v84 (idx_main_v85 (idx_main_v88 j k)) = j := fun k => funext fun a => Fin.ext (by match a with | ⟨0, _⟩ => rfl)
  rw [val_main_v90_apply, val_main_v88_apply, val_main_v89_apply, val_main_cst_17_apply, val_main_cst_18_apply]
  simp only [val_main_v87_apply, val_main_v86_apply, val_main_v85_apply, val_main_v84_apply, e33', e37, e33]
  rfl

/-- The second layer's output is the reference's normalisation of its activation: entry (n, j) is the gain of column j
    times the deviation from the column mean, times the reciprocal square root of the column variance plus the offset
    word, plus the offset of column j. -/
theorem bn2 : val_main_v105 (F := Ideal) x0 x1 x3 x4 x5 x6 x7 x8 x9 x10 x11 x12 = refBn (val_main_v80 (F := Ideal) x0 x1 x3 x4 x5 x6 x7 x8 x9 x10) x11 x12 := by
  funext i
  have e43 : idx_main_v94 (idx_main_v95 i) = ix1 (n := 128) (i 1) := funext fun a => Fin.ext (by match a with | ⟨0, _⟩ => rfl)
  have e52 : idx_main_v103 (idx_main_v104 i) = ix1 (n := 128) (i 1) := funext fun a => Fin.ext (by match a with | ⟨0, _⟩ => rfl)
  have e40 : idx_main_v91 (idx_main_v92 i) = ix1 (n := 128) (i 1) := funext fun a => Fin.ext (by match a with | ⟨0, _⟩ => rfl)
  have e49 : idx_main_v100 (idx_main_v101 i) = ix1 (n := 128) (i 1) := funext fun a => Fin.ext (by match a with | ⟨0, _⟩ => rfl)
  rw [val_main_v105_apply, val_main_v102_apply, val_main_v96_apply, val_main_v95_apply, val_main_v94_apply, val_main_v93_apply, val_main_v92_apply,
    val_main_v91_apply, val_main_v101_apply, val_main_v100_apply, val_main_v99_apply, val_main_v98_apply, val_main_v97_apply, val_main_cst_19_apply,
    val_main_v104_apply, val_main_v103_apply, e43, e52, e40, e49, var2, mean2]
  rfl

/-- The two aggregations of a finite table are finite: each is a scatter-add, into the zero table, of rows gathered
    from the table, so each entry is zero plus a finite sum of entries of the table. -/
theorem agg2 (hx : Finite (val_main_v54 (F := Ideal) x0 x1 x3 x4 x5 x6 x7)) : Finite (val_main_v64 (F := Ideal) x0 x1 x3 x4 x5 x6 x7) ∧ Finite (val_main_v74 (F := Ideal) x0 x1 x3 x4 x5 x6 x7) := by
  have hz1 : Finite (val_main_v62 (F := Ideal)) := fun i =>
    ⟨0, by rw [val_main_v62_apply, val_main_cst_11_apply]; exact Ideal.ofBits_zero_f32⟩
  have hg1 : Finite (Host.gather (rowGather 100000 1600000 128 gather_S100000x128_S1600000x1_S1600000x128_1_0_n_n_0_1_1128_wf) (val_main_v54 (F := Ideal) x0 x1 x3 x4 x5 x6 x7) (val_main_v60 (F := Ideal) x1)) :=
    gather_finite (by decide) gather_S100000x128_S1600000x1_S1600000x128_1_0_n_n_0_1_1128_wf (val_main_v54 (F := Ideal) x0 x1 x3 x4 x5 x6 x7) hx (val_main_v60 (F := Ideal) x1)
  have hs1 : Finite (Ideal.hostScatterAdd (rowScatter 100000 1600000 128 scatter_S100000x128_S1600000x1_S1600000x128_1_0_0_1_wf) (val_main_v62 (F := Ideal))
      (val_main_v63 (F := Ideal) x1) (Host.gather (rowGather 100000 1600000 128 gather_S100000x128_S1600000x1_S1600000x128_1_0_n_n_0_1_1128_wf) (val_main_v54 (F := Ideal) x0 x1 x3 x4 x5 x6 x7) (val_main_v60 (F := Ideal) x1))) :=
    scatter_finite scatter_S100000x128_S1600000x1_S1600000x128_1_0_0_1_wf _ _ hz1 hg1 _
  have hz2 : Finite (val_main_v72 (F := Ideal)) := fun i =>
    ⟨0, by rw [val_main_v72_apply, val_main_cst_14_apply]; exact Ideal.ofBits_zero_f32⟩
  have hg2 : Finite (Host.gather (rowGather 100000 1600000 128 gather_S100000x128_S1600000x1_S1600000x128_1_0_n_n_0_1_1128_wf) (val_main_v54 (F := Ideal) x0 x1 x3 x4 x5 x6 x7) (val_main_v70 (F := Ideal) x1)) :=
    gather_finite (by decide) gather_S100000x128_S1600000x1_S1600000x128_1_0_n_n_0_1_1128_wf (val_main_v54 (F := Ideal) x0 x1 x3 x4 x5 x6 x7) hx (val_main_v70 (F := Ideal) x1)
  have hs2 : Finite (Ideal.hostScatterAdd (rowScatter 100000 1600000 128 scatter_S100000x128_S1600000x1_S1600000x128_1_0_0_1_wf) (val_main_v72 (F := Ideal))
      (val_main_v73 (F := Ideal) x1) (Host.gather (rowGather 100000 1600000 128 gather_S100000x128_S1600000x1_S1600000x128_1_0_n_n_0_1_1128_wf) (val_main_v54 (F := Ideal) x0 x1 x3 x4 x5 x6 x7) (val_main_v70 (F := Ideal) x1))) :=
    scatter_finite scatter_S100000x128_S1600000x1_S1600000x128_1_0_0_1_wf _ _ hz2 hg2 _
  exact ⟨hs1, hs2⟩

/-- The second layer's activation of finite tables is finite: sums of products of reals and a maximum with zero. -/
theorem finAct2 (hh : Finite (val_main_v54 (F := Ideal) x0 x1 x3 x4 x5 x6 x7)) (hs : Finite x8) (hi : Finite x9) (ho : Finite x10) :
    Finite (val_main_v80 (F := Ideal) x0 x1 x3 x4 x5 x6 x7 x8 x9 x10) := by
  have ha := agg2 x0 x1 x3 x4 x5 x6 x7 hh
  rw [act2]
  exact act_finite _ _ _ _ _ _ hh ha.1 ha.2 hs hi ho

/-- The second layer's output on finite tables, gain and offset is finite: the variance is a nonnegative real, so the
    reciprocal square root is taken at a positive real. -/
theorem finOut2 (hh : Finite (val_main_v54 (F := Ideal) x0 x1 x3 x4 x5 x6 x7)) (hs : Finite x8) (hi : Finite x9) (ho : Finite x10)
    (hg : Finite x11) (hb : Finite x12) : Finite (val_main_v105 (F := Ideal) x0 x1 x3 x4 x5 x6 x7 x8 x9 x10 x11 x12) := by
  rw [bn2]
  exact refBn_finite _ (finAct2 x0 x1 x3 x4 x5 x6 x7 x8 x9 x10 hh hs hi ho) _ _ hg hb

end Cert.ReferenceIdeal.Layers

end
-- ==== Proof.RefRead3.lean ====
/-
  The reference's third layer, read index by index.

  Its activation is max (h·Ws + agg_in·Wi + agg_out·Wo) 0 with each product a sum over the shared axis of 128, and its
  output is that activation normalised by its own column statistics: the reference forms the column mean as zero plus
  the column's sum over 100000, the variance as zero plus the sum of squared deviations over 100000, and rescales.
  The two aggregated tables are scatter-adds of gathered rows of the layer's input table, hence finite when it is.
-/
import proofs.«136260_j12601434046916_1_alg».proof.Proof.RefReadP
import proofs.«136260_j12601434046916_1_alg».proof.Proof.LayerMath

noncomputable section

open scoped BigOperators

namespace Cert.ReferenceIdeal.Layers

open Cert.ReferenceIdeal Cert.ReferenceIdeal.Gen Cert.ReferenceIdeal.ReadP Idealize.ShloMosaic Idealize.ShloMosaic.ValueIdx
  Cert.LayerSpec Cert.LayerMath Cert.ScatterGather

variable (x0 : (⟨S100000x64, .f32⟩ : BufTy).Contents (Elt Ideal)) (x1 : (⟨S2x1600000, .i32⟩ : BufTy).Contents (Elt Ideal))
  (x3 x4 x5 : (⟨S64x128, .f32⟩ : BufTy).Contents (Elt Ideal)) (x6 x7 : (⟨S128, .f32⟩ : BufTy).Contents (Elt Ideal))
  (x8 x9 x10 : (⟨S128x128, .f32⟩ : BufTy).Contents (Elt Ideal)) (x11 x12 : (⟨S128, .f32⟩ : BufTy).Contents (Elt Ideal))
  (x13 x14 x15 : (⟨S128x128, .f32⟩ : BufTy).Contents (Elt Ideal)) (x16 x17 : (⟨S128, .f32⟩ : BufTy).Contents (Elt Ideal))

/-- The third layer's activation is the specification's, of the second layer's output, its two aggregations and the weights: each
    of the three products is read as the sum over the shared axis of 128, the two sums and the maximum with the zero
    word entry by entry. -/
theorem act3 : val_main_v131 (F := Ideal) x0 x1 x3 x4 x5 x6 x7 x8 x9 x10 x11 x12 x13 x14 x15
    = act (D := 128) (val_main_v105 (F := Ideal) x0 x1 x3 x4 x5 x6 x7 x8 x9 x10 x11 x12) (val_main_v115 (F := Ideal) x0 x1 x3 x4 x5 x6 x7 x8 x9 x10 x11 x12) (val_main_v125 (F := Ideal) x0 x1 x3 x4 x5 x6 x7 x8 x9 x10 x11 x12) x13 x14 x15 := by
  funext i
  have hl24 : ∀ k, lidx_main_v126 i k = ix2 (n0 := 100000) (n1 := 128) (i 0) k := fun k => funext fun a => Fin.ext (by match a with | ⟨0, _⟩ => rfl | ⟨1, _⟩ => rfl)
  have hr24 : ∀ k, ridx_main_v126 i k = ix2 (n0 := 128) (n1 := 128) k (i 1) := fun k => funext fun a => Fin.ext (by match a with | ⟨0, _⟩ => rfl | ⟨1, _⟩ => rfl)
  have hl25 : ∀ k, lidx_main_v127 i k = ix2 (n0 := 100000) (n1 := 128) (i 0) k := fun k => funext fun a => Fin.ext (by match a with | ⟨0, _⟩ => rfl | ⟨1, _⟩ => rfl)
  have hr25 : ∀ k, ridx_main_v127 i k = ix2 (n0 := 128) (n1 := 128) k (i 1) := fun k => funext fun a => Fin.ext (by match a with | ⟨0, _⟩ => rfl | ⟨1, _⟩ => rfl)
  have hl27 : ∀ k, lidx_main_v129 i k = ix2 (n0 := 100000) (n1 := 128) (i 0) k := fun k => funext fun a => Fin.ext (by match a with | ⟨0, _⟩ => rfl | ⟨1, _⟩ => rfl)
  have hr27 : ∀ k, ridx_main_v129 i k = ix2 (n0 := 128) (n1 := 128) k (i 1) := fun k => funext fun a => Fin.ext (by match a with | ⟨0, _⟩ => rfl | ⟨1, _⟩ => rfl)
  rw [val_main_v131_apply, val_main_v130_apply, val_main_v128_apply, val_main_v126_apply, val_main_v127_apply, val_main_v129_apply]
  simp only [hl24, hr24, hl25, hr25, hl27, hr27]
  rfl

/-- The column mean the reference forms: zero plus the column's sum over the 100000 rows, over the row count. -/
theorem mean3 (j : S128.Idx) : val_main_v134 (F := Ideal) x0 x1 x3 x4 x5 x6 x7 x8 x9 x10 x11 x12 x13 x14 x15 j
    = Ideal.div (Z + ∑ n : Fin 100000, val_main_v131 (F := Ideal) x0 x1 x3 x4 x5 x6 x7 x8 x9 x10 x11 x12 x13 x14 x15 (ix2 (n0 := 100000) (n1 := 128) n (j 0))) C := by
  have e30 : ∀ k, idx_main_v132 j k = ix2 (n0 := 100000) (n1 := 128) k (j 0) := fun k => funext fun a => Fin.ext (by match a with | ⟨0, _⟩ => rfl | ⟨1, _⟩ => rfl)
  rw [val_main_v134_apply, val_main_v132_apply, val_main_v133_apply, val_main_cst_26_apply, val_main_cst_27_apply]
  simp only [e30]
  rfl

/-- The column variance the reference forms: zero plus the sum over the rows of the squared deviation from the column
    mean, over the row count. -/
theorem var3 (j : S128.Idx) : val_main_v141 (F := Ideal) x0 x1 x3 x4 x5 x6 x7 x8 x9 x10 x11 x12 x13 x14 x15 j
    = Ideal.div (Z + ∑ n : Fin 100000,
        (val_main_v131 (F := Ideal) x0 x1 x3 x4 x5 x6 x7 x8 x9 x10 x11 x12 x13 x14 x15 (ix2 (n0 := 100000) (n1 := 128) n (j 0)) - val_main_v134 (F := Ideal) x0 x1 x3 x4 x5 x6 x7 x8 x9 x10 x11 x12 x13 x14 x15 j)
          * (val_main_v131 (F := Ideal) x0 x1 x3 x4 x5 x6 x7 x8 x9 x10 x11 x12 x13 x14 x15 (ix2 (n0 := 100000) (n1 := 128) n (j 0)) - val_main_v134 (F := Ideal) x0 x1 x3 x4 x5 x6 x7 x8 x9 x10 x11 x12 x13 x14 x15 j)) C := by
  have e37 : ∀ k, idx_main_v139 j k = ix2 (n0 := 100000) (n1 := 128) k (j 0) := fun k => funext fun a => Fin.ext (by match a with | ⟨0, _⟩ => rfl | ⟨1, _⟩ => rfl)
  have e33 : ∀ k : Fin 100000, idx_main_v135 (idx_main_v136 (ix2 (n0 := 100000) (n1 := 128) k (j 0))) = j := fun k => funext fun a => Fin.ext (by match a with | ⟨0, _⟩ => rfl)
  have e33' : ∀ k : Fin 100000, idx_main_v135 (idx_main_v136 (idx_main_v139 j k)) = j := fun k => funext fun a => Fin.ext (by match a with | ⟨0, _⟩ => rfl)
  rw [val_main_v141_apply, val_main_v139_apply, val_main_v140_apply, val_main_cst_28_apply, val_main_cst_29_apply]
  simp only [val_main_v138_apply, val_main_v137_apply, val_main_v136_apply, val_main_v135_apply, e33', e37, e33]
  rfl

/-- The third layer's output is the reference's normalisation of its activation: entry (n, j) is the gain of column j
    times the deviation from the column mean, times the reciprocal square root of the column variance plus the offset
    word, plus the offset of column j. -/
theorem bn3 : val_main_v156 (F := Ideal) x0 x1 x3 x4 x5 x6 x7 x8 x9 x10 x11 x12 x13 x14 x15 x16 x17 = refBn (val_main_v131 (F := Ideal) x0 x1 x3 x4 x5 x6 x7 x8 x9 x10 x11 x12 x13 x14 x15) x16 x17 := by
  funext i
  have e43 : idx_main_v145 (idx_main_v146 i) = ix1 (n := 128) (i 1) := funext fun a => Fin.ext (by match a with | ⟨0, _⟩ => rfl)
  have e52 : idx_main_v154 (idx_main_v155 i) = ix1 (n := 128) (i 1) := funext fun a => Fin.ext (by match a with | ⟨0, _⟩ => rfl)
  have e40 : idx_main_v142 (idx_main_v143 i) = ix1 (n := 128) (i 1) := funext fun a => Fin.ext (by match a with | ⟨0, _⟩ => rfl)
  have e49 : idx_main_v151 (idx_main_v152 i) = ix1 (n := 128) (i 1) := funext fun a => Fin.ext (by match a with | ⟨0, _⟩ => rfl)
  rw [val_main_v156_apply, val_main_v153_apply, val_main_v147_apply, val_main_v146_apply, val_main_v145_apply, val_main_v144_apply, val_main_v143_apply,
    val_main_v142_apply, val_main_v152_apply, val_main_v151_apply, val_main_v150_apply, val_main_v149_apply, val_main_v148_apply, val_main_cst_30_apply,
    val_main_v155_apply, val_main_v154_apply, e43, e52, e40, e49, var3, mean3]
  rfl

/-- The two aggregations of a finite table are finite: each is a scatter-add, into the zero table, of rows gathered
    from the table, so each entry is zero plus a finite sum of entries of the table. -/
theorem agg3 (hx : Finite (val_main_v105 (F := Ideal) x0 x1 x3 x4 x5 x6 x7 x8 x9 x10 x11 x12)) : Finite (val_main_v115 (F := Ideal) x0 x1 x3 x4 x5 x6 x7 x8 x9 x10 x11 x12) ∧ Finite (val_main_v125 (F := Ideal) x0 x1 x3 x4 x5 x6 x7 x8 x9 x10 x11 x12) := by
  have hz1 : Finite (val_main_v113 (F := Ideal)) := fun i =>
    ⟨0, by rw [val_main_v113_apply, val_main_cst_22_apply]; exact Ideal.ofBits_zero_f32⟩
  have hg1 : Finite (Host.gather (rowGather 100000 1600000 128 gather_S100000x128_S1600000x1_S1600000x128_1_0_n_n_0_1_1128_wf) (val_main_v105 (F := Ideal) x0 x1 x3 x4 x5 x6 x7 x8 x9 x10 x11 x12) (val_main_v111 (F := Ideal) x1)) :=
    gather_finite (by decide) gather_S100000x128_S1600000x1_S1600000x128_1_0_n_n_0_1_1128_wf (val_main_v105 (F := Ideal) x0 x1 x3 x4 x5 x6 x7 x8 x9 x10 x11 x12) hx (val_main_v111 (F := Ideal) x1)
  have hs1 : Finite (Ideal.hostScatterAdd (rowScatter 100000 1600000 128 scatter_S100000x128_S1600000x1_S1600000x128_1_0_0_1_wf) (val_main_v113 (F := Ideal))
      (val_main_v114 (F := Ideal) x1) (Host.gather (rowGather 100000 1600000 128 gather_S100000x128_S1600000x1_S1600000x128_1_0_n_n_0_1_1128_wf) (val_main_v105 (F := Ideal) x0 x1 x3 x4 x5 x6 x7 x8 x9 x10 x11 x12) (val_main_v111 (F := Ideal) x1))) :=
    scatter_finite scatter_S100000x128_S1600000x1_S1600000x128_1_0_0_1_wf _ _ hz1 hg1 _
  have hz2 : Finite (val_main_v123 (F := Ideal)) := fun i =>
    ⟨0, by rw [val_main_v123_apply, val_main_cst_25_apply]; exact Ideal.ofBits_zero_f32⟩
  have hg2 : Finite (Host.gather (rowGather 100000 1600000 128 gather_S100000x128_S1600000x1_S1600000x128_1_0_n_n_0_1_1128_wf) (val_main_v105 (F := Ideal) x0 x1 x3 x4 x5 x6 x7 x8 x9 x10 x11 x12) (val_main_v121 (F := Ideal) x1)) :=
    gather_finite (by decide) gather_S100000x128_S1600000x1_S1600000x128_1_0_n_n_0_1_1128_wf (val_main_v105 (F := Ideal) x0 x1 x3 x4 x5 x6 x7 x8 x9 x10 x11 x12) hx (val_main_v121 (F := Ideal) x1)
  have hs2 : Finite (Ideal.hostScatterAdd (rowScatter 100000 1600000 128 scatter_S100000x128_S1600000x1_S1600000x128_1_0_0_1_wf) (val_main_v123 (F := Ideal))
      (val_main_v124 (F := Ideal) x1) (Host.gather (rowGather 100000 1600000 128 gather_S100000x128_S1600000x1_S1600000x128_1_0_n_n_0_1_1128_wf) (val_main_v105 (F := Ideal) x0 x1 x3 x4 x5 x6 x7 x8 x9 x10 x11 x12) (val_main_v121 (F := Ideal) x1))) :=
    scatter_finite scatter_S100000x128_S1600000x1_S1600000x128_1_0_0_1_wf _ _ hz2 hg2 _
  exact ⟨hs1, hs2⟩

/-- The third layer's activation of finite tables is finite: sums of products of reals and a maximum with zero. -/
theorem finAct3 (hh : Finite (val_main_v105 (F := Ideal) x0 x1 x3 x4 x5 x6 x7 x8 x9 x10 x11 x12)) (hs : Finite x13) (hi : Finite x14) (ho : Finite x15) :
    Finite (val_main_v131 (F := Ideal) x0 x1 x3 x4 x5 x6 x7 x8 x9 x10 x11 x12 x13 x14 x15) := by
  have ha := agg3 x0 x1 x3 x4 x5 x6 x7 x8 x9 x10 x11 x12 hh
  rw [act3]
  exact act_finite _ _ _ _ _ _ hh ha.1 ha.2 hs hi ho

/-- The third layer's output on finite tables, gain and offset is finite: the variance is a nonnegative real, so the
    reciprocal square root is taken at a positive real. -/
theorem finOut3 (hh : Finite (val_main_v105 (F := Ideal) x0 x1 x3 x4 x5 x6 x7 x8 x9 x10 x11 x12)) (hs : Finite x13) (hi : Finite x14) (ho : Finite x15)
    (hg : Finite x16) (hb : Finite x17) : Finite (val_main_v156 (F := Ideal) x0 x1 x3 x4 x5 x6 x7 x8 x9 x10 x11 x12 x13 x14 x15 x16 x17) := by
  rw [bn3]
  exact refBn_finite _ (finAct3 x0 x1 x3 x4 x5 x6 x7 x8 x9 x10 x11 x12 x13 x14 x15 hh hs hi ho) _ _ hg hb

end Cert.ReferenceIdeal.Layers

end
-- ==== Proof.KFold.lean ====
/-
  The idealized kernel's boundary contents, identified with the reference's stages.

  Between the kernel regions the program runs the same host operations as the reference — the gathers and
  scatter-adds that aggregate a node table over the edges, the per-column statistics, the final pooling —, so at every
  boundary each buffer a later segment reads is one of the reference's stage functions of the arguments. The regions
  are opened by their value lemmas: a stage-1 region leaves the activation table and its column sums and sums of
  squares, a normalisation region rescales with the mean and inverse-deviation rows the host formed from those sums.
  The one step that is not a rewriting of names is the variance: the kernel program's `Q / n − μ · μ` against the
  reference's mean of squared deviations, equal on finite tables; finiteness is carried from the arguments layer by
  layer.
-/
import proofs.«136260_j12601434046916_1_alg».proof.Proof.KernelRun
import proofs.«136260_j12601434046916_1_alg».proof.Proof.KKeep
import proofs.«136260_j12601434046916_1_alg».proof.Proof.Stage1Value0
import proofs.«136260_j12601434046916_1_alg».proof.Proof.Stage1Value2
import proofs.«136260_j12601434046916_1_alg».proof.Proof.Stage1Value4
import proofs.«136260_j12601434046916_1_alg».proof.Proof.BnValue1
import proofs.«136260_j12601434046916_1_alg».proof.Proof.BnValue3
import proofs.«136260_j12601434046916_1_alg».proof.Proof.BnValue5
import proofs.«136260_j12601434046916_1_alg».proof.Proof.RefRead1
import proofs.«136260_j12601434046916_1_alg».proof.Proof.RefRead2
import proofs.«136260_j12601434046916_1_alg».proof.Proof.RefRead3
import Idealize.ShloMosaic.Lib.StableHlo.Run
import Idealize.ShloMosaic.Lib.Pipeline.Value
import Idealize.ShloMosaic.Lib.ValueLayout

set_option maxRecDepth 16384

noncomputable section

namespace Cert.KernelIdeal.Fold

open Cert.KernelIdeal Cert.KernelIdeal.Gen Cert.KernelIdeal.Keep
open Idealize.ShloMosaic Idealize.ShloMosaic.TcCoe Idealize.SL.Sem Idealize.ShloMosaic.StableHlo Idealize.ShloMosaic.ValueIdx
open Cert.LayerSpec Cert.LayerMath Cert.ReferenceIdeal.ReadP Cert.ReferenceIdeal.Layers

variable (m : (ℓ : Loc nD τ sig) → Buf (Elt Ideal) ℓ) (ρ : Dev nD → PrngReg) (c : Dev nD)

/-- A vector of 128 entries reshaped to one row of 128 reads its entry at the column. -/
theorem row_of_vec (x : S128.Idx → EReal) (h : S128.ShapeCasts S1x128) (j : S1x128.Idx) :
    shapeCast S1x128 x h j = x (ix1 (j 1)) := by
  refine shapeCast_apply x h j (ix1 (j 1)) ?_
  rw [Shape.rowMajor_val_one, Shape.rowMajor_val_two]
  have h0 : (j 0).val < 1 := (j 0).isLt
  show (j 1).val = (j 0).val * 128 + (j 1).val
  omega

/-! ## The edge-endpoint rows, prepared once before the first layer -/

theorem W1_v1 : W1 m ρ c (Proc.devRef .tc main_v1) = (val_main_v1 (F := Ideal) (m ((c : Thread nD τ).loc main_arg1))) := by
  show StableHlo.after hostOps0 (W0 m ρ c) (Proc.devRef .tc main_v1) = _
  after_results_simp <;> rfl

theorem W1_v3 : W1 m ρ c (Proc.devRef .tc main_v3) = (val_main_v3 (F := Ideal) (m ((c : Thread nD τ).loc main_arg1))) := by
  show StableHlo.after hostOps0 (W0 m ρ c) (Proc.devRef .tc main_v3) = _
  after_results_simp <;> rfl

/-! ## Layer 1 -/

/-- The layer's node table at the stage-1 region's entry. -/
theorem L1_h : V1 m ρ c (Pipeline.arrRef spec0 0) = (m ((c : Thread nD τ).loc main_arg0)) := by
  show StableHlo.after hostOps0 (W0 m ρ c) (Proc.devRef .tc main_arg0) = _
  after_results_simp <;> rfl

/-- The aggregation over incoming edges at the region's entry is the reference's. -/
theorem L1_ai : V1 m ρ c (Pipeline.arrRef spec0 1) = (val_main_v13 (F := Ideal) (m ((c : Thread nD τ).loc main_arg0)) (m ((c : Thread nD τ).loc main_arg1))) := by
  show StableHlo.after hostOps0 (W0 m ρ c) (Proc.devRef .tc main_v20) = _
  after_results_simp <;> rfl

/-- The aggregation over outgoing edges at the region's entry is the reference's. -/
theorem L1_ao : V1 m ρ c (Pipeline.arrRef spec0 2) = (val_main_v23 (F := Ideal) (m ((c : Thread nD τ).loc main_arg0)) (m ((c : Thread nD τ).loc main_arg1))) := by
  show StableHlo.after hostOps0 (W0 m ρ c) (Proc.devRef .tc main_v23) = _
  after_results_simp <;> rfl

theorem L1_W0 : V1 m ρ c (Pipeline.arrRef spec0 3) = (m ((c : Thread nD τ).loc main_arg3)) := by
  show StableHlo.after hostOps0 (W0 m ρ c) (Proc.devRef .tc main_arg3) = _
  after_results_simp <;> rfl

theorem L1_W1 : V1 m ρ c (Pipeline.arrRef spec0 4) = (m ((c : Thread nD τ).loc main_arg4)) := by
  show StableHlo.after hostOps0 (W0 m ρ c) (Proc.devRef .tc main_arg4) = _
  after_results_simp <;> rfl

theorem L1_W2 : V1 m ρ c (Pipeline.arrRef spec0 5) = (m ((c : Thread nD τ).loc main_arg5)) := by
  show StableHlo.after hostOps0 (W0 m ρ c) (Proc.devRef .tc main_arg5) = _
  after_results_simp <;> rfl

/-- The stage-1 region leaves the reference's activation table. -/
theorem L1_act : W2 m ρ c (Proc.devRef .tc main_v24_0) = (val_main_v29 (F := Ideal) (m ((c : Thread nD τ).loc main_arg0)) (m ((c : Thread nD τ).loc main_arg1)) (m ((c : Thread nD τ).loc main_arg3)) (m ((c : Thread nD τ).loc main_arg4)) (m ((c : Thread nD τ).loc main_arg5))) :=
  (W2_arr m ρ c 6).trans ((Cert.KernelIdeal.Stage1Value0.act_eq (V1 m ρ) c).trans (by
    rw [L1_h m ρ c, L1_ai m ρ c, L1_ao m ρ c, L1_W0, L1_W1, L1_W2, ← act1]))

/-- … and its column sums … -/
theorem L1_sum : W2 m ρ c (Proc.devRef .tc main_v24_1) = colSum (val_main_v29 (F := Ideal) (m ((c : Thread nD τ).loc main_arg0)) (m ((c : Thread nD τ).loc main_arg1)) (m ((c : Thread nD τ).loc main_arg3)) (m ((c : Thread nD τ).loc main_arg4)) (m ((c : Thread nD τ).loc main_arg5))) :=
  (W2_arr m ρ c 7).trans ((Cert.KernelIdeal.Stage1Value0.sum_eq (V1 m ρ) c).trans (by
    rw [L1_h m ρ c, L1_ai m ρ c, L1_ao m ρ c, L1_W0, L1_W1, L1_W2, ← act1]))

/-- … and its column sums of squares. -/
theorem L1_sumsq : W2 m ρ c (Proc.devRef .tc main_v24_2) = colSumSq (val_main_v29 (F := Ideal) (m ((c : Thread nD τ).loc main_arg0)) (m ((c : Thread nD τ).loc main_arg1)) (m ((c : Thread nD τ).loc main_arg3)) (m ((c : Thread nD τ).loc main_arg4)) (m ((c : Thread nD τ).loc main_arg5))) :=
  (W2_arr m ρ c 8).trans ((Cert.KernelIdeal.Stage1Value0.sumsq_eq (V1 m ρ) c).trans (by
    rw [L1_h m ρ c, L1_ai m ρ c, L1_ao m ρ c, L1_W0, L1_W1, L1_W2, ← act1]))

theorem L1_pre : V3 m ρ c (Pipeline.arrRef spec1 0) = (val_main_v29 (F := Ideal) (m ((c : Thread nD τ).loc main_arg0)) (m ((c : Thread nD τ).loc main_arg1)) (m ((c : Thread nD τ).loc main_arg3)) (m ((c : Thread nD τ).loc main_arg4)) (m ((c : Thread nD τ).loc main_arg5))) := by
  show StableHlo.after hostOps1 (W2 m ρ c) (Proc.devRef .tc main_v24_0) = _
  after_results_simp
  exact L1_act m ρ c

/-- The mean row the host forms is the column sums over the row count. -/
theorem L1_mu : V3 m ρ c (Pipeline.arrRef spec1 1) = kerMu (colSum (val_main_v29 (F := Ideal) (m ((c : Thread nD τ).loc main_arg0)) (m ((c : Thread nD τ).loc main_arg1)) (m ((c : Thread nD τ).loc main_arg3)) (m ((c : Thread nD τ).loc main_arg4)) (m ((c : Thread nD τ).loc main_arg5)))) := by
  show StableHlo.after hostOps1 (W2 m ρ c) (Proc.devRef .tc main_v26) = _
  after_results_simp
  rw [L1_sum m ρ c]
  first | rfl | skip

/-- The inverse-deviation row the host forms. -/
theorem L1_inv : V3 m ρ c (Pipeline.arrRef spec1 2) = kerInv (colSum (val_main_v29 (F := Ideal) (m ((c : Thread nD τ).loc main_arg0)) (m ((c : Thread nD τ).loc main_arg1)) (m ((c : Thread nD τ).loc main_arg3)) (m ((c : Thread nD τ).loc main_arg4)) (m ((c : Thread nD τ).loc main_arg5)))) (colSumSq (val_main_v29 (F := Ideal) (m ((c : Thread nD τ).loc main_arg0)) (m ((c : Thread nD τ).loc main_arg1)) (m ((c : Thread nD τ).loc main_arg3)) (m ((c : Thread nD τ).loc main_arg4)) (m ((c : Thread nD τ).loc main_arg5)))) := by
  show StableHlo.after hostOps1 (W2 m ρ c) (Proc.devRef .tc main_v33) = _
  after_results_simp
  rw [L1_sum m ρ c, L1_sumsq m ρ c]
  first | rfl | skip

theorem L1_g : V3 m ρ c (Pipeline.arrRef spec1 3) = fun j : S1x128.Idx => (m ((c : Thread nD τ).loc main_arg6) : S128.Idx → EReal) (ix1 (j 1)) := by
  show StableHlo.after hostOps1 (W2 m ρ c) (Proc.devRef .tc main_v34) = _
  after_results_simp
  rw [keep_main_arg6_2_0 m ρ c]
  exact funext fun j => row_of_vec _ _ j

theorem L1_b : V3 m ρ c (Pipeline.arrRef spec1 4) = fun j : S1x128.Idx => (m ((c : Thread nD τ).loc main_arg7) : S128.Idx → EReal) (ix1 (j 1)) := by
  show StableHlo.after hostOps1 (W2 m ρ c) (Proc.devRef .tc main_v35) = _
  after_results_simp
  rw [keep_main_arg7_2_0 m ρ c]
  exact funext fun j => row_of_vec _ _ j

/-- The layer's activation is a table of real numbers. -/
theorem L1_act_finite (f0 : Finite (m ((c : Thread nD τ).loc main_arg0))) (f3 : Finite (m ((c : Thread nD τ).loc main_arg3))) (f4 : Finite (m ((c : Thread nD τ).loc main_arg4))) (f5 : Finite (m ((c : Thread nD τ).loc main_arg5))) (f6 : Finite (m ((c : Thread nD τ).loc main_arg6))) (f7 : Finite (m ((c : Thread nD τ).loc main_arg7))) (f8 : Finite (m ((c : Thread nD τ).loc main_arg8))) (f9 : Finite (m ((c : Thread nD τ).loc main_arg9))) (f10 : Finite (m ((c : Thread nD τ).loc main_arg10))) (f11 : Finite (m ((c : Thread nD τ).loc main_arg11))) (f12 : Finite (m ((c : Thread nD τ).loc main_arg12))) (f13 : Finite (m ((c : Thread nD τ).loc main_arg13))) (f14 : Finite (m ((c : Thread nD τ).loc main_arg14))) (f15 : Finite (m ((c : Thread nD τ).loc main_arg15))) (f16 : Finite (m ((c : Thread nD τ).loc main_arg16))) (f17 : Finite (m ((c : Thread nD τ).loc main_arg17))) : Finite (val_main_v29 (F := Ideal) (m ((c : Thread nD τ).loc main_arg0)) (m ((c : Thread nD τ).loc main_arg1)) (m ((c : Thread nD τ).loc main_arg3)) (m ((c : Thread nD τ).loc main_arg4)) (m ((c : Thread nD τ).loc main_arg5))) := by
  exact finAct1 _ _ _ _ _ f0 f3 f4 f5

/-- The layer's output is a table of real numbers. -/
theorem L1_fin (f0 : Finite (m ((c : Thread nD τ).loc main_arg0))) (f3 : Finite (m ((c : Thread nD τ).loc main_arg3))) (f4 : Finite (m ((c : Thread nD τ).loc main_arg4))) (f5 : Finite (m ((c : Thread nD τ).loc main_arg5))) (f6 : Finite (m ((c : Thread nD τ).loc main_arg6))) (f7 : Finite (m ((c : Thread nD τ).loc main_arg7))) (f8 : Finite (m ((c : Thread nD τ).loc main_arg8))) (f9 : Finite (m ((c : Thread nD τ).loc main_arg9))) (f10 : Finite (m ((c : Thread nD τ).loc main_arg10))) (f11 : Finite (m ((c : Thread nD τ).loc main_arg11))) (f12 : Finite (m ((c : Thread nD τ).loc main_arg12))) (f13 : Finite (m ((c : Thread nD τ).loc main_arg13))) (f14 : Finite (m ((c : Thread nD τ).loc main_arg14))) (f15 : Finite (m ((c : Thread nD τ).loc main_arg15))) (f16 : Finite (m ((c : Thread nD τ).loc main_arg16))) (f17 : Finite (m ((c : Thread nD τ).loc main_arg17))) : Finite (val_main_v54 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := by
  exact finOut1 _ _ _ _ _ _ _ f0 f3 f4 f5 f6 f7

/-- The normalisation region leaves the reference's layer output. -/
theorem L1_out (f0 : Finite (m ((c : Thread nD τ).loc main_arg0))) (f3 : Finite (m ((c : Thread nD τ).loc main_arg3))) (f4 : Finite (m ((c : Thread nD τ).loc main_arg4))) (f5 : Finite (m ((c : Thread nD τ).loc main_arg5))) (f6 : Finite (m ((c : Thread nD τ).loc main_arg6))) (f7 : Finite (m ((c : Thread nD τ).loc main_arg7))) (f8 : Finite (m ((c : Thread nD τ).loc main_arg8))) (f9 : Finite (m ((c : Thread nD τ).loc main_arg9))) (f10 : Finite (m ((c : Thread nD τ).loc main_arg10))) (f11 : Finite (m ((c : Thread nD τ).loc main_arg11))) (f12 : Finite (m ((c : Thread nD τ).loc main_arg12))) (f13 : Finite (m ((c : Thread nD τ).loc main_arg13))) (f14 : Finite (m ((c : Thread nD τ).loc main_arg14))) (f15 : Finite (m ((c : Thread nD τ).loc main_arg15))) (f16 : Finite (m ((c : Thread nD τ).loc main_arg16))) (f17 : Finite (m ((c : Thread nD τ).loc main_arg17))) : W4 m ρ c (Proc.devRef .tc main_v36) = (val_main_v54 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :=
  (W4_arr m ρ c 5).trans ((Cert.KernelIdeal.BnValue1.bn_eq (V3 m ρ) c).trans (by
    rw [L1_pre m ρ c, L1_mu m ρ c, L1_inv m ρ c, L1_g, L1_b]
    exact (bridge _ (L1_act_finite m c f0 f3 f4 f5 f6 f7 f8 f9 f10 f11 f12 f13 f14 f15 f16 f17) (m ((c : Thread nD τ).loc main_arg6)) (m ((c : Thread nD τ).loc main_arg7))).trans (bn1 _ _ _ _ _ _ _).symm))

/-! ## Layer 2 -/

/-- The layer's node table at the stage-1 region's entry. -/
theorem L2_h (f0 : Finite (m ((c : Thread nD τ).loc main_arg0))) (f3 : Finite (m ((c : Thread nD τ).loc main_arg3))) (f4 : Finite (m ((c : Thread nD τ).loc main_arg4))) (f5 : Finite (m ((c : Thread nD τ).loc main_arg5))) (f6 : Finite (m ((c : Thread nD τ).loc main_arg6))) (f7 : Finite (m ((c : Thread nD τ).loc main_arg7))) (f8 : Finite (m ((c : Thread nD τ).loc main_arg8))) (f9 : Finite (m ((c : Thread nD τ).loc main_arg9))) (f10 : Finite (m ((c : Thread nD τ).loc main_arg10))) (f11 : Finite (m ((c : Thread nD τ).loc main_arg11))) (f12 : Finite (m ((c : Thread nD τ).loc main_arg12))) (f13 : Finite (m ((c : Thread nD τ).loc main_arg13))) (f14 : Finite (m ((c : Thread nD τ).loc main_arg14))) (f15 : Finite (m ((c : Thread nD τ).loc main_arg15))) (f16 : Finite (m ((c : Thread nD τ).loc main_arg16))) (f17 : Finite (m ((c : Thread nD τ).loc main_arg17))) : V5 m ρ c (Pipeline.arrRef spec2 0) = (val_main_v54 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := by
  show StableHlo.after hostOps2 (W4 m ρ c) (Proc.devRef .tc main_v36) = _
  after_results_simp
  exact L1_out m ρ c f0 f3 f4 f5 f6 f7 f8 f9 f10 f11 f12 f13 f14 f15 f16 f17

/-- The aggregation over incoming edges at the region's entry is the reference's. -/
theorem L2_ai (f0 : Finite (m ((c : Thread nD τ).loc main_arg0))) (f3 : Finite (m ((c : Thread nD τ).loc main_arg3))) (f4 : Finite (m ((c : Thread nD τ).loc main_arg4))) (f5 : Finite (m ((c : Thread nD τ).loc main_arg5))) (f6 : Finite (m ((c : Thread nD τ).loc main_arg6))) (f7 : Finite (m ((c : Thread nD τ).loc main_arg7))) (f8 : Finite (m ((c : Thread nD τ).loc main_arg8))) (f9 : Finite (m ((c : Thread nD τ).loc main_arg9))) (f10 : Finite (m ((c : Thread nD τ).loc main_arg10))) (f11 : Finite (m ((c : Thread nD τ).loc main_arg11))) (f12 : Finite (m ((c : Thread nD τ).loc main_arg12))) (f13 : Finite (m ((c : Thread nD τ).loc main_arg13))) (f14 : Finite (m ((c : Thread nD τ).loc main_arg14))) (f15 : Finite (m ((c : Thread nD τ).loc main_arg15))) (f16 : Finite (m ((c : Thread nD τ).loc main_arg16))) (f17 : Finite (m ((c : Thread nD τ).loc main_arg17))) : V5 m ρ c (Pipeline.arrRef spec2 1) = (val_main_v64 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := by
  show StableHlo.after hostOps2 (W4 m ρ c) (Proc.devRef .tc main_v53) = _
  after_results_simp
  rw [L1_out m ρ c f0 f3 f4 f5 f6 f7 f8 f9 f10 f11 f12 f13 f14 f15 f16 f17, (keep_main_v1_4_1 m ρ c).trans (W1_v1 m ρ c), (keep_main_v3_4_1 m ρ c).trans (W1_v3 m ρ c)]
  first | rfl | skip

/-- The aggregation over outgoing edges at the region's entry is the reference's. -/
theorem L2_ao (f0 : Finite (m ((c : Thread nD τ).loc main_arg0))) (f3 : Finite (m ((c : Thread nD τ).loc main_arg3))) (f4 : Finite (m ((c : Thread nD τ).loc main_arg4))) (f5 : Finite (m ((c : Thread nD τ).loc main_arg5))) (f6 : Finite (m ((c : Thread nD τ).loc main_arg6))) (f7 : Finite (m ((c : Thread nD τ).loc main_arg7))) (f8 : Finite (m ((c : Thread nD τ).loc main_arg8))) (f9 : Finite (m ((c : Thread nD τ).loc main_arg9))) (f10 : Finite (m ((c : Thread nD τ).loc main_arg10))) (f11 : Finite (m ((c : Thread nD τ).loc main_arg11))) (f12 : Finite (m ((c : Thread nD τ).loc main_arg12))) (f13 : Finite (m ((c : Thread nD τ).loc main_arg13))) (f14 : Finite (m ((c : Thread nD τ).loc main_arg14))) (f15 : Finite (m ((c : Thread nD τ).loc main_arg15))) (f16 : Finite (m ((c : Thread nD τ).loc main_arg16))) (f17 : Finite (m ((c : Thread nD τ).loc main_arg17))) : V5 m ρ c (Pipeline.arrRef spec2 2) = (val_main_v74 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := by
  show StableHlo.after hostOps2 (W4 m ρ c) (Proc.devRef .tc main_v56) = _
  after_results_simp
  rw [L1_out m ρ c f0 f3 f4 f5 f6 f7 f8 f9 f10 f11 f12 f13 f14 f15 f16 f17, (keep_main_v1_4_1 m ρ c).trans (W1_v1 m ρ c), (keep_main_v3_4_1 m ρ c).trans (W1_v3 m ρ c)]
  first | rfl | skip

theorem L2_W0 : V5 m ρ c (Pipeline.arrRef spec2 3) = (m ((c : Thread nD τ).loc main_arg8)) := by
  show StableHlo.after hostOps2 (W4 m ρ c) (Proc.devRef .tc main_arg8) = _
  after_results_simp
  exact keep_main_arg8_4_0 m ρ c

theorem L2_W1 : V5 m ρ c (Pipeline.arrRef spec2 4) = (m ((c : Thread nD τ).loc main_arg9)) := by
  show StableHlo.after hostOps2 (W4 m ρ c) (Proc.devRef .tc main_arg9) = _
  after_results_simp
  exact keep_main_arg9_4_0 m ρ c

theorem L2_W2 : V5 m ρ c (Pipeline.arrRef spec2 5) = (m ((c : Thread nD τ).loc main_arg10)) := by
  show StableHlo.after hostOps2 (W4 m ρ c) (Proc.devRef .tc main_arg10) = _
  after_results_simp
  exact keep_main_arg10_4_0 m ρ c

/-- The stage-1 region leaves the reference's activation table. -/
theorem L2_act (f0 : Finite (m ((c : Thread nD τ).loc main_arg0))) (f3 : Finite (m ((c : Thread nD τ).loc main_arg3))) (f4 : Finite (m ((c : Thread nD τ).loc main_arg4))) (f5 : Finite (m ((c : Thread nD τ).loc main_arg5))) (f6 : Finite (m ((c : Thread nD τ).loc main_arg6))) (f7 : Finite (m ((c : Thread nD τ).loc main_arg7))) (f8 : Finite (m ((c : Thread nD τ).loc main_arg8))) (f9 : Finite (m ((c : Thread nD τ).loc main_arg9))) (f10 : Finite (m ((c : Thread nD τ).loc main_arg10))) (f11 : Finite (m ((c : Thread nD τ).loc main_arg11))) (f12 : Finite (m ((c : Thread nD τ).loc main_arg12))) (f13 : Finite (m ((c : Thread nD τ).loc main_arg13))) (f14 : Finite (m ((c : Thread nD τ).loc main_arg14))) (f15 : Finite (m ((c : Thread nD τ).loc main_arg15))) (f16 : Finite (m ((c : Thread nD τ).loc main_arg16))) (f17 : Finite (m ((c : Thread nD τ).loc main_arg17))) : W6 m ρ c (Proc.devRef .tc main_v57_0) = (val_main_v80 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :=
  (W6_arr m ρ c 6).trans ((Cert.KernelIdeal.Stage1Value2.act_eq (V5 m ρ) c).trans (by
    rw [L2_h m ρ c f0 f3 f4 f5 f6 f7 f8 f9 f10 f11 f12 f13 f14 f15 f16 f17, L2_ai m ρ c f0 f3 f4 f5 f6 f7 f8 f9 f10 f11 f12 f13 f14 f15 f16 f17, L2_ao m ρ c f0 f3 f4 f5 f6 f7 f8 f9 f10 f11 f12 f13 f14 f15 f16 f17, L2_W0, L2_W1, L2_W2, ← act2]))

/-- … and its column sums … -/
theorem L2_sum (f0 : Finite (m ((c : Thread nD τ).loc main_arg0))) (f3 : Finite (m ((c : Thread nD τ).loc main_arg3))) (f4 : Finite (m ((c : Thread nD τ).loc main_arg4))) (f5 : Finite (m ((c : Thread nD τ).loc main_arg5))) (f6 : Finite (m ((c : Thread nD τ).loc main_arg6))) (f7 : Finite (m ((c : Thread nD τ).loc main_arg7))) (f8 : Finite (m ((c : Thread nD τ).loc main_arg8))) (f9 : Finite (m ((c : Thread nD τ).loc main_arg9))) (f10 : Finite (m ((c : Thread nD τ).loc main_arg10))) (f11 : Finite (m ((c : Thread nD τ).loc main_arg11))) (f12 : Finite (m ((c : Thread nD τ).loc main_arg12))) (f13 : Finite (m ((c : Thread nD τ).loc main_arg13))) (f14 : Finite (m ((c : Thread nD τ).loc main_arg14))) (f15 : Finite (m ((c : Thread nD τ).loc main_arg15))) (f16 : Finite (m ((c : Thread nD τ).loc main_arg16))) (f17 : Finite (m ((c : Thread nD τ).loc main_arg17))) : W6 m ρ c (Proc.devRef .tc main_v57_1) = colSum (val_main_v80 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :=
  (W6_arr m ρ c 7).trans ((Cert.KernelIdeal.Stage1Value2.sum_eq (V5 m ρ) c).trans (by
    rw [L2_h m ρ c f0 f3 f4 f5 f6 f7 f8 f9 f10 f11 f12 f13 f14 f15 f16 f17, L2_ai m ρ c f0 f3 f4 f5 f6 f7 f8 f9 f10 f11 f12 f13 f14 f15 f16 f17, L2_ao m ρ c f0 f3 f4 f5 f6 f7 f8 f9 f10 f11 f12 f13 f14 f15 f16 f17, L2_W0, L2_W1, L2_W2, ← act2]))

/-- … and its column sums of squares. -/
theorem L2_sumsq (f0 : Finite (m ((c : Thread nD τ).loc main_arg0))) (f3 : Finite (m ((c : Thread nD τ).loc main_arg3))) (f4 : Finite (m ((c : Thread nD τ).loc main_arg4))) (f5 : Finite (m ((c : Thread nD τ).loc main_arg5))) (f6 : Finite (m ((c : Thread nD τ).loc main_arg6))) (f7 : Finite (m ((c : Thread nD τ).loc main_arg7))) (f8 : Finite (m ((c : Thread nD τ).loc main_arg8))) (f9 : Finite (m ((c : Thread nD τ).loc main_arg9))) (f10 : Finite (m ((c : Thread nD τ).loc main_arg10))) (f11 : Finite (m ((c : Thread nD τ).loc main_arg11))) (f12 : Finite (m ((c : Thread nD τ).loc main_arg12))) (f13 : Finite (m ((c : Thread nD τ).loc main_arg13))) (f14 : Finite (m ((c : Thread nD τ).loc main_arg14))) (f15 : Finite (m ((c : Thread nD τ).loc main_arg15))) (f16 : Finite (m ((c : Thread nD τ).loc main_arg16))) (f17 : Finite (m ((c : Thread nD τ).loc main_arg17))) : W6 m ρ c (Proc.devRef .tc main_v57_2) = colSumSq (val_main_v80 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :=
  (W6_arr m ρ c 8).trans ((Cert.KernelIdeal.Stage1Value2.sumsq_eq (V5 m ρ) c).trans (by
    rw [L2_h m ρ c f0 f3 f4 f5 f6 f7 f8 f9 f10 f11 f12 f13 f14 f15 f16 f17, L2_ai m ρ c f0 f3 f4 f5 f6 f7 f8 f9 f10 f11 f12 f13 f14 f15 f16 f17, L2_ao m ρ c f0 f3 f4 f5 f6 f7 f8 f9 f10 f11 f12 f13 f14 f15 f16 f17, L2_W0, L2_W1, L2_W2, ← act2]))

theorem L2_pre (f0 : Finite (m ((c : Thread nD τ).loc main_arg0))) (f3 : Finite (m ((c : Thread nD τ).loc main_arg3))) (f4 : Finite (m ((c : Thread nD τ).loc main_arg4))) (f5 : Finite (m ((c : Thread nD τ).loc main_arg5))) (f6 : Finite (m ((c : Thread nD τ).loc main_arg6))) (f7 : Finite (m ((c : Thread nD τ).loc main_arg7))) (f8 : Finite (m ((c : Thread nD τ).loc main_arg8))) (f9 : Finite (m ((c : Thread nD τ).loc main_arg9))) (f10 : Finite (m ((c : Thread nD τ).loc main_arg10))) (f11 : Finite (m ((c : Thread nD τ).loc main_arg11))) (f12 : Finite (m ((c : Thread nD τ).loc main_arg12))) (f13 : Finite (m ((c : Thread nD τ).loc main_arg13))) (f14 : Finite (m ((c : Thread nD τ).loc main_arg14))) (f15 : Finite (m ((c : Thread nD τ).loc main_arg15))) (f16 : Finite (m ((c : Thread nD τ).loc main_arg16))) (f17 : Finite (m ((c : Thread nD τ).loc main_arg17))) : V7 m ρ c (Pipeline.arrRef spec3 0) = (val_main_v80 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  show StableHlo.after hostOps3 (W6 m ρ c) (Proc.devRef .tc main_v57_0) = _
  after_results_simp
  exact L2_act m ρ c f0 f3 f4 f5 f6 f7 f8 f9 f10 f11 f12 f13 f14 f15 f16 f17

/-- The mean row the host forms is the column sums over the row count. -/
theorem L2_mu (f0 : Finite (m ((c : Thread nD τ).loc main_arg0))) (f3 : Finite (m ((c : Thread nD τ).loc main_arg3))) (f4 : Finite (m ((c : Thread nD τ).loc main_arg4))) (f5 : Finite (m ((c : Thread nD τ).loc main_arg5))) (f6 : Finite (m ((c : Thread nD τ).loc main_arg6))) (f7 : Finite (m ((c : Thread nD τ).loc main_arg7))) (f8 : Finite (m ((c : Thread nD τ).loc main_arg8))) (f9 : Finite (m ((c : Thread nD τ).loc main_arg9))) (f10 : Finite (m ((c : Thread nD τ).loc main_arg10))) (f11 : Finite (m ((c : Thread nD τ).loc main_arg11))) (f12 : Finite (m ((c : Thread nD τ).loc main_arg12))) (f13 : Finite (m ((c : Thread nD τ).loc main_arg13))) (f14 : Finite (m ((c : Thread nD τ).loc main_arg14))) (f15 : Finite (m ((c : Thread nD τ).loc main_arg15))) (f16 : Finite (m ((c : Thread nD τ).loc main_arg16))) (f17 : Finite (m ((c : Thread nD τ).loc main_arg17))) : V7 m ρ c (Pipeline.arrRef spec3 1) = kerMu (colSum (val_main_v80 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))) := by
  show StableHlo.after hostOps3 (W6 m ρ c) (Proc.devRef .tc main_v59) = _
  after_results_simp
  rw [L2_sum m ρ c f0 f3 f4 f5 f6 f7 f8 f9 f10 f11 f12 f13 f14 f15 f16 f17]
  first | rfl | skip

/-- The inverse-deviation row the host forms. -/
theorem L2_inv (f0 : Finite (m ((c : Thread nD τ).loc main_arg0))) (f3 : Finite (m ((c : Thread nD τ).loc main_arg3))) (f4 : Finite (m ((c : Thread nD τ).loc main_arg4))) (f5 : Finite (m ((c : Thread nD τ).loc main_arg5))) (f6 : Finite (m ((c : Thread nD τ).loc main_arg6))) (f7 : Finite (m ((c : Thread nD τ).loc main_arg7))) (f8 : Finite (m ((c : Thread nD τ).loc main_arg8))) (f9 : Finite (m ((c : Thread nD τ).loc main_arg9))) (f10 : Finite (m ((c : Thread nD τ).loc main_arg10))) (f11 : Finite (m ((c : Thread nD τ).loc main_arg11))) (f12 : Finite (m ((c : Thread nD τ).loc main_arg12))) (f13 : Finite (m ((c : Thread nD τ).loc main_arg13))) (f14 : Finite (m ((c : Thread nD τ).loc main_arg14))) (f15 : Finite (m ((c : Thread nD τ).loc main_arg15))) (f16 : Finite (m ((c : Thread nD τ).loc main_arg16))) (f17 : Finite (m ((c : Thread nD τ).loc main_arg17))) : V7 m ρ c (Pipeline.arrRef spec3 2) = kerInv (colSum (val_main_v80 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))) (colSumSq (val_main_v80 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))) := by
  show StableHlo.after hostOps3 (W6 m ρ c) (Proc.devRef .tc main_v66) = _
  after_results_simp
  rw [L2_sum m ρ c f0 f3 f4 f5 f6 f7 f8 f9 f10 f11 f12 f13 f14 f15 f16 f17, L2_sumsq m ρ c f0 f3 f4 f5 f6 f7 f8 f9 f10 f11 f12 f13 f14 f15 f16 f17]
  first | rfl | skip

theorem L2_g : V7 m ρ c (Pipeline.arrRef spec3 3) = fun j : S1x128.Idx => (m ((c : Thread nD τ).loc main_arg11) : S128.Idx → EReal) (ix1 (j 1)) := by
  show StableHlo.after hostOps3 (W6 m ρ c) (Proc.devRef .tc main_v67) = _
  after_results_simp
  rw [keep_main_arg11_6_0 m ρ c]
  exact funext fun j => row_of_vec _ _ j

theorem L2_b : V7 m ρ c (Pipeline.arrRef spec3 4) = fun j : S1x128.Idx => (m ((c : Thread nD τ).loc main_arg12) : S128.Idx → EReal) (ix1 (j 1)) := by
  show StableHlo.after hostOps3 (W6 m ρ c) (Proc.devRef .tc main_v68) = _
  after_results_simp
  rw [keep_main_arg12_6_0 m ρ c]
  exact funext fun j => row_of_vec _ _ j

/-- The layer's activation is a table of real numbers. -/
theorem L2_act_finite (f0 : Finite (m ((c : Thread nD τ).loc main_arg0))) (f3 : Finite (m ((c : Thread nD τ).loc main_arg3))) (f4 : Finite (m ((c : Thread nD τ).loc main_arg4))) (f5 : Finite (m ((c : Thread nD τ).loc main_arg5))) (f6 : Finite (m ((c : Thread nD τ).loc main_arg6))) (f7 : Finite (m ((c : Thread nD τ).loc main_arg7))) (f8 : Finite (m ((c : Thread nD τ).loc main_arg8))) (f9 : Finite (m ((c : Thread nD τ).loc main_arg9))) (f10 : Finite (m ((c : Thread nD τ).loc main_arg10))) (f11 : Finite (m ((c : Thread nD τ).loc main_arg11))) (f12 : Finite (m ((c : Thread nD τ).loc main_arg12))) (f13 : Finite (m ((c : Thread nD τ).loc main_arg13))) (f14 : Finite (m ((c : Thread nD τ).loc main_arg14))) (f15 : Finite (m ((c : Thread nD τ).loc main_arg15))) (f16 : Finite (m ((c : Thread nD τ).loc main_arg16))) (f17 : Finite (m ((c : Thread nD τ).loc main_arg17))) : Finite (val_main_v80 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  exact finAct2 _ _ _ _ _ _ _ _ _ _ (L1_fin m c f0 f3 f4 f5 f6 f7 f8 f9 f10 f11 f12 f13 f14 f15 f16 f17) f8 f9 f10

/-- The layer's output is a table of real numbers. -/
theorem L2_fin (f0 : Finite (m ((c : Thread nD τ).loc main_arg0))) (f3 : Finite (m ((c : Thread nD τ).loc main_arg3))) (f4 : Finite (m ((c : Thread nD τ).loc main_arg4))) (f5 : Finite (m ((c : Thread nD τ).loc main_arg5))) (f6 : Finite (m ((c : Thread nD τ).loc main_arg6))) (f7 : Finite (m ((c : Thread nD τ).loc main_arg7))) (f8 : Finite (m ((c : Thread nD τ).loc main_arg8))) (f9 : Finite (m ((c : Thread nD τ).loc main_arg9))) (f10 : Finite (m ((c : Thread nD τ).loc main_arg10))) (f11 : Finite (m ((c : Thread nD τ).loc main_arg11))) (f12 : Finite (m ((c : Thread nD τ).loc main_arg12))) (f13 : Finite (m ((c : Thread nD τ).loc main_arg13))) (f14 : Finite (m ((c : Thread nD τ).loc main_arg14))) (f15 : Finite (m ((c : Thread nD τ).loc main_arg15))) (f16 : Finite (m ((c : Thread nD τ).loc main_arg16))) (f17 : Finite (m ((c : Thread nD τ).loc main_arg17))) : Finite (val_main_v105 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  exact finOut2 _ _ _ _ _ _ _ _ _ _ _ _ (L1_fin m c f0 f3 f4 f5 f6 f7 f8 f9 f10 f11 f12 f13 f14 f15 f16 f17) f8 f9 f10 f11 f12

/-- The normalisation region leaves the reference's layer output. -/
theorem L2_out (f0 : Finite (m ((c : Thread nD τ).loc main_arg0))) (f3 : Finite (m ((c : Thread nD τ).loc main_arg3))) (f4 : Finite (m ((c : Thread nD τ).loc main_arg4))) (f5 : Finite (m ((c : Thread nD τ).loc main_arg5))) (f6 : Finite (m ((c : Thread nD τ).loc main_arg6))) (f7 : Finite (m ((c : Thread nD τ).loc main_arg7))) (f8 : Finite (m ((c : Thread nD τ).loc main_arg8))) (f9 : Finite (m ((c : Thread nD τ).loc main_arg9))) (f10 : Finite (m ((c : Thread nD τ).loc main_arg10))) (f11 : Finite (m ((c : Thread nD τ).loc main_arg11))) (f12 : Finite (m ((c : Thread nD τ).loc main_arg12))) (f13 : Finite (m ((c : Thread nD τ).loc main_arg13))) (f14 : Finite (m ((c : Thread nD τ).loc main_arg14))) (f15 : Finite (m ((c : Thread nD τ).loc main_arg15))) (f16 : Finite (m ((c : Thread nD τ).loc main_arg16))) (f17 : Finite (m ((c : Thread nD τ).loc main_arg17))) : W8 m ρ c (Proc.devRef .tc main_v69) = (val_main_v105 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) :=
  (W8_arr m ρ c 5).trans ((Cert.KernelIdeal.BnValue3.bn_eq (V7 m ρ) c).trans (by
    rw [L2_pre m ρ c f0 f3 f4 f5 f6 f7 f8 f9 f10 f11 f12 f13 f14 f15 f16 f17, L2_mu m ρ c f0 f3 f4 f5 f6 f7 f8 f9 f10 f11 f12 f13 f14 f15 f16 f17, L2_inv m ρ c f0 f3 f4 f5 f6 f7 f8 f9 f10 f11 f12 f13 f14 f15 f16 f17, L2_g, L2_b]
    exact (bridge _ (L2_act_finite m c f0 f3 f4 f5 f6 f7 f8 f9 f10 f11 f12 f13 f14 f15 f16 f17) (m ((c : Thread nD τ).loc main_arg11)) (m ((c : Thread nD τ).loc main_arg12))).trans (bn2 _ _ _ _ _ _ _ _ _ _ _ _).symm))

/-! ## Layer 3 -/

/-- The layer's node table at the stage-1 region's entry. -/
theorem L3_h (f0 : Finite (m ((c : Thread nD τ).loc main_arg0))) (f3 : Finite (m ((c : Thread nD τ).loc main_arg3))) (f4 : Finite (m ((c : Thread nD τ).loc main_arg4))) (f5 : Finite (m ((c : Thread nD τ).loc main_arg5))) (f6 : Finite (m ((c : Thread nD τ).loc main_arg6))) (f7 : Finite (m ((c : Thread nD τ).loc main_arg7))) (f8 : Finite (m ((c : Thread nD τ).loc main_arg8))) (f9 : Finite (m ((c : Thread nD τ).loc main_arg9))) (f10 : Finite (m ((c : Thread nD τ).loc main_arg10))) (f11 : Finite (m ((c : Thread nD τ).loc main_arg11))) (f12 : Finite (m ((c : Thread nD τ).loc main_arg12))) (f13 : Finite (m ((c : Thread nD τ).loc main_arg13))) (f14 : Finite (m ((c : Thread nD τ).loc main_arg14))) (f15 : Finite (m ((c : Thread nD τ).loc main_arg15))) (f16 : Finite (m ((c : Thread nD τ).loc main_arg16))) (f17 : Finite (m ((c : Thread nD τ).loc main_arg17))) : V9 m ρ c (Pipeline.arrRef spec4 0) = (val_main_v105 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  show StableHlo.after hostOps4 (W8 m ρ c) (Proc.devRef .tc main_v69) = _
  after_results_simp
  exact L2_out m ρ c f0 f3 f4 f5 f6 f7 f8 f9 f10 f11 f12 f13 f14 f15 f16 f17

/-- The aggregation over incoming edges at the region's entry is the reference's. -/
theorem L3_ai (f0 : Finite (m ((c : Thread nD τ).loc main_arg0))) (f3 : Finite (m ((c : Thread nD τ).loc main_arg3))) (f4 : Finite (m ((c : Thread nD τ).loc main_arg4))) (f5 : Finite (m ((c : Thread nD τ).loc main_arg5))) (f6 : Finite (m ((c : Thread nD τ).loc main_arg6))) (f7 : Finite (m ((c : Thread nD τ).loc main_arg7))) (f8 : Finite (m ((c : Thread nD τ).loc main_arg8))) (f9 : Finite (m ((c : Thread nD τ).loc main_arg9))) (f10 : Finite (m ((c : Thread nD τ).loc main_arg10))) (f11 : Finite (m ((c : Thread nD τ).loc main_arg11))) (f12 : Finite (m ((c : Thread nD τ).loc main_arg12))) (f13 : Finite (m ((c : Thread nD τ).loc main_arg13))) (f14 : Finite (m ((c : Thread nD τ).loc main_arg14))) (f15 : Finite (m ((c : Thread nD τ).loc main_arg15))) (f16 : Finite (m ((c : Thread nD τ).loc main_arg16))) (f17 : Finite (m ((c : Thread nD τ).loc main_arg17))) : V9 m ρ c (Pipeline.arrRef spec4 1) = (val_main_v115 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  show StableHlo.after hostOps4 (W8 m ρ c) (Proc.devRef .tc main_v86) = _
  after_results_simp
  rw [L2_out m ρ c f0 f3 f4 f5 f6 f7 f8 f9 f10 f11 f12 f13 f14 f15 f16 f17, (keep_main_v1_8_1 m ρ c).trans (W1_v1 m ρ c), (keep_main_v3_8_1 m ρ c).trans (W1_v3 m ρ c)]
  first | rfl | skip

/-- The aggregation over outgoing edges at the region's entry is the reference's. -/
theorem L3_ao (f0 : Finite (m ((c : Thread nD τ).loc main_arg0))) (f3 : Finite (m ((c : Thread nD τ).loc main_arg3))) (f4 : Finite (m ((c : Thread nD τ).loc main_arg4))) (f5 : Finite (m ((c : Thread nD τ).loc main_arg5))) (f6 : Finite (m ((c : Thread nD τ).loc main_arg6))) (f7 : Finite (m ((c : Thread nD τ).loc main_arg7))) (f8 : Finite (m ((c : Thread nD τ).loc main_arg8))) (f9 : Finite (m ((c : Thread nD τ).loc main_arg9))) (f10 : Finite (m ((c : Thread nD τ).loc main_arg10))) (f11 : Finite (m ((c : Thread nD τ).loc main_arg11))) (f12 : Finite (m ((c : Thread nD τ).loc main_arg12))) (f13 : Finite (m ((c : Thread nD τ).loc main_arg13))) (f14 : Finite (m ((c : Thread nD τ).loc main_arg14))) (f15 : Finite (m ((c : Thread nD τ).loc main_arg15))) (f16 : Finite (m ((c : Thread nD τ).loc main_arg16))) (f17 : Finite (m ((c : Thread nD τ).loc main_arg17))) : V9 m ρ c (Pipeline.arrRef spec4 2) = (val_main_v125 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  show StableHlo.after hostOps4 (W8 m ρ c) (Proc.devRef .tc main_v89) = _
  after_results_simp
  rw [L2_out m ρ c f0 f3 f4 f5 f6 f7 f8 f9 f10 f11 f12 f13 f14 f15 f16 f17, (keep_main_v1_8_1 m ρ c).trans (W1_v1 m ρ c), (keep_main_v3_8_1 m ρ c).trans (W1_v3 m ρ c)]
  first | rfl | skip

theorem L3_W0 : V9 m ρ c (Pipeline.arrRef spec4 3) = (m ((c : Thread nD τ).loc main_arg13)) := by
  show StableHlo.after hostOps4 (W8 m ρ c) (Proc.devRef .tc main_arg13) = _
  after_results_simp
  exact keep_main_arg13_8_0 m ρ c

theorem L3_W1 : V9 m ρ c (Pipeline.arrRef spec4 4) = (m ((c : Thread nD τ).loc main_arg14)) := by
  show StableHlo.after hostOps4 (W8 m ρ c) (Proc.devRef .tc main_arg14) = _
  after_results_simp
  exact keep_main_arg14_8_0 m ρ c

theorem L3_W2 : V9 m ρ c (Pipeline.arrRef spec4 5) = (m ((c : Thread nD τ).loc main_arg15)) := by
  show StableHlo.after hostOps4 (W8 m ρ c) (Proc.devRef .tc main_arg15) = _
  after_results_simp
  exact keep_main_arg15_8_0 m ρ c

/-- The stage-1 region leaves the reference's activation table. -/
theorem L3_act (f0 : Finite (m ((c : Thread nD τ).loc main_arg0))) (f3 : Finite (m ((c : Thread nD τ).loc main_arg3))) (f4 : Finite (m ((c : Thread nD τ).loc main_arg4))) (f5 : Finite (m ((c : Thread nD τ).loc main_arg5))) (f6 : Finite (m ((c : Thread nD τ).loc main_arg6))) (f7 : Finite (m ((c : Thread nD τ).loc main_arg7))) (f8 : Finite (m ((c : Thread nD τ).loc main_arg8))) (f9 : Finite (m ((c : Thread nD τ).loc main_arg9))) (f10 : Finite (m ((c : Thread nD τ).loc main_arg10))) (f11 : Finite (m ((c : Thread nD τ).loc main_arg11))) (f12 : Finite (m ((c : Thread nD τ).loc main_arg12))) (f13 : Finite (m ((c : Thread nD τ).loc main_arg13))) (f14 : Finite (m ((c : Thread nD τ).loc main_arg14))) (f15 : Finite (m ((c : Thread nD τ).loc main_arg15))) (f16 : Finite (m ((c : Thread nD τ).loc main_arg16))) (f17 : Finite (m ((c : Thread nD τ).loc main_arg17))) : W10 m ρ c (Proc.devRef .tc main_v90_0) = (val_main_v131 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) :=
  (W10_arr m ρ c 6).trans ((Cert.KernelIdeal.Stage1Value4.act_eq (V9 m ρ) c).trans (by
    rw [L3_h m ρ c f0 f3 f4 f5 f6 f7 f8 f9 f10 f11 f12 f13 f14 f15 f16 f17, L3_ai m ρ c f0 f3 f4 f5 f6 f7 f8 f9 f10 f11 f12 f13 f14 f15 f16 f17, L3_ao m ρ c f0 f3 f4 f5 f6 f7 f8 f9 f10 f11 f12 f13 f14 f15 f16 f17, L3_W0, L3_W1, L3_W2, ← act3]))

/-- … and its column sums … -/
theorem L3_sum (f0 : Finite (m ((c : Thread nD τ).loc main_arg0))) (f3 : Finite (m ((c : Thread nD τ).loc main_arg3))) (f4 : Finite (m ((c : Thread nD τ).loc main_arg4))) (f5 : Finite (m ((c : Thread nD τ).loc main_arg5))) (f6 : Finite (m ((c : Thread nD τ).loc main_arg6))) (f7 : Finite (m ((c : Thread nD τ).loc main_arg7))) (f8 : Finite (m ((c : Thread nD τ).loc main_arg8))) (f9 : Finite (m ((c : Thread nD τ).loc main_arg9))) (f10 : Finite (m ((c : Thread nD τ).loc main_arg10))) (f11 : Finite (m ((c : Thread nD τ).loc main_arg11))) (f12 : Finite (m ((c : Thread nD τ).loc main_arg12))) (f13 : Finite (m ((c : Thread nD τ).loc main_arg13))) (f14 : Finite (m ((c : Thread nD τ).loc main_arg14))) (f15 : Finite (m ((c : Thread nD τ).loc main_arg15))) (f16 : Finite (m ((c : Thread nD τ).loc main_arg16))) (f17 : Finite (m ((c : Thread nD τ).loc main_arg17))) : W10 m ρ c (Proc.devRef .tc main_v90_1) = colSum (val_main_v131 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) :=
  (W10_arr m ρ c 7).trans ((Cert.KernelIdeal.Stage1Value4.sum_eq (V9 m ρ) c).trans (by
    rw [L3_h m ρ c f0 f3 f4 f5 f6 f7 f8 f9 f10 f11 f12 f13 f14 f15 f16 f17, L3_ai m ρ c f0 f3 f4 f5 f6 f7 f8 f9 f10 f11 f12 f13 f14 f15 f16 f17, L3_ao m ρ c f0 f3 f4 f5 f6 f7 f8 f9 f10 f11 f12 f13 f14 f15 f16 f17, L3_W0, L3_W1, L3_W2, ← act3]))

/-- … and its column sums of squares. -/
theorem L3_sumsq (f0 : Finite (m ((c : Thread nD τ).loc main_arg0))) (f3 : Finite (m ((c : Thread nD τ).loc main_arg3))) (f4 : Finite (m ((c : Thread nD τ).loc main_arg4))) (f5 : Finite (m ((c : Thread nD τ).loc main_arg5))) (f6 : Finite (m ((c : Thread nD τ).loc main_arg6))) (f7 : Finite (m ((c : Thread nD τ).loc main_arg7))) (f8 : Finite (m ((c : Thread nD τ).loc main_arg8))) (f9 : Finite (m ((c : Thread nD τ).loc main_arg9))) (f10 : Finite (m ((c : Thread nD τ).loc main_arg10))) (f11 : Finite (m ((c : Thread nD τ).loc main_arg11))) (f12 : Finite (m ((c : Thread nD τ).loc main_arg12))) (f13 : Finite (m ((c : Thread nD τ).loc main_arg13))) (f14 : Finite (m ((c : Thread nD τ).loc main_arg14))) (f15 : Finite (m ((c : Thread nD τ).loc main_arg15))) (f16 : Finite (m ((c : Thread nD τ).loc main_arg16))) (f17 : Finite (m ((c : Thread nD τ).loc main_arg17))) : W10 m ρ c (Proc.devRef .tc main_v90_2) = colSumSq (val_main_v131 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) :=
  (W10_arr m ρ c 8).trans ((Cert.KernelIdeal.Stage1Value4.sumsq_eq (V9 m ρ) c).trans (by
    rw [L3_h m ρ c f0 f3 f4 f5 f6 f7 f8 f9 f10 f11 f12 f13 f14 f15 f16 f17, L3_ai m ρ c f0 f3 f4 f5 f6 f7 f8 f9 f10 f11 f12 f13 f14 f15 f16 f17, L3_ao m ρ c f0 f3 f4 f5 f6 f7 f8 f9 f10 f11 f12 f13 f14 f15 f16 f17, L3_W0, L3_W1, L3_W2, ← act3]))

theorem L3_pre (f0 : Finite (m ((c : Thread nD τ).loc main_arg0))) (f3 : Finite (m ((c : Thread nD τ).loc main_arg3))) (f4 : Finite (m ((c : Thread nD τ).loc main_arg4))) (f5 : Finite (m ((c : Thread nD τ).loc main_arg5))) (f6 : Finite (m ((c : Thread nD τ).loc main_arg6))) (f7 : Finite (m ((c : Thread nD τ).loc main_arg7))) (f8 : Finite (m ((c : Thread nD τ).loc main_arg8))) (f9 : Finite (m ((c : Thread nD τ).loc main_arg9))) (f10 : Finite (m ((c : Thread nD τ).loc main_arg10))) (f11 : Finite (m ((c : Thread nD τ).loc main_arg11))) (f12 : Finite (m ((c : Thread nD τ).loc main_arg12))) (f13 : Finite (m ((c : Thread nD τ).loc main_arg13))) (f14 : Finite (m ((c : Thread nD τ).loc main_arg14))) (f15 : Finite (m ((c : Thread nD τ).loc main_arg15))) (f16 : Finite (m ((c : Thread nD τ).loc main_arg16))) (f17 : Finite (m ((c : Thread nD τ).loc main_arg17))) : V11 m ρ c (Pipeline.arrRef spec5 0) = (val_main_v131 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  show StableHlo.after hostOps5 (W10 m ρ c) (Proc.devRef .tc main_v90_0) = _
  after_results_simp
  exact L3_act m ρ c f0 f3 f4 f5 f6 f7 f8 f9 f10 f11 f12 f13 f14 f15 f16 f17

/-- The mean row the host forms is the column sums over the row count. -/
theorem L3_mu (f0 : Finite (m ((c : Thread nD τ).loc main_arg0))) (f3 : Finite (m ((c : Thread nD τ).loc main_arg3))) (f4 : Finite (m ((c : Thread nD τ).loc main_arg4))) (f5 : Finite (m ((c : Thread nD τ).loc main_arg5))) (f6 : Finite (m ((c : Thread nD τ).loc main_arg6))) (f7 : Finite (m ((c : Thread nD τ).loc main_arg7))) (f8 : Finite (m ((c : Thread nD τ).loc main_arg8))) (f9 : Finite (m ((c : Thread nD τ).loc main_arg9))) (f10 : Finite (m ((c : Thread nD τ).loc main_arg10))) (f11 : Finite (m ((c : Thread nD τ).loc main_arg11))) (f12 : Finite (m ((c : Thread nD τ).loc main_arg12))) (f13 : Finite (m ((c : Thread nD τ).loc main_arg13))) (f14 : Finite (m ((c : Thread nD τ).loc main_arg14))) (f15 : Finite (m ((c : Thread nD τ).loc main_arg15))) (f16 : Finite (m ((c : Thread nD τ).loc main_arg16))) (f17 : Finite (m ((c : Thread nD τ).loc main_arg17))) : V11 m ρ c (Pipeline.arrRef spec5 1) = kerMu (colSum (val_main_v131 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) := by
  show StableHlo.after hostOps5 (W10 m ρ c) (Proc.devRef .tc main_v92) = _
  after_results_simp
  rw [L3_sum m ρ c f0 f3 f4 f5 f6 f7 f8 f9 f10 f11 f12 f13 f14 f15 f16 f17]
  first | rfl | skip

/-- The inverse-deviation row the host forms. -/
theorem L3_inv (f0 : Finite (m ((c : Thread nD τ).loc main_arg0))) (f3 : Finite (m ((c : Thread nD τ).loc main_arg3))) (f4 : Finite (m ((c : Thread nD τ).loc main_arg4))) (f5 : Finite (m ((c : Thread nD τ).loc main_arg5))) (f6 : Finite (m ((c : Thread nD τ).loc main_arg6))) (f7 : Finite (m ((c : Thread nD τ).loc main_arg7))) (f8 : Finite (m ((c : Thread nD τ).loc main_arg8))) (f9 : Finite (m ((c : Thread nD τ).loc main_arg9))) (f10 : Finite (m ((c : Thread nD τ).loc main_arg10))) (f11 : Finite (m ((c : Thread nD τ).loc main_arg11))) (f12 : Finite (m ((c : Thread nD τ).loc main_arg12))) (f13 : Finite (m ((c : Thread nD τ).loc main_arg13))) (f14 : Finite (m ((c : Thread nD τ).loc main_arg14))) (f15 : Finite (m ((c : Thread nD τ).loc main_arg15))) (f16 : Finite (m ((c : Thread nD τ).loc main_arg16))) (f17 : Finite (m ((c : Thread nD τ).loc main_arg17))) : V11 m ρ c (Pipeline.arrRef spec5 2) = kerInv (colSum (val_main_v131 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) (colSumSq (val_main_v131 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) := by
  show StableHlo.after hostOps5 (W10 m ρ c) (Proc.devRef .tc main_v99) = _
  after_results_simp
  rw [L3_sum m ρ c f0 f3 f4 f5 f6 f7 f8 f9 f10 f11 f12 f13 f14 f15 f16 f17, L3_sumsq m ρ c f0 f3 f4 f5 f6 f7 f8 f9 f10 f11 f12 f13 f14 f15 f16 f17]
  first | rfl | skip

theorem L3_g : V11 m ρ c (Pipeline.arrRef spec5 3) = fun j : S1x128.Idx => (m ((c : Thread nD τ).loc main_arg16) : S128.Idx → EReal) (ix1 (j 1)) := by
  show StableHlo.after hostOps5 (W10 m ρ c) (Proc.devRef .tc main_v100) = _
  after_results_simp
  rw [keep_main_arg16_10_0 m ρ c]
  exact funext fun j => row_of_vec _ _ j

theorem L3_b : V11 m ρ c (Pipeline.arrRef spec5 4) = fun j : S1x128.Idx => (m ((c : Thread nD τ).loc main_arg17) : S128.Idx → EReal) (ix1 (j 1)) := by
  show StableHlo.after hostOps5 (W10 m ρ c) (Proc.devRef .tc main_v101) = _
  after_results_simp
  rw [keep_main_arg17_10_0 m ρ c]
  exact funext fun j => row_of_vec _ _ j

/-- The layer's activation is a table of real numbers. -/
theorem L3_act_finite (f0 : Finite (m ((c : Thread nD τ).loc main_arg0))) (f3 : Finite (m ((c : Thread nD τ).loc main_arg3))) (f4 : Finite (m ((c : Thread nD τ).loc main_arg4))) (f5 : Finite (m ((c : Thread nD τ).loc main_arg5))) (f6 : Finite (m ((c : Thread nD τ).loc main_arg6))) (f7 : Finite (m ((c : Thread nD τ).loc main_arg7))) (f8 : Finite (m ((c : Thread nD τ).loc main_arg8))) (f9 : Finite (m ((c : Thread nD τ).loc main_arg9))) (f10 : Finite (m ((c : Thread nD τ).loc main_arg10))) (f11 : Finite (m ((c : Thread nD τ).loc main_arg11))) (f12 : Finite (m ((c : Thread nD τ).loc main_arg12))) (f13 : Finite (m ((c : Thread nD τ).loc main_arg13))) (f14 : Finite (m ((c : Thread nD τ).loc main_arg14))) (f15 : Finite (m ((c : Thread nD τ).loc main_arg15))) (f16 : Finite (m ((c : Thread nD τ).loc main_arg16))) (f17 : Finite (m ((c : Thread nD τ).loc main_arg17))) : Finite (val_main_v131 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  exact finAct3 _ _ _ _ _ _ _ _ _ _ _ _ _ _ _ (L2_fin m c f0 f3 f4 f5 f6 f7 f8 f9 f10 f11 f12 f13 f14 f15 f16 f17) f13 f14 f15

/-- The layer's output is a table of real numbers. -/
theorem L3_fin (f0 : Finite (m ((c : Thread nD τ).loc main_arg0))) (f3 : Finite (m ((c : Thread nD τ).loc main_arg3))) (f4 : Finite (m ((c : Thread nD τ).loc main_arg4))) (f5 : Finite (m ((c : Thread nD τ).loc main_arg5))) (f6 : Finite (m ((c : Thread nD τ).loc main_arg6))) (f7 : Finite (m ((c : Thread nD τ).loc main_arg7))) (f8 : Finite (m ((c : Thread nD τ).loc main_arg8))) (f9 : Finite (m ((c : Thread nD τ).loc main_arg9))) (f10 : Finite (m ((c : Thread nD τ).loc main_arg10))) (f11 : Finite (m ((c : Thread nD τ).loc main_arg11))) (f12 : Finite (m ((c : Thread nD τ).loc main_arg12))) (f13 : Finite (m ((c : Thread nD τ).loc main_arg13))) (f14 : Finite (m ((c : Thread nD τ).loc main_arg14))) (f15 : Finite (m ((c : Thread nD τ).loc main_arg15))) (f16 : Finite (m ((c : Thread nD τ).loc main_arg16))) (f17 : Finite (m ((c : Thread nD τ).loc main_arg17))) : Finite (val_main_v156 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) := by
  exact finOut3 _ _ _ _ _ _ _ _ _ _ _ _ _ _ _ _ _ (L2_fin m c f0 f3 f4 f5 f6 f7 f8 f9 f10 f11 f12 f13 f14 f15 f16 f17) f13 f14 f15 f16 f17

/-- The normalisation region leaves the reference's layer output. -/
theorem L3_out (f0 : Finite (m ((c : Thread nD τ).loc main_arg0))) (f3 : Finite (m ((c : Thread nD τ).loc main_arg3))) (f4 : Finite (m ((c : Thread nD τ).loc main_arg4))) (f5 : Finite (m ((c : Thread nD τ).loc main_arg5))) (f6 : Finite (m ((c : Thread nD τ).loc main_arg6))) (f7 : Finite (m ((c : Thread nD τ).loc main_arg7))) (f8 : Finite (m ((c : Thread nD τ).loc main_arg8))) (f9 : Finite (m ((c : Thread nD τ).loc main_arg9))) (f10 : Finite (m ((c : Thread nD τ).loc main_arg10))) (f11 : Finite (m ((c : Thread nD τ).loc main_arg11))) (f12 : Finite (m ((c : Thread nD τ).loc main_arg12))) (f13 : Finite (m ((c : Thread nD τ).loc main_arg13))) (f14 : Finite (m ((c : Thread nD τ).loc main_arg14))) (f15 : Finite (m ((c : Thread nD τ).loc main_arg15))) (f16 : Finite (m ((c : Thread nD τ).loc main_arg16))) (f17 : Finite (m ((c : Thread nD τ).loc main_arg17))) : W12 m ρ c (Proc.devRef .tc main_v102) = (val_main_v156 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) :=
  (W12_arr m ρ c 5).trans ((Cert.KernelIdeal.BnValue5.bn_eq (V11 m ρ) c).trans (by
    rw [L3_pre m ρ c f0 f3 f4 f5 f6 f7 f8 f9 f10 f11 f12 f13 f14 f15 f16 f17, L3_mu m ρ c f0 f3 f4 f5 f6 f7 f8 f9 f10 f11 f12 f13 f14 f15 f16 f17, L3_inv m ρ c f0 f3 f4 f5 f6 f7 f8 f9 f10 f11 f12 f13 f14 f15 f16 f17, L3_g, L3_b]
    exact (bridge _ (L3_act_finite m c f0 f3 f4 f5 f6 f7 f8 f9 f10 f11 f12 f13 f14 f15 f16 f17) (m ((c : Thread nD τ).loc main_arg16)) (m ((c : Thread nD τ).loc main_arg17))).trans (bn3 _ _ _ _ _ _ _ _ _ _ _ _ _ _ _ _ _).symm))

/-! ## The pooling -/

/-- The program's result buffer at the last boundary is the reference's last stage function of the arguments. -/
theorem result (f0 : Finite (m ((c : Thread nD τ).loc main_arg0))) (f3 : Finite (m ((c : Thread nD τ).loc main_arg3))) (f4 : Finite (m ((c : Thread nD τ).loc main_arg4))) (f5 : Finite (m ((c : Thread nD τ).loc main_arg5))) (f6 : Finite (m ((c : Thread nD τ).loc main_arg6))) (f7 : Finite (m ((c : Thread nD τ).loc main_arg7))) (f8 : Finite (m ((c : Thread nD τ).loc main_arg8))) (f9 : Finite (m ((c : Thread nD τ).loc main_arg9))) (f10 : Finite (m ((c : Thread nD τ).loc main_arg10))) (f11 : Finite (m ((c : Thread nD τ).loc main_arg11))) (f12 : Finite (m ((c : Thread nD τ).loc main_arg12))) (f13 : Finite (m ((c : Thread nD τ).loc main_arg13))) (f14 : Finite (m ((c : Thread nD τ).loc main_arg14))) (f15 : Finite (m ((c : Thread nD τ).loc main_arg15))) (f16 : Finite (m ((c : Thread nD τ).loc main_arg16))) (f17 : Finite (m ((c : Thread nD τ).loc main_arg17))) : W13 m ρ c (Proc.devRef .tc main_v114) = (val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) := by
  show StableHlo.after hostOps6 (W12 m ρ c) (Proc.devRef .tc main_v114) = _
  after_results_simp
  rw [L3_out m ρ c f0 f3 f4 f5 f6 f7 f8 f9 f10 f11 f12 f13 f14 f15 f16 f17, keep_main_arg2_12_0 m ρ c]
  first | rfl | skip

end Cert.KernelIdeal.Fold

end
-- ==== Proof.RefStages.lean ====
/-
  The reference's result, read in four stages.

  The reference is one straight line of 212 host operations: an index preparation and the first layer (68 operations),
  the second layer (64), the third layer (64) and the pooling (16). Every later stage reads an earlier stage's output
  several times, so the result written as ONE term of the arguments repeats each layer's term at every use and grows
  exponentially with the number of layers. Here the fold of the operations' results is cut at the three layer
  boundaries: at each boundary the contents of the few buffers that later operations read (the layer's output table,
  the two edge-endpoint rows, the remaining arguments) are NAMED by the stage functions `val_<buffer>` of the
  arguments, and the next stage is read over those names.
-/
import proofs.«136260_j12601434046916_1_alg».proof.Proof.RefReadP

set_option maxRecDepth 16384

noncomputable section

namespace Cert.ReferenceIdeal.Stages

open Cert.ReferenceIdeal Cert.ReferenceIdeal.ValueP Cert.ReferenceIdeal.ReadP
open Idealize.ShloMosaic Idealize.ShloMosaic.TcCoe Idealize.SL.Sem Idealize.ShloMosaic.StableHlo

/-- Running a list of operations in two parts. -/
theorem after_append {τ : Topo} {sig : RefSig} {Val : EltTy → Type} :
    ∀ (a b : List (HloOp τ sig Val)) (V : Valuation τ sig Val), after (a ++ b) V = after b (after a V)
  | [], _, _ => rfl
  | _ :: a, b, V => after_append a b _

/-- Running a list of operations: its first `n`, then the rest. -/
theorem after_split {τ : Topo} {sig : RefSig} {Val : EltTy → Type} (n : Nat) (l : List (HloOp τ sig Val))
    (V : Valuation τ sig Val) : after l V = after (l.drop n) (after (l.take n) V) := by
  rw [← after_append, List.take_append_drop]

variable (m : (ℓ : Loc nD τ sig) → Buf (Elt Ideal) ℓ) (c : Dev nD)

/-- The buffers after the index preparation and the first layer (operations 0 to 67). -/
def S1 : Valuation τ sig (Elt Ideal) := after ((ops (F := Ideal)).take 68) (launchContents m c)
/-- The buffers after the second layer (operations 68 to 131). -/
def S2 : Valuation τ sig (Elt Ideal) := after (((ops (F := Ideal)).drop 68).take 64) (S1 m c)
/-- The buffers after the third layer (operations 132 to 195). -/
def S3 : Valuation τ sig (Elt Ideal) := after (((ops (F := Ideal)).drop 132).take 64) (S2 m c)

/-- The whole line is the pooling (operations 196 to 211) run from the third boundary. -/
theorem after_ops : after (ops (F := Ideal)) (launchContents m c) = after ((ops (F := Ideal)).drop 196) (S3 m c) := by
  unfold S3 S2 S1
  rw [after_split 68 ops, after_split 64 (ops.drop 68), after_split 64 ((ops.drop 68).drop 64)]
  rfl

/-! ## The first boundary

What later operations read of the first 68: the first layer's output table, the two rows of edge endpoints, and the
arguments not yet consumed. Each is the stage function of the arguments, by running the fold and comparing. -/

set_option maxHeartbeats 4000000 in
theorem S1_v54 : S1 m c (Proc.devRef .tc main_v54) = (val_main_v54 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  unfold S1
  simp only [ops, List.take_succ_cons, List.take_zero, List.drop_succ_cons, List.drop_zero]
  after_results_simp
  rfl
set_option maxHeartbeats 4000000 in
theorem S1_v1 : S1 m c (Proc.devRef .tc main_v1) = (val_main_v1 (F := Ideal) (m ((c.tc : Thread nD τ).loc main_arg1))) := by
  unfold S1
  simp only [ops, List.take_succ_cons, List.take_zero, List.drop_succ_cons, List.drop_zero]
  after_results_simp
  rfl
set_option maxHeartbeats 4000000 in
theorem S1_v3 : S1 m c (Proc.devRef .tc main_v3) = (val_main_v3 (F := Ideal) (m ((c.tc : Thread nD τ).loc main_arg1))) := by
  unfold S1
  simp only [ops, List.take_succ_cons, List.take_zero, List.drop_succ_cons, List.drop_zero]
  after_results_simp
  rfl
set_option maxHeartbeats 4000000 in
theorem S1_arg2 : S1 m c (Proc.devRef .tc main_arg2) = (m ((c.tc : Thread nD τ).loc main_arg2)) := by
  unfold S1
  simp only [ops, List.take_succ_cons, List.take_zero, List.drop_succ_cons, List.drop_zero]
  after_results_simp
set_option maxHeartbeats 4000000 in
theorem S1_arg8 : S1 m c (Proc.devRef .tc main_arg8) = (m ((c.tc : Thread nD τ).loc main_arg8)) := by
  unfold S1
  simp only [ops, List.take_succ_cons, List.take_zero, List.drop_succ_cons, List.drop_zero]
  after_results_simp
set_option maxHeartbeats 4000000 in
theorem S1_arg9 : S1 m c (Proc.devRef .tc main_arg9) = (m ((c.tc : Thread nD τ).loc main_arg9)) := by
  unfold S1
  simp only [ops, List.take_succ_cons, List.take_zero, List.drop_succ_cons, List.drop_zero]
  after_results_simp
set_option maxHeartbeats 4000000 in
theorem S1_arg10 : S1 m c (Proc.devRef .tc main_arg10) = (m ((c.tc : Thread nD τ).loc main_arg10)) := by
  unfold S1
  simp only [ops, List.take_succ_cons, List.take_zero, List.drop_succ_cons, List.drop_zero]
  after_results_simp
set_option maxHeartbeats 4000000 in
theorem S1_arg11 : S1 m c (Proc.devRef .tc main_arg11) = (m ((c.tc : Thread nD τ).loc main_arg11)) := by
  unfold S1
  simp only [ops, List.take_succ_cons, List.take_zero, List.drop_succ_cons, List.drop_zero]
  after_results_simp
set_option maxHeartbeats 4000000 in
theorem S1_arg12 : S1 m c (Proc.devRef .tc main_arg12) = (m ((c.tc : Thread nD τ).loc main_arg12)) := by
  unfold S1
  simp only [ops, List.take_succ_cons, List.take_zero, List.drop_succ_cons, List.drop_zero]
  after_results_simp
set_option maxHeartbeats 4000000 in
theorem S1_arg13 : S1 m c (Proc.devRef .tc main_arg13) = (m ((c.tc : Thread nD τ).loc main_arg13)) := by
  unfold S1
  simp only [ops, List.take_succ_cons, List.take_zero, List.drop_succ_cons, List.drop_zero]
  after_results_simp
set_option maxHeartbeats 4000000 in
theorem S1_arg14 : S1 m c (Proc.devRef .tc main_arg14) = (m ((c.tc : Thread nD τ).loc main_arg14)) := by
  unfold S1
  simp only [ops, List.take_succ_cons, List.take_zero, List.drop_succ_cons, List.drop_zero]
  after_results_simp
set_option maxHeartbeats 4000000 in
theorem S1_arg15 : S1 m c (Proc.devRef .tc main_arg15) = (m ((c.tc : Thread nD τ).loc main_arg15)) := by
  unfold S1
  simp only [ops, List.take_succ_cons, List.take_zero, List.drop_succ_cons, List.drop_zero]
  after_results_simp
set_option maxHeartbeats 4000000 in
theorem S1_arg16 : S1 m c (Proc.devRef .tc main_arg16) = (m ((c.tc : Thread nD τ).loc main_arg16)) := by
  unfold S1
  simp only [ops, List.take_succ_cons, List.take_zero, List.drop_succ_cons, List.drop_zero]
  after_results_simp
set_option maxHeartbeats 4000000 in
theorem S1_arg17 : S1 m c (Proc.devRef .tc main_arg17) = (m ((c.tc : Thread nD τ).loc main_arg17)) := by
  unfold S1
  simp only [ops, List.take_succ_cons, List.take_zero, List.drop_succ_cons, List.drop_zero]
  after_results_simp

/-! ## The second boundary

The second layer reads the first layer's output, the endpoint rows and its own five arguments; what it leaves for later:
its output table, the endpoint rows, the remaining arguments. -/

set_option maxHeartbeats 4000000 in
theorem S2_v105 : S2 m c (Proc.devRef .tc main_v105) = (val_main_v105 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) := by
  unfold S2
  simp only [ops, List.take_succ_cons, List.take_zero, List.drop_succ_cons, List.drop_zero]
  after_results_simp
  rw [S1_v54, S1_v1, S1_v3, S1_arg8, S1_arg9, S1_arg10, S1_arg11, S1_arg12]
  rfl
set_option maxHeartbeats 4000000 in
theorem S2_v1 : S2 m c (Proc.devRef .tc main_v1) = (val_main_v1 (F := Ideal) (m ((c.tc : Thread nD τ).loc main_arg1))) := by
  unfold S2
  simp only [ops, List.take_succ_cons, List.take_zero, List.drop_succ_cons, List.drop_zero]
  after_results_simp
  rw [S1_v1]
set_option maxHeartbeats 4000000 in
theorem S2_v3 : S2 m c (Proc.devRef .tc main_v3) = (val_main_v3 (F := Ideal) (m ((c.tc : Thread nD τ).loc main_arg1))) := by
  unfold S2
  simp only [ops, List.take_succ_cons, List.take_zero, List.drop_succ_cons, List.drop_zero]
  after_results_simp
  rw [S1_v3]
set_option maxHeartbeats 4000000 in
theorem S2_arg2 : S2 m c (Proc.devRef .tc main_arg2) = (m ((c.tc : Thread nD τ).loc main_arg2)) := by
  unfold S2
  simp only [ops, List.take_succ_cons, List.take_zero, List.drop_succ_cons, List.drop_zero]
  after_results_simp
  rw [S1_arg2]
set_option maxHeartbeats 4000000 in
theorem S2_arg13 : S2 m c (Proc.devRef .tc main_arg13) = (m ((c.tc : Thread nD τ).loc main_arg13)) := by
  unfold S2
  simp only [ops, List.take_succ_cons, List.take_zero, List.drop_succ_cons, List.drop_zero]
  after_results_simp
  rw [S1_arg13]
set_option maxHeartbeats 4000000 in
theorem S2_arg14 : S2 m c (Proc.devRef .tc main_arg14) = (m ((c.tc : Thread nD τ).loc main_arg14)) := by
  unfold S2
  simp only [ops, List.take_succ_cons, List.take_zero, List.drop_succ_cons, List.drop_zero]
  after_results_simp
  rw [S1_arg14]
set_option maxHeartbeats 4000000 in
theorem S2_arg15 : S2 m c (Proc.devRef .tc main_arg15) = (m ((c.tc : Thread nD τ).loc main_arg15)) := by
  unfold S2
  simp only [ops, List.take_succ_cons, List.take_zero, List.drop_succ_cons, List.drop_zero]
  after_results_simp
  rw [S1_arg15]
set_option maxHeartbeats 4000000 in
theorem S2_arg16 : S2 m c (Proc.devRef .tc main_arg16) = (m ((c.tc : Thread nD τ).loc main_arg16)) := by
  unfold S2
  simp only [ops, List.take_succ_cons, List.take_zero, List.drop_succ_cons, List.drop_zero]
  after_results_simp
  rw [S1_arg16]
set_option maxHeartbeats 4000000 in
theorem S2_arg17 : S2 m c (Proc.devRef .tc main_arg17) = (m ((c.tc : Thread nD τ).loc main_arg17)) := by
  unfold S2
  simp only [ops, List.take_succ_cons, List.take_zero, List.drop_succ_cons, List.drop_zero]
  after_results_simp
  rw [S1_arg17]

/-! ## The third boundary -/

set_option maxHeartbeats 4000000 in
theorem S3_v156 : S3 m c (Proc.devRef .tc main_v156) = (val_main_v156 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))) := by
  unfold S3
  simp only [ops, List.take_succ_cons, List.take_zero, List.drop_succ_cons, List.drop_zero]
  after_results_simp
  rw [S2_v105, S2_v1, S2_v3, S2_arg13, S2_arg14, S2_arg15, S2_arg16, S2_arg17]
  rfl
set_option maxHeartbeats 4000000 in
theorem S3_arg2 : S3 m c (Proc.devRef .tc main_arg2) = (m ((c.tc : Thread nD τ).loc main_arg2)) := by
  unfold S3
  simp only [ops, List.take_succ_cons, List.take_zero, List.drop_succ_cons, List.drop_zero]
  after_results_simp
  rw [S2_arg2]

/-! ## The result -/

set_option maxHeartbeats 4000000 in
/-- The reference's result buffer after the whole line is the last stage function of the eighteen arguments. -/
theorem result : after (ops (F := Ideal)) (launchContents m c) (Proc.devRef .tc main_v168)
    = (val_main_v168 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))) := by
  rw [after_ops]
  simp only [ops, List.take_succ_cons, List.take_zero, List.drop_succ_cons, List.drop_zero]
  after_results_simp
  rw [S3_v156, S3_arg2]
  rfl

end Cert.ReferenceIdeal.Stages

end
-- ==== Proof.lean ====
/-
  A three-layer message-passing network on a graph of 100000 nodes and 1600000 directed edges, followed by a mean
  over the nodes of each of 64 graphs. A layer aggregates the node table over incoming and over outgoing edges
  (a row gather followed by a scatter-add), forms `max (h·Ws + agg_in·Wi + agg_out·Wo) 0`, and normalises every
  column by its mean and variance over all nodes.

  The two programs compute the aggregations, the normalisation's rescaling and the final pooling by the same host
  operations; the kernel program forms the activation and its column sums block by block (twenty blocks of 5000
  rows, the sums carried from block to block), which at exact arithmetic is the whole matrix product and the whole
  column sum, any grouping of a sum being the same sum. They differ in the variance: the kernel program takes
  `(∑ o²) / n − μ · μ`, the reference `(∑ (o − μ)²) / n`. These agree when the activations are real numbers and can
  differ at infinities, so the argument carries finiteness from the precondition (every float input finite) through
  each layer: gathers, finite sums, products, maxima with zero and quotients by `n` of reals are real, and the
  reciprocal square root is taken at a variance plus a positive constant.

  Both runs are read against one term, the reference's last stage function of the arguments: the kernel program's
  boundary contents are identified with the reference's stages layer by layer, and the reference's line of host
  operations is read in four stages cut at the layer boundaries.
-/
import proofs.«136260_j12601434046916_1_alg».proof.Defs
import proofs.«136260_j12601434046916_1_alg».proof.Proof.Gen.Kernel
import proofs.«136260_j12601434046916_1_alg».proof.Proof.Gen.Kernel.Skeleton
import proofs.«136260_j12601434046916_1_alg».proof.Proof.Gen.Kernel.Launch
import proofs.«136260_j12601434046916_1_alg».proof.Proof.Gen.Kernel.Points
import proofs.«136260_j12601434046916_1_alg».proof.Proof.Gen.Kernel.Frame
import proofs.«136260_j12601434046916_1_alg».proof.Proof.Gen.KernelIdeal
import proofs.«136260_j12601434046916_1_alg».proof.Proof.Gen.KernelIdeal.Skeleton
import proofs.«136260_j12601434046916_1_alg».proof.Proof.Gen.KernelIdeal.Launch
import proofs.«136260_j12601434046916_1_alg».proof.Proof.Gen.KernelIdeal.Points
import proofs.«136260_j12601434046916_1_alg».proof.Proof.Gen.KernelIdeal.Frame
import proofs.«136260_j12601434046916_1_alg».proof.Proof.Gen.ReferenceIdeal
import proofs.«136260_j12601434046916_1_alg».proof.Proof.Gen.Pre_finite_inputs
import proofs.«136260_j12601434046916_1_alg».proof.Proof.PreFinite
import proofs.«136260_j12601434046916_1_alg».proof.Proof.KFold
import proofs.«136260_j12601434046916_1_alg».proof.Proof.RefStages
import Idealize.ShloMosaic.Adequacy
import Idealize.ShloMosaic.Init

noncomputable section

namespace Cert.Proof

open Idealize.ShloMosaic Idealize.SL.Sem Cert.Kernel

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the idealized reference: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories agreeing on the arguments, under the precondition, both idealized programs end with the
    reference's last stage function of the arguments in their result buffers. -/
theorem algebraic : Cert.algebraic_KernelIdeal_ReferenceIdeal := by
  intro m ρ m' ρ' hpre hagree
  refine ⟨fun c => Cert.ReferenceIdeal.ReadP.val_main_v168 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · refine (θ_run Cert.KernelIdeal.defs _ _).mono (fun r h c => ⟨(h c).1.trans ?_, (h c).2⟩) (Cert.KernelIdeal.Run.run m ρ)
    obtain ⟨f0, f3, f4, f5, f6, f7, f8, f9, f10, f11, f12, f13, f14, f15, f16, f17⟩ :=
      Cert.PreFinite.finite_of_pre _ _ _ _ _ _ _ _ _ _ _ _ _ _ _ _ _ _ (hpre c)
    exact Cert.KernelIdeal.Fold.result m ρ c f0 f3 f4 f5 f6 f7 f8 f9 f10 f11 f12 f13 f14 f15 f16 f17
  · refine (θ_run Cert.ReferenceIdeal.defs _ _).mono (fun r h c => ⟨(h c).1.trans ?_, (h c).2⟩)
      (Cert.ReferenceIdeal.ValueP.run (F := Ideal) m' ρ')
    rw [Cert.ReferenceIdeal.Stages.result m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
